-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S4096x1024 : Shape := ⟨2, ![4096, 1024]⟩
abbrev S8192x1024 : Shape := ⟨2, ![8192, 1024]⟩
abbrev S32 : Shape := ⟨1, ![32]⟩
abbrev S_ : Shape := ⟨0, ![]⟩
abbrev S1 : Shape := ⟨1, ![1]⟩
abbrev S64x1024 : Shape := ⟨2, ![64, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 1 → Bool
  | ⟨0, _⟩ => false
  | _ => false

abbrev dmaSemScoped : Fin 129 → Bool
  | ⟨i, _⟩ => dmaSemScopedAt i

abbrev sig : RefSig :=
  { ofTc nBuf bufTy 1 129 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v19 : BitVec 32 := Scalar.muli v2 c4096_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  let v18 : BitVec 32 := Scalar.addi v17 c0_i32_12
  let v20 : BitVec 32 := Scalar.addi v19 v18
  let c0_i32_18 : BitVec 32 := 0#32
  ![v20.toNat, 0]
def k0_off2 (d0 : Dev nD) (c0_i32_12 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v17 : BitVec 32 := Scalar.muli v5 c2048_i32
  let v18 : BitVec 32 := Scalar.addi v17 c0_i32_12
  let c0_i32_19 : BitVec 32 := 0#32
  ![v18.toNat, 0]
def k0_dev3 (d0 : Dev nD) : Nat :=
  let c0_i32_16 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_15 : BitVec 32 := 2#32
  let v21 : BitVec 32 := Scalar.muli v6 c2_i32_15
  let v22 : BitVec 32 := Scalar.addi c0_i32_16 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v23 : BitVec 32 := Scalar.muli v5 c1_i32_17
  let v24 : BitVec 32 := Scalar.addi v22 v23
  v24.toNat
def k0_dev4 (d0 : Dev nD) : Nat :=
  let c0_i32_25 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_24 : BitVec 32 := 2#32
  let v35 : BitVec 32 := Scalar.muli v6 c2_i32_24
  let v36 : BitVec 32 := Scalar.addi c0_i32_25 v35
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_26 : BitVec 32 := 1#32
  let v37 : BitVec 32 := Scalar.muli v5 c1_i32_26
  let v38 : BitVec 32 := Scalar.addi v36 v37
  v38.toNat
def k0_dev5 (d0 : Dev nD) : Nat :=
  let c0_i32_34 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_33 : BitVec 32 := 2#32
  let v49 : BitVec 32 := Scalar.muli v6 c2_i32_33
  let v50 : BitVec 32 := Scalar.addi c0_i32_34 v49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v51 : BitVec 32 := Scalar.muli v5 c1_i32_35
  let v52 : BitVec 32 := Scalar.addi v50 v51
  v52.toNat
def k0_dev6 (d0 : Dev nD) : Nat :=
  let c0_i32_42 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_41 : BitVec 32 := 2#32
  let v63 : BitVec 32 := Scalar.muli v6 c2_i32_41
  let v64 : BitVec 32 := Scalar.addi c0_i32_42 v63
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v65 : BitVec 32 := Scalar.muli v5 c1_i32_43
  let v66 : BitVec 32 := Scalar.addi v64 v65
  v66.toNat
def k0_dev7 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v77 : BitVec 32 := Scalar.muli v6 c2_i32_49
  let v78 : BitVec 32 := Scalar.addi c0_i32_50 v77
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v79 : BitVec 32 := Scalar.muli v5 c1_i32_51
  let v80 : BitVec 32 := Scalar.addi v78 v79
  v80.toNat
def k0_dev8 (d0 : Dev nD) : Nat :=
  let c0_i32_58 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_57 : BitVec 32 := 2#32
  let v91 : BitVec 32 := Scalar.muli v6 c2_i32_57
  let v92 : BitVec 32 := Scalar.addi c0_i32_58 v91
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_59 : BitVec 32 := 1#32
  let v93 : BitVec 32 := Scalar.muli v5 c1_i32_59
  let v94 : BitVec 32 := Scalar.addi v92 v93
  v94.toNat
def k0_dev9 (d0 : Dev nD) : Nat :=
  let c0_i32_66 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_65 : BitVec 32 := 2#32
  let v105 : BitVec 32 := Scalar.muli v6 c2_i32_65
  let v106 : BitVec 32 := Scalar.addi c0_i32_66 v105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v107 : BitVec 32 := Scalar.muli v5 c1_i32_67
  let v108 : BitVec 32 := Scalar.addi v106 v107
  v108.toNat
def k0_dev10 (d0 : Dev nD) : Nat :=
  let c0_i32_74 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_73 : BitVec 32 := 2#32
  let v119 : BitVec 32 := Scalar.muli v6 c2_i32_73
  let v120 : BitVec 32 := Scalar.addi c0_i32_74 v119
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v121 : BitVec 32 := Scalar.muli v5 c1_i32_75
  let v122 : BitVec 32 := Scalar.addi v120 v121
  v122.toNat
def k0_dev11 (d0 : Dev nD) : Nat :=
  let c0_i32_82 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_81 : BitVec 32 := 2#32
  let v133 : BitVec 32 := Scalar.muli v6 c2_i32_81
  let v134 : BitVec 32 := Scalar.addi c0_i32_82 v133
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_83 : BitVec 32 := 1#32
  let v135 : BitVec 32 := Scalar.muli v5 c1_i32_83
  let v136 : BitVec 32 := Scalar.addi v134 v135
  v136.toNat
def k0_dev12 (d0 : Dev nD) : Nat :=
  let c0_i32_90 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_89 : BitVec 32 := 2#32
  let v147 : BitVec 32 := Scalar.muli v6 c2_i32_89
  let v148 : BitVec 32 := Scalar.addi c0_i32_90 v147
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_91 : BitVec 32 := 1#32
  let v149 : BitVec 32 := Scalar.muli v5 c1_i32_91
  let v150 : BitVec 32 := Scalar.addi v148 v149
  v150.toNat
def k0_dev13 (d0 : Dev nD) : Nat :=
  let c0_i32_98 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_97 : BitVec 32 := 2#32
  let v161 : BitVec 32 := Scalar.muli v6 c2_i32_97
  let v162 : BitVec 32 := Scalar.addi c0_i32_98 v161
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99 : BitVec 32 := 1#32
  let v163 : BitVec 32 := Scalar.muli v5 c1_i32_99
  let v164 : BitVec 32 := Scalar.addi v162 v163
  v164.toNat
def k0_dev14 (d0 : Dev nD) : Nat :=
  let c0_i32_106 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_105 : BitVec 32 := 2#32
  let v175 : BitVec 32 := Scalar.muli v6 c2_i32_105
  let v176 : BitVec 32 := Scalar.addi c0_i32_106 v175
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_107 : BitVec 32 := 1#32
  let v177 : BitVec 32 := Scalar.muli v5 c1_i32_107
  let v178 : BitVec 32 := Scalar.addi v176 v177
  v178.toNat
def k0_dev15 (d0 : Dev nD) : Nat :=
  let c0_i32_114 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_113 : BitVec 32 := 2#32
  let v189 : BitVec 32 := Scalar.muli v6 c2_i32_113
  let v190 : BitVec 32 := Scalar.addi c0_i32_114 v189
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_115 : BitVec 32 := 1#32
  let v191 : BitVec 32 := Scalar.muli v5 c1_i32_115
  let v192 : BitVec 32 := Scalar.addi v190 v191
  v192.toNat
def k0_dev16 (d0 : Dev nD) : Nat :=
  let c0_i32_122 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_121 : BitVec 32 := 2#32
  let v203 : BitVec 32 := Scalar.muli v6 c2_i32_121
  let v204 : BitVec 32 := Scalar.addi c0_i32_122 v203
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_123 : BitVec 32 := 1#32
  let v205 : BitVec 32 := Scalar.muli v5 c1_i32_123
  let v206 : BitVec 32 := Scalar.addi v204 v205
  v206.toNat
def k0_dev17 (d0 : Dev nD) : Nat :=
  let c0_i32_130 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_129 : BitVec 32 := 2#32
  let v217 : BitVec 32 := Scalar.muli v6 c2_i32_129
  let v218 : BitVec 32 := Scalar.addi c0_i32_130 v217
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v219 : BitVec 32 := Scalar.muli v5 c1_i32_131
  let v220 : BitVec 32 := Scalar.addi v218 v219
  v220.toNat
def k0_dev18 (d0 : Dev nD) : Nat :=
  let c0_i32_138 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_137 : BitVec 32 := 2#32
  let v231 : BitVec 32 := Scalar.muli v6 c2_i32_137
  let v232 : BitVec 32 := Scalar.addi c0_i32_138 v231
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_139 : BitVec 32 := 1#32
  let v233 : BitVec 32 := Scalar.muli v5 c1_i32_139
  let v234 : BitVec 32 := Scalar.addi v232 v233
  v234.toNat
def k0_dev19 (d0 : Dev nD) : Nat :=
  let c0_i32_146 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_145 : BitVec 32 := 2#32
  let v245 : BitVec 32 := Scalar.muli v6 c2_i32_145
  let v246 : BitVec 32 := Scalar.addi c0_i32_146 v245
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_147 : BitVec 32 := 1#32
  let v247 : BitVec 32 := Scalar.muli v5 c1_i32_147
  let v248 : BitVec 32 := Scalar.addi v246 v247
  v248.toNat
def k0_dev20 (d0 : Dev nD) : Nat :=
  let c0_i32_154 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_153 : BitVec 32 := 2#32
  let v259 : BitVec 32 := Scalar.muli v6 c2_i32_153
  let v260 : BitVec 32 := Scalar.addi c0_i32_154 v259
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_155 : BitVec 32 := 1#32
  let v261 : BitVec 32 := Scalar.muli v5 c1_i32_155
  let v262 : BitVec 32 := Scalar.addi v260 v261
  v262.toNat
def k0_dev21 (d0 : Dev nD) : Nat :=
  let c0_i32_162 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_161 : BitVec 32 := 2#32
  let v273 : BitVec 32 := Scalar.muli v6 c2_i32_161
  let v274 : BitVec 32 := Scalar.addi c0_i32_162 v273
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_163 : BitVec 32 := 1#32
  let v275 : BitVec 32 := Scalar.muli v5 c1_i32_163
  let v276 : BitVec 32 := Scalar.addi v274 v275
  v276.toNat
def k0_dev22 (d0 : Dev nD) : Nat :=
  let c0_i32_170 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_169 : BitVec 32 := 2#32
  let v287 : BitVec 32 := Scalar.muli v6 c2_i32_169
  let v288 : BitVec 32 := Scalar.addi c0_i32_170 v287
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_171 : BitVec 32 := 1#32
  let v289 : BitVec 32 := Scalar.muli v5 c1_i32_171
  let v290 : BitVec 32 := Scalar.addi v288 v289
  v290.toNat
def k0_dev23 (d0 : Dev nD) : Nat :=
  let c0_i32_178 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_177 : BitVec 32 := 2#32
  let v301 : BitVec 32 := Scalar.muli v6 c2_i32_177
  let v302 : BitVec 32 := Scalar.addi c0_i32_178 v301
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_179 : BitVec 32 := 1#32
  let v303 : BitVec 32 := Scalar.muli v5 c1_i32_179
  let v304 : BitVec 32 := Scalar.addi v302 v303
  v304.toNat
def k0_dev24 (d0 : Dev nD) : Nat :=
  let c0_i32_186 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_185 : BitVec 32 := 2#32
  let v315 : BitVec 32 := Scalar.muli v6 c2_i32_185
  let v316 : BitVec 32 := Scalar.addi c0_i32_186 v315
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_187 : BitVec 32 := 1#32
  let v317 : BitVec 32 := Scalar.muli v5 c1_i32_187
  let v318 : BitVec 32 := Scalar.addi v316 v317
  v318.toNat
def k0_dev25 (d0 : Dev nD) : Nat :=
  let c0_i32_194 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_193 : BitVec 32 := 2#32
  let v329 : BitVec 32 := Scalar.muli v6 c2_i32_193
  let v330 : BitVec 32 := Scalar.addi c0_i32_194 v329
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_195 : BitVec 32 := 1#32
  let v331 : BitVec 32 := Scalar.muli v5 c1_i32_195
  let v332 : BitVec 32 := Scalar.addi v330 v331
  v332.toNat
def k0_dev26 (d0 : Dev nD) : Nat :=
  let c0_i32_202 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_201 : BitVec 32 := 2#32
  let v343 : BitVec 32 := Scalar.muli v6 c2_i32_201
  let v344 : BitVec 32 := Scalar.addi c0_i32_202 v343
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_203 : BitVec 32 := 1#32
  let v345 : BitVec 32 := Scalar.muli v5 c1_i32_203
  let v346 : BitVec 32 := Scalar.addi v344 v345
  v346.toNat
def k0_dev27 (d0 : Dev nD) : Nat :=
  let c0_i32_210 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_209 : BitVec 32 := 2#32
  let v357 : BitVec 32 := Scalar.muli v6 c2_i32_209
  let v358 : BitVec 32 := Scalar.addi c0_i32_210 v357
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_211 : BitVec 32 := 1#32
  let v359 : BitVec 32 := Scalar.muli v5 c1_i32_211
  let v360 : BitVec 32 := Scalar.addi v358 v359
  v360.toNat
def k0_dev28 (d0 : Dev nD) : Nat :=
  let c0_i32_218 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_217 : BitVec 32 := 2#32
  let v371 : BitVec 32 := Scalar.muli v6 c2_i32_217
  let v372 : BitVec 32 := Scalar.addi c0_i32_218 v371
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_219 : BitVec 32 := 1#32
  let v373 : BitVec 32 := Scalar.muli v5 c1_i32_219
  let v374 : BitVec 32 := Scalar.addi v372 v373
  v374.toNat
def k0_dev29 (d0 : Dev nD) : Nat :=
  let c0_i32_226 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_225 : BitVec 32 := 2#32
  let v385 : BitVec 32 := Scalar.muli v6 c2_i32_225
  let v386 : BitVec 32 := Scalar.addi c0_i32_226 v385
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_227 : BitVec 32 := 1#32
  let v387 : BitVec 32 := Scalar.muli v5 c1_i32_227
  let v388 : BitVec 32 := Scalar.addi v386 v387
  v388.toNat
def k0_dev30 (d0 : Dev nD) : Nat :=
  let c0_i32_234 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_233 : BitVec 32 := 2#32
  let v399 : BitVec 32 := Scalar.muli v6 c2_i32_233
  let v400 : BitVec 32 := Scalar.addi c0_i32_234 v399
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_235 : BitVec 32 := 1#32
  let v401 : BitVec 32 := Scalar.muli v5 c1_i32_235
  let v402 : BitVec 32 := Scalar.addi v400 v401
  v402.toNat
def k0_dev31 (d0 : Dev nD) : Nat :=
  let c0_i32_242 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_241 : BitVec 32 := 2#32
  let v413 : BitVec 32 := Scalar.muli v6 c2_i32_241
  let v414 : BitVec 32 := Scalar.addi c0_i32_242 v413
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_243 : BitVec 32 := 1#32
  let v415 : BitVec 32 := Scalar.muli v5 c1_i32_243
  let v416 : BitVec 32 := Scalar.addi v414 v415
  v416.toNat
def k0_dev32 (d0 : Dev nD) : Nat :=
  let c0_i32_250 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_249 : BitVec 32 := 2#32
  let v427 : BitVec 32 := Scalar.muli v6 c2_i32_249
  let v428 : BitVec 32 := Scalar.addi c0_i32_250 v427
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_251 : BitVec 32 := 1#32
  let v429 : BitVec 32 := Scalar.muli v5 c1_i32_251
  let v430 : BitVec 32 := Scalar.addi v428 v429
  v430.toNat
def k0_dev33 (d0 : Dev nD) : Nat :=
  let c0_i32_258 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_257 : BitVec 32 := 2#32
  let v441 : BitVec 32 := Scalar.muli v6 c2_i32_257
  let v442 : BitVec 32 := Scalar.addi c0_i32_258 v441
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_259 : BitVec 32 := 1#32
  let v443 : BitVec 32 := Scalar.muli v5 c1_i32_259
  let v444 : BitVec 32 := Scalar.addi v442 v443
  v444.toNat
def k0_dev34 (d0 : Dev nD) : Nat :=
  let c0_i32_266 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_265 : BitVec 32 := 2#32
  let v455 : BitVec 32 := Scalar.muli v6 c2_i32_265
  let v456 : BitVec 32 := Scalar.addi c0_i32_266 v455
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_267 : BitVec 32 := 1#32
  let v457 : BitVec 32 := Scalar.muli v5 c1_i32_267
  let v458 : BitVec 32 := Scalar.addi v456 v457
  v458.toNat
def k0_off3 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_270 : BitVec 32 := 4096#32
  let v465 : BitVec 32 := Scalar.muli v2 c4096_i32_270
  let c0_i32_271 : BitVec 32 := 0#32
  ![v465.toNat, 0]
def k0_off4 (d0 : Dev nD) (c0_i32_282 : BitVec 32) : Fin 2 → Nat :=
  let c1_i32_279 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v475 : BitVec 32 := Scalar.subi c1_i32_279 v2
  let c4096_i32_280 : BitVec 32 := 4096#32
  let v476 : BitVec 32 := Scalar.muli v475 c4096_i32_280
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_281 : BitVec 32 := 2048#32
  let v477 : BitVec 32 := Scalar.muli v5 c2048_i32_281
  let v478 : BitVec 32 := Scalar.addi v476 v477
  let v479 : BitVec 32 := Scalar.addi v478 c0_i32_282
  let c0_i32_288 : BitVec 32 := 0#32
  ![v479.toNat, 0]
def k0_dev35 (d0 : Dev nD) : Nat :=
  let c0_i32_286 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_285 : BitVec 32 := 2#32
  let v480 : BitVec 32 := Scalar.muli v2 c2_i32_285
  let v481 : BitVec 32 := Scalar.addi c0_i32_286 v480
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_287 : BitVec 32 := 1#32
  let v482 : BitVec 32 := Scalar.muli v7 c1_i32_287
  let v483 : BitVec 32 := Scalar.addi v481 v482
  v483.toNat
def k0_dev36 (d0 : Dev nD) : Nat :=
  let c0_i32_304 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_303 : BitVec 32 := 2#32
  let v503 : BitVec 32 := Scalar.muli v2 c2_i32_303
  let v504 : BitVec 32 := Scalar.addi c0_i32_304 v503
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_305 : BitVec 32 := 1#32
  let v505 : BitVec 32 := Scalar.muli v7 c1_i32_305
  let v506 : BitVec 32 := Scalar.addi v504 v505
  v506.toNat
def k0_dev37 (d0 : Dev nD) : Nat :=
  let c0_i32_322 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_321 : BitVec 32 := 2#32
  let v526 : BitVec 32 := Scalar.muli v2 c2_i32_321
  let v527 : BitVec 32 := Scalar.addi c0_i32_322 v526
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_323 : BitVec 32 := 1#32
  let v528 : BitVec 32 := Scalar.muli v7 c1_i32_323
  let v529 : BitVec 32 := Scalar.addi v527 v528
  v529.toNat
def k0_dev38 (d0 : Dev nD) : Nat :=
  let c0_i32_340 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_339 : BitVec 32 := 2#32
  let v549 : BitVec 32 := Scalar.muli v2 c2_i32_339
  let v550 : BitVec 32 := Scalar.addi c0_i32_340 v549
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_341 : BitVec 32 := 1#32
  let v551 : BitVec 32 := Scalar.muli v7 c1_i32_341
  let v552 : BitVec 32 := Scalar.addi v550 v551
  v552.toNat
def k0_dev39 (d0 : Dev nD) : Nat :=
  let c0_i32_358 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_357 : BitVec 32 := 2#32
  let v572 : BitVec 32 := Scalar.muli v2 c2_i32_357
  let v573 : BitVec 32 := Scalar.addi c0_i32_358 v572
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_359 : BitVec 32 := 1#32
  let v574 : BitVec 32 := Scalar.muli v7 c1_i32_359
  let v575 : BitVec 32 := Scalar.addi v573 v574
  v575.toNat
def k0_dev40 (d0 : Dev nD) : Nat :=
  let c0_i32_376 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_375 : BitVec 32 := 2#32
  let v595 : BitVec 32 := Scalar.muli v2 c2_i32_375
  let v596 : BitVec 32 := Scalar.addi c0_i32_376 v595
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_377 : BitVec 32 := 1#32
  let v597 : BitVec 32 := Scalar.muli v7 c1_i32_377
  let v598 : BitVec 32 := Scalar.addi v596 v597
  v598.toNat
def k0_dev41 (d0 : Dev nD) : Nat :=
  let c0_i32_394 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_393 : BitVec 32 := 2#32
  let v618 : BitVec 32 := Scalar.muli v2 c2_i32_393
  let v619 : BitVec 32 := Scalar.addi c0_i32_394 v618
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_395 : BitVec 32 := 1#32
  let v620 : BitVec 32 := Scalar.muli v7 c1_i32_395
  let v621 : BitVec 32 := Scalar.addi v619 v620
  v621.toNat
def k0_dev42 (d0 : Dev nD) : Nat :=
  let c0_i32_412 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_411 : BitVec 32 := 2#32
  let v641 : BitVec 32 := Scalar.muli v2 c2_i32_411
  let v642 : BitVec 32 := Scalar.addi c0_i32_412 v641
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_413 : BitVec 32 := 1#32
  let v643 : BitVec 32 := Scalar.muli v7 c1_i32_413
  let v644 : BitVec 32 := Scalar.addi v642 v643
  v644.toNat
def k0_dev43 (d0 : Dev nD) : Nat :=
  let c0_i32_430 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_429 : BitVec 32 := 2#32
  let v664 : BitVec 32 := Scalar.muli v2 c2_i32_429
  let v665 : BitVec 32 := Scalar.addi c0_i32_430 v664
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_431 : BitVec 32 := 1#32
  let v666 : BitVec 32 := Scalar.muli v7 c1_i32_431
  let v667 : BitVec 32 := Scalar.addi v665 v666
  v667.toNat
def k0_dev44 (d0 : Dev nD) : Nat :=
  let c0_i32_448 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_447 : BitVec 32 := 2#32
  let v687 : BitVec 32 := Scalar.muli v2 c2_i32_447
  let v688 : BitVec 32 := Scalar.addi c0_i32_448 v687
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_449 : BitVec 32 := 1#32
  let v689 : BitVec 32 := Scalar.muli v7 c1_i32_449
  let v690 : BitVec 32 := Scalar.addi v688 v689
  v690.toNat
def k0_dev45 (d0 : Dev nD) : Nat :=
  let c0_i32_466 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_465 : BitVec 32 := 2#32
  let v710 : BitVec 32 := Scalar.muli v2 c2_i32_465
  let v711 : BitVec 32 := Scalar.addi c0_i32_466 v710
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_467 : BitVec 32 := 1#32
  let v712 : BitVec 32 := Scalar.muli v7 c1_i32_467
  let v713 : BitVec 32 := Scalar.addi v711 v712
  v713.toNat
def k0_dev46 (d0 : Dev nD) : Nat :=
  let c0_i32_484 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_483 : BitVec 32 := 2#32
  let v733 : BitVec 32 := Scalar.muli v2 c2_i32_483
  let v734 : BitVec 32 := Scalar.addi c0_i32_484 v733
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_485 : BitVec 32 := 1#32
  let v735 : BitVec 32 := Scalar.muli v7 c1_i32_485
  let v736 : BitVec 32 := Scalar.addi v734 v735
  v736.toNat
def k0_dev47 (d0 : Dev nD) : Nat :=
  let c0_i32_502 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_501 : BitVec 32 := 2#32
  let v756 : BitVec 32 := Scalar.muli v2 c2_i32_501
  let v757 : BitVec 32 := Scalar.addi c0_i32_502 v756
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_503 : BitVec 32 := 1#32
  let v758 : BitVec 32 := Scalar.muli v7 c1_i32_503
  let v759 : BitVec 32 := Scalar.addi v757 v758
  v759.toNat
def k0_dev48 (d0 : Dev nD) : Nat :=
  let c0_i32_520 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_519 : BitVec 32 := 2#32
  let v779 : BitVec 32 := Scalar.muli v2 c2_i32_519
  let v780 : BitVec 32 := Scalar.addi c0_i32_520 v779
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_521 : BitVec 32 := 1#32
  let v781 : BitVec 32 := Scalar.muli v7 c1_i32_521
  let v782 : BitVec 32 := Scalar.addi v780 v781
  v782.toNat
def k0_dev49 (d0 : Dev nD) : Nat :=
  let c0_i32_538 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_537 : BitVec 32 := 2#32
  let v802 : BitVec 32 := Scalar.muli v2 c2_i32_537
  let v803 : BitVec 32 := Scalar.addi c0_i32_538 v802
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_539 : BitVec 32 := 1#32
  let v804 : BitVec 32 := Scalar.muli v7 c1_i32_539
  let v805 : BitVec 32 := Scalar.addi v803 v804
  v805.toNat
def k0_dev50 (d0 : Dev nD) : Nat :=
  let c0_i32_556 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_555 : BitVec 32 := 2#32
  let v825 : BitVec 32 := Scalar.muli v2 c2_i32_555
  let v826 : BitVec 32 := Scalar.addi c0_i32_556 v825
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_557 : BitVec 32 := 1#32
  let v827 : BitVec 32 := Scalar.muli v7 c1_i32_557
  let v828 : BitVec 32 := Scalar.addi v826 v827
  v828.toNat
def k0_dev51 (d0 : Dev nD) : Nat :=
  let c0_i32_574 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_573 : BitVec 32 := 2#32
  let v848 : BitVec 32 := Scalar.muli v2 c2_i32_573
  let v849 : BitVec 32 := Scalar.addi c0_i32_574 v848
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_575 : BitVec 32 := 1#32
  let v850 : BitVec 32 := Scalar.muli v7 c1_i32_575
  let v851 : BitVec 32 := Scalar.addi v849 v850
  v851.toNat
def k0_dev52 (d0 : Dev nD) : Nat :=
  let c0_i32_592 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_591 : BitVec 32 := 2#32
  let v871 : BitVec 32 := Scalar.muli v2 c2_i32_591
  let v872 : BitVec 32 := Scalar.addi c0_i32_592 v871
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_593 : BitVec 32 := 1#32
  let v873 : BitVec 32 := Scalar.muli v7 c1_i32_593
  let v874 : BitVec 32 := Scalar.addi v872 v873
  v874.toNat
def k0_dev53 (d0 : Dev nD) : Nat :=
  let c0_i32_610 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_609 : BitVec 32 := 2#32
  let v894 : BitVec 32 := Scalar.muli v2 c2_i32_609
  let v895 : BitVec 32 := Scalar.addi c0_i32_610 v894
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_611 : BitVec 32 := 1#32
  let v896 : BitVec 32 := Scalar.muli v7 c1_i32_611
  let v897 : BitVec 32 := Scalar.addi v895 v896
  v897.toNat
def k0_dev54 (d0 : Dev nD) : Nat :=
  let c0_i32_628 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_627 : BitVec 32 := 2#32
  let v917 : BitVec 32 := Scalar.muli v2 c2_i32_627
  let v918 : BitVec 32 := Scalar.addi c0_i32_628 v917
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_629 : BitVec 32 := 1#32
  let v919 : BitVec 32 := Scalar.muli v7 c1_i32_629
  let v920 : BitVec 32 := Scalar.addi v918 v919
  v920.toNat
def k0_dev55 (d0 : Dev nD) : Nat :=
  let c0_i32_646 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_645 : BitVec 32 := 2#32
  let v940 : BitVec 32 := Scalar.muli v2 c2_i32_645
  let v941 : BitVec 32 := Scalar.addi c0_i32_646 v940
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_647 : BitVec 32 := 1#32
  let v942 : BitVec 32 := Scalar.muli v7 c1_i32_647
  let v943 : BitVec 32 := Scalar.addi v941 v942
  v943.toNat
def k0_dev56 (d0 : Dev nD) : Nat :=
  let c0_i32_664 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_663 : BitVec 32 := 2#32
  let v963 : BitVec 32 := Scalar.muli v2 c2_i32_663
  let v964 : BitVec 32 := Scalar.addi c0_i32_664 v963
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_665 : BitVec 32 := 1#32
  let v965 : BitVec 32 := Scalar.muli v7 c1_i32_665
  let v966 : BitVec 32 := Scalar.addi v964 v965
  v966.toNat
def k0_dev57 (d0 : Dev nD) : Nat :=
  let c0_i32_682 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_681 : BitVec 32 := 2#32
  let v986 : BitVec 32 := Scalar.muli v2 c2_i32_681
  let v987 : BitVec 32 := Scalar.addi c0_i32_682 v986
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_683 : BitVec 32 := 1#32
  let v988 : BitVec 32 := Scalar.muli v7 c1_i32_683
  let v989 : BitVec 32 := Scalar.addi v987 v988
  v989.toNat
def k0_dev58 (d0 : Dev nD) : Nat :=
  let c0_i32_700 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_699 : BitVec 32 := 2#32
  let v1009 : BitVec 32 := Scalar.muli v2 c2_i32_699
  let v1010 : BitVec 32 := Scalar.addi c0_i32_700 v1009
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_701 : BitVec 32 := 1#32
  let v1011 : BitVec 32 := Scalar.muli v7 c1_i32_701
  let v1012 : BitVec 32 := Scalar.addi v1010 v1011
  v1012.toNat
def k0_dev59 (d0 : Dev nD) : Nat :=
  let c0_i32_718 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_717 : BitVec 32 := 2#32
  let v1032 : BitVec 32 := Scalar.muli v2 c2_i32_717
  let v1033 : BitVec 32 := Scalar.addi c0_i32_718 v1032
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_719 : BitVec 32 := 1#32
  let v1034 : BitVec 32 := Scalar.muli v7 c1_i32_719
  let v1035 : BitVec 32 := Scalar.addi v1033 v1034
  v1035.toNat
def k0_dev60 (d0 : Dev nD) : Nat :=
  let c0_i32_736 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_735 : BitVec 32 := 2#32
  let v1055 : BitVec 32 := Scalar.muli v2 c2_i32_735
  let v1056 : BitVec 32 := Scalar.addi c0_i32_736 v1055
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_737 : BitVec 32 := 1#32
  let v1057 : BitVec 32 := Scalar.muli v7 c1_i32_737
  let v1058 : BitVec 32 := Scalar.addi v1056 v1057
  v1058.toNat
def k0_dev61 (d0 : Dev nD) : Nat :=
  let c0_i32_754 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_753 : BitVec 32 := 2#32
  let v1078 : BitVec 32 := Scalar.muli v2 c2_i32_753
  let v1079 : BitVec 32 := Scalar.addi c0_i32_754 v1078
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_755 : BitVec 32 := 1#32
  let v1080 : BitVec 32 := Scalar.muli v7 c1_i32_755
  let v1081 : BitVec 32 := Scalar.addi v1079 v1080
  v1081.toNat
def k0_dev62 (d0 : Dev nD) : Nat :=
  let c0_i32_772 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_771 : BitVec 32 := 2#32
  let v1101 : BitVec 32 := Scalar.muli v2 c2_i32_771
  let v1102 : BitVec 32 := Scalar.addi c0_i32_772 v1101
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_773 : BitVec 32 := 1#32
  let v1103 : BitVec 32 := Scalar.muli v7 c1_i32_773
  let v1104 : BitVec 32 := Scalar.addi v1102 v1103
  v1104.toNat
def k0_dev63 (d0 : Dev nD) : Nat :=
  let c0_i32_790 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_789 : BitVec 32 := 2#32
  let v1124 : BitVec 32 := Scalar.muli v2 c2_i32_789
  let v1125 : BitVec 32 := Scalar.addi c0_i32_790 v1124
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_791 : BitVec 32 := 1#32
  let v1126 : BitVec 32 := Scalar.muli v7 c1_i32_791
  let v1127 : BitVec 32 := Scalar.addi v1125 v1126
  v1127.toNat
def k0_dev64 (d0 : Dev nD) : Nat :=
  let c0_i32_808 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_807 : BitVec 32 := 2#32
  let v1147 : BitVec 32 := Scalar.muli v2 c2_i32_807
  let v1148 : BitVec 32 := Scalar.addi c0_i32_808 v1147
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_809 : BitVec 32 := 1#32
  let v1149 : BitVec 32 := Scalar.muli v7 c1_i32_809
  let v1150 : BitVec 32 := Scalar.addi v1148 v1149
  v1150.toNat
def k0_dev65 (d0 : Dev nD) : Nat :=
  let c0_i32_826 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_825 : BitVec 32 := 2#32
  let v1170 : BitVec 32 := Scalar.muli v2 c2_i32_825
  let v1171 : BitVec 32 := Scalar.addi c0_i32_826 v1170
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_827 : BitVec 32 := 1#32
  let v1172 : BitVec 32 := Scalar.muli v7 c1_i32_827
  let v1173 : BitVec 32 := Scalar.addi v1171 v1172
  v1173.toNat
def k0_dev66 (d0 : Dev nD) : Nat :=
  let c0_i32_844 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_843 : BitVec 32 := 2#32
  let v1193 : BitVec 32 := Scalar.muli v2 c2_i32_843
  let v1194 : BitVec 32 := Scalar.addi c0_i32_844 v1193
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_845 : BitVec 32 := 1#32
  let v1195 : BitVec 32 := Scalar.muli v7 c1_i32_845
  let v1196 : BitVec 32 := Scalar.addi v1194 v1195
  v1196.toNat

class Facts₀ : Prop where
  hamt_1 : (1#32 : BitVec 32).msb = false
  hamt_2 : (2#32 : BitVec 32).msb = false
  inb_S32_S1_0 : ∀ a, (![0] : Fin 1 → Nat) a + S1.size a ≤ S32.size a
  squeezes_S1_S_ : S1.Squeezes S_
  inb_S32_S1_1 : ∀ a, (![1] : Fin 1 → Nat) a + S1.size a ≤ S32.size a
  inb_S32_S1_2 : ∀ a, (![2] : Fin 1 → Nat) a + S1.size a ≤ S32.size a
  inb_S32_S1_3 : ∀ a, (![3] : Fin 1 → Nat) a + S1.size a ≤ S32.size a
  inb_S32_S1_4 : ∀ a, (![4] : Fin 1 → Nat) a + S1.size a ≤ S32.size a
  inb_S32_S1_5 : ∀ a, (![5] : Fin 1 → Nat) a + S1.size a ≤ S32.size a
  inb_S32_S1_6 : ∀ a, (![6] : Fin 1 → Nat) a + S1.size a ≤ S32.size a
  inb_S32_S1_7 : ∀ a, (![7] : Fin 1 → Nat) a + S1.size a ≤ S32.size a
  inb_S32_S1_8 : ∀ a, (![8] : Fin 1 → Nat) a + S1.size a ≤ S32.size a
  inb_S32_S1_9 : ∀ a, (![9] : Fin 1 → Nat) a + S1.size a ≤ S32.size a
  inb_S32_S1_10 : ∀ a, (![10] : Fin 1 → Nat) a + S1.size a ≤ S32.size a
  inb_S32_S1_11 : ∀ a, (![11] : Fin 1 → Nat) a + S1.size a ≤ S32.size a
  inb_S32_S1_12 : ∀ a, (![12] : Fin 1 → Nat) a + S1.size a ≤ S32.size a
  inb_S32_S1_13 : ∀ a, (![13] : Fin 1 → Nat) a + S1.size a ≤ S32.size a
  inb_S32_S1_14 : ∀ a, (![14] : Fin 1 → Nat) a + S1.size a ≤ S32.size a
  inb_S32_S1_15 : ∀ a, (![15] : Fin 1 → Nat) a + S1.size a ≤ S32.size a
  inb_S32_S1_16 : ∀ a, (![16] : Fin 1 → Nat) a + S1.size a ≤ S32.size a
  inb_S32_S1_17 : ∀ a, (![17] : Fin 1 → Nat) a + S1.size a ≤ S32.size a
  inb_S32_S1_18 : ∀ a, (![18] : Fin 1 → Nat) a + S1.size a ≤ S32.size a
  inb_S32_S1_19 : ∀ a, (![19] : Fin 1 → Nat) a + S1.size a ≤ S32.size a
  inb_S32_S1_20 : ∀ a, (![20] : Fin 1 → Nat) a + S1.size a ≤ S32.size a
  inb_S32_S1_21 : ∀ a, (![21] : Fin 1 → Nat) a + S1.size a ≤ S32.size a
  inb_S32_S1_22 : ∀ a, (![22] : Fin 1 → Nat) a + S1.size a ≤ S32.size a
  inb_S32_S1_23 : ∀ a, (![23] : Fin 1 → Nat) a + S1.size a ≤ S32.size a
  inb_S32_S1_24 : ∀ a, (![24] : Fin 1 → Nat) a + S1.size a ≤ S32.size a
  inb_S32_S1_25 : ∀ a, (![25] : Fin 1 → Nat) a + S1.size a ≤ S32.size a
  inb_S32_S1_26 : ∀ a, (![26] : Fin 1 → Nat) a + S1.size a ≤ S32.size a
  inb_S32_S1_27 : ∀ a, (![27] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  hcc0_scratch0 : 0 + S32.numel ≤ 129
  hcc0_scratch1 : 32 + S32.numel ≤ 129
  hcc0_scratch2 : 64 + S32.numel ≤ 129
  hcc0_scratch3 : 96 + S32.numel ≤ 129
  hcc0_scratch4 : 128 + S_.numel ≤ 129
  k0_dev1_lt : ∀ d0 : Dev nD, (k0_dev1 d0) < nD
  k0_dev2_lt : ∀ d0 : Dev nD, (k0_dev2 d0) < nD
  k0_off1_inb : ∀ d0 : Dev nD, ∀ (r : Fin 32), ∀ a, (k0_off1 d0 (BitVec.ofNat 32 (64 * r.val))) a + S64x1024.size a ≤ S8192x1024.size a
  k0_off2_inb : ∀ d0 : Dev nD, ∀ (r : Fin 32), ∀ a, (k0_off2 d0 (BitVec.ofNat 32 (64 * r.val))) a + S64x1024.size a ≤ S4096x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off3_inb : ∀ d0 : Dev nD, ∀ a, (k0_off3 d0) a + S4096x1024.size a ≤ S8192x1024.size a
  k0_off4_inb : ∀ d0 : Dev nD, ∀ (r : Fin 32), ∀ a, (k0_off4 d0 (BitVec.ofNat 32 (64 * r.val))) a + S64x1024.size a ≤ S8192x1024.size a
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD

variable [Facts₀]

abbrev cc0_scratch0 : DmaSems sig S32 := SemArray.consecutive 0 S32 hcc0_scratch0
abbrev cc0_scratch1 : DmaSems sig S32 := SemArray.consecutive 32 S32 hcc0_scratch1
abbrev cc0_scratch2 : DmaSems sig S32 := SemArray.consecutive 64 S32 hcc0_scratch2
abbrev cc0_scratch3 : DmaSems sig S32 := SemArray.consecutive 96 S32 hcc0_scratch3
abbrev cc0_scratch4 : DmaSems sig S_ := SemArray.consecutive 128 S_ hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x1024 : Shape := ⟨2, ![8192, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.AgDefs.lean ====
/-
  An all-gather on a 2 × 2 mesh, device (a, b) at logical id 2a + b.  Each device holds the row block a of the
  array (4096 rows of 1024) and ends with all 8192 rows: its own block by a local copy; of the other block, the
  half b (2048 rows, in 32 chunks of 64 rows) straight from its neighbour along the first axis, and the other
  half relayed by its neighbour along the second axis, who received it from the device diagonally opposite.
  This module names the neighbours, the pieces of the arrays the copies read and write, and what each holds.
-/
import proofs.«900087_g7700000000000088_dist_ag_v7x_xy2x2_x_m4096_n1024_f32_1_alg».proof.Proof.Gen.KernelIdeal
import proofs.«900087_g7700000000000088_dist_ag_v7x_xy2x2_x_m4096_n1024_f32_1_alg».proof.Proof.Gen.KernelIdeal.Launch
import Idealize.ShloMosaic.Lib.Pipeline.Launch
import Idealize.ShloMosaic.Lib.Pipeline.Kit
import Idealize.ShloMosaic.Lib.Tactic

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two neighbours -/

/-- The neighbour along the first mesh axis: the other row block, the same half. -/
def xn (c : Dev nD) : Dev nD := ⟨((c.val % 2) + 2) - 2 * (c.val / 2), Gen.k0_dev1_eq c ▸ Gen.k0_dev1_lt c⟩
/-- The neighbour along the second mesh axis: the same row block, the other half. -/
def yn (c : Dev nD) : Dev nD := ⟨(2 * (c.val / 2) + 1) - (c.val % 2), Gen.k0_dev2_eq c ▸ Gen.k0_dev2_lt c⟩

theorem xn_xn (c : Dev nD) : xn (xn c) = c := by revert c; decide
theorem yn_yn (c : Dev nD) : yn (yn c) = c := by revert c; decide
theorem xn_yn (c : Dev nD) : xn (yn c) = yn (xn c) := by revert c; decide
theorem xn_ne (c : Dev nD) : xn c ≠ c := by revert c; decide
theorem yn_ne (c : Dev nD) : yn c ≠ c := by revert c; decide
theorem xn_ne_yn (c : Dev nD) : xn c ≠ yn c := by revert c; decide

def xnE : Dev nD ≃ Dev nD := ⟨xn, xn, xn_xn, xn_xn⟩
def ynE : Dev nD ≃ Dev nD := ⟨yn, yn, yn_yn, yn_yn⟩

/-! ## The arrays and their pieces -/

abbrev xM : Memref sig .tc .hbm S4096x1024 .f32 := Memref.whole main_arg0
abbrev oM : Memref sig .tc .hbm S8192x1024 .f32 := Memref.whole main_v1

/-- Chunk `k` of the half of its block that device `c` sends along the first axis. -/
abbrev xSl (c : Dev nD) (k : Fin 32) : Memref sig .tc .hbm S64x1024 .f32 :=
  xM.slice (Rect.unit (s := S4096x1024) (k0_off2 c (BitVec.ofNat 32 (64 * k.val))) S64x1024.size (Gen.k0_off2_inb c k)) (fun _ => rfl)
/-- Where that chunk lands in the result array (of the neighbour along the first axis). -/
abbrev o1 (c : Dev nD) (k : Fin 32) : Memref sig .tc .hbm S64x1024 .f32 :=
  oM.slice (Rect.unit (s := S8192x1024) (k0_off1 c (BitVec.ofNat 32 (64 * k.val))) S64x1024.size (Gen.k0_off1_inb c k)) (fun _ => rfl)
/-- The chunk `k` device `c` relays along the second axis: the same rows of both result arrays. -/
abbrev o4 (c : Dev nD) (k : Fin 32) : Memref sig .tc .hbm S64x1024 .f32 :=
  oM.slice (Rect.unit (s := S8192x1024) (k0_off4 c (BitVec.ofNat 32 (64 * k.val))) S64x1024.size (Gen.k0_off4_inb c k)) (fun _ => rfl)
/-- The rows of the result array that hold the device's own block. -/
abbrev o3 (c : Dev nD) : Memref sig .tc .hbm S4096x1024 .f32 :=
  oM.slice (Rect.unit (s := S8192x1024) (k0_off3 c) S4096x1024.size (Gen.k0_off3_inb c)) (fun _ => rfl)

variable (m : (ℓ : Loc nD τ sig) → Buf (Elt F) ℓ)

/-- Device `c`'s block of the array, and its result array as the kernel finds it. -/
abbrev X (c : Dev nD) : Buf (Elt F) ((c : Thread nD τ).loc main_arg0) := m ((c : Thread nD τ).loc main_arg0)
abbrev V0 (c : Dev nD) : Buf (Elt F) ((c : Thread nD τ).loc main_v1) := m ((c : Thread nD τ).loc main_v1)

/-- The result array once the device's own block has been copied into its rows. -/
def W3 (c : Dev nD) : Buf (Elt F) ((c : Thread nD τ).loc main_v1) :=
  (o3 c).view.write (Elt F) (V0 m c) ((xM : Memref sig .tc .hbm S4096x1024 .f32).view.read (Elt F) (X m c)) Finset.univ
/-- Device `c`'s result array once chunk `k` has arrived from its neighbour along the first axis. -/
def W1 (c : Dev nD) (k : Fin 32) : Buf (Elt F) ((c : Thread nD τ).loc main_v1) :=
  (o1 (xn c) k).view.write (Elt F) (V0 m c) ((xSl (xn c) k).view.read (Elt F) (X m (xn c))) Finset.univ
/-- Device `c`'s result array once chunk `k` has been relayed to it by its neighbour along the second axis. -/
def W4 (c : Dev nD) (k : Fin 32) : Buf (Elt F) ((c : Thread nD τ).loc main_v1) :=
  (o4 (yn c) k).view.write (Elt F) (V0 m c) ((o4 (yn c) k).view.read (Elt F) (W1 m (yn c) k)) Finset.univ

/-- What a result array is required to hold at the end, piece by piece. -/
structure OutSpec (c : Dev nD) (g : Buf (Elt F) ((c : Thread nD τ).loc main_v1)) : Prop where
  own : ∀ i ∈ (o3 c).view.set, g i = W3 m c i
  direct : ∀ k : Fin 32, ∀ i ∈ (o1 (xn c) k).view.set, g i = W1 m c k i
  relayed : ∀ k : Fin 32, ∀ i ∈ (o4 (yn c) k).view.set, g i = W4 m c k i

end Cert.KernelIdeal.AG

end
-- ==== Proof.AgProto.lean ====
/-
  The protocol of the all-gather, cell by cell.  Per device: the barrier semaphore (signalled once by each
  neighbour, waited for both), and per chunk k four transfer semaphores — A k: the direct transfer of chunk k has
  left; B k: the neighbour's direct chunk k has arrived; C k: the relay of chunk k has left; D k: the neighbour's
  relayed chunk k has arrived — and E: the local copy of the own block is done.  Every cell has one round.
  A neighbour's barrier signal hands over the rows of its result array that this device's transfers will fill.
-/
import proofs.«900087_g7700000000000088_dist_ag_v7x_xy2x2_x_m4096_n1024_f32_1_alg».proof.Proof.AgDefs
import Mathlib.Tactic.DeriveFintype

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

inductive CK : Type
  | bar | A (k : Fin 32) | B (k : Fin 32) | C (k : Fin 32) | D (k : Fin 32) | E
  deriving DecidableEq, Fintype

abbrev barS : Sem sig := (SemArray.scalar (sig.barrier 0 rfl) : Sems sig S_).sem

def dsem (base : ℕ) (h : base + 32 ≤ sig.nDmaSem) (k : Fin 32) : DmaSem sig :=
  ⟨base + k.val, Nat.lt_of_lt_of_le (Nat.add_lt_add_left k.isLt base) h⟩

def semOf : CK → SemLoc sig
  | .bar => .reg barS
  | .A k => .dma (dsem 0 (by decide) k)
  | .B k => .dma (dsem 32 (by decide) k)
  | .C k => .dma (dsem 64 (by decide) k)
  | .D k => .dma (dsem 96 (by decide) k)
  | .E => .dma ⟨128, by decide⟩

def kindOf : SemLoc sig → CK
  | .reg _ => .bar
  | .dma s =>
    if h : s.val < 32 then .A ⟨s.val, h⟩
    else if h2 : s.val < 64 then .B ⟨s.val - 32, by omega⟩
    else if h3 : s.val < 96 then .C ⟨s.val - 64, by omega⟩
    else if h4 : s.val < 128 then .D ⟨s.val - 96, by omega⟩
    else .E

theorem kindOf_semOf (k : CK) : kindOf (semOf k) = k := by
  cases k with
  | bar => rfl
  | E => rfl
  | A k => unfold kindOf semOf dsem; dsimp only; split_ifs <;> first | omega | (congr 1; apply Fin.ext; dsimp only; omega)
  | B k => unfold kindOf semOf dsem; dsimp only; split_ifs <;> first | omega | (congr 1; apply Fin.ext; dsimp only; omega)
  | C k => unfold kindOf semOf dsem; dsimp only; split_ifs <;> first | omega | (congr 1; apply Fin.ext; dsimp only; omega)
  | D k => unfold kindOf semOf dsem; dsimp only; split_ifs <;> first | omega | (congr 1; apply Fin.ext; dsimp only; omega)

theorem semOf_injective : Function.Injective semOf := fun a b h => by
  have := congrArg kindOf h; rwa [kindOf_semOf, kindOf_semOf] at this

abbrev cell (c : Dev nD) (k : CK) : GSem nD τ sig := ((c : Thread nD τ), semOf k)

theorem cell_injective : Function.Injective (fun ck : Dev nD × CK => cell ck.1 ck.2) := by
  rintro ⟨c, k⟩ ⟨c', k'⟩ h
  have h1 : c = c' := congrArg (fun g : GSem nD τ sig => g.1.1) h
  have h2 : k = k' := semOf_injective (congrArg Prod.snd h)
  subst h1; subst h2; rfl

/-- The units one chunk's transfer, and the local copy, credit. -/
abbrev N : ℕ := (o1 (0 : Dev nD) 0).view.dmaCredit
abbrev NE : ℕ := (o3 (0 : Dev nD)).view.dmaCredit
theorem N_pos : 0 < N := View.dmaCredit_pos _ (by decide)
theorem NE_pos : 0 < NE := View.dmaCredit_pos _ (by decide)

variable (m : (ℓ : Loc nD τ sig) → Buf (Elt F) ℓ)

/-! ## What arrives, as the transfer writes it (receiver `c`, sender `s`) -/

def W1' (c s : Dev nD) (k : Fin 32) : Buf (Elt F) ((c : Thread nD τ).loc main_v1) :=
  (o1 s k).view.write (Elt F) (V0 m c) ((xSl s k).view.read (Elt F) (X m s)) Finset.univ
def W4' (c s : Dev nD) (k : Fin 32) : Buf (Elt F) ((c : Thread nD τ).loc main_v1) :=
  (o4 s k).view.write (Elt F) (V0 m c) ((o4 s k).view.read (Elt F) (W1' m s (xn s) k)) Finset.univ

theorem W1_eq (c : Dev nD) (k : Fin 32) : W1 m c k = W1' m c (xn c) k := rfl
theorem W4_eq (c : Dev nD) (k : Fin 32) : W4 m c k = W4' m c (yn c) k := rfl

/-! ## The payloads -/

/-- A k: the chunk's rows of the own block, the share lent to the direct transfer, back. -/
def payA (c : Dev nD) (k : Fin 32) : sProp 𝕄 :=
  (xSl c k).view.loc (c : Thread nD τ) ↦[(xSl c k).view.set]{fullShare.right} X m c
/-- B k: the chunk's rows of the result array, filled by sender `s`. -/
def payB (c s : Dev nD) (k : Fin 32) : sProp 𝕄 :=
  (o1 s k).view.loc (c : Thread nD τ) ↦[(o1 s k).view.set]{fullShare} W1' m c s k
/-- C k: the relayed rows of the own result array, back. -/
def payC (c : Dev nD) (k : Fin 32) : sProp 𝕄 :=
  (o4 c k).view.loc (c : Thread nD τ) ↦[(o4 c k).view.set]{fullShare} W1 m c k
/-- D k: the chunk's rows of the result array, filled by the relaying sender `s`. -/
def payD (c s : Dev nD) (k : Fin 32) : sProp 𝕄 :=
  (o4 s k).view.loc (c : Thread nD τ) ↦[(o4 s k).view.set]{fullShare} W4' m c s k
/-- E: the own block's rows of the result array, filled, and the share of the block lent to the copy. -/
def payE (c : Dev nD) : sProp 𝕄 :=
  iprop(((o3 c).view.loc (c : Thread nD τ) ↦[(o3 c).view.set]{fullShare} W3 m c)
    ∗ ((xM : Memref sig .tc .hbm S4096x1024 .f32).view.loc (c : Thread nD τ) ↦[(xM : Memref sig .tc .hbm S4096x1024 .f32).view.set]{fullShare.left} X m c))
/-- The barrier signal of the neighbour `s` along the first axis: the rows of ITS result array that `c`'s direct transfers fill. -/
def barPayX (c s : Dev nD) : sProp 𝕄 :=
  bigSep Finset.univ fun k : Fin 32 => (o1 c k).view.loc (s : Thread nD τ) ↦[(o1 c k).view.set]{fullShare} V0 m s
/-- The barrier signal of the neighbour along the second axis: the rows of its result array that `c`'s relays fill. -/
def barPayY (c s : Dev nD) : sProp 𝕄 :=
  bigSep Finset.univ fun k : Fin 32 => (o4 c k).view.loc (s : Thread nD τ) ↦[(o4 c k).view.set]{fullShare} V0 m s

/-- One round, round 0.  The barrier's duty `false` is the first-axis neighbour's signal, `true` the second-axis neighbour's. -/
def sched : Rounds.Schedule (GSem nD τ sig) Bool 𝕄 where
  duties g r := if r = 0 ∧ g.1.2 = .tc then (match kindOf g.2 with | .bar => Finset.univ | _ => {false}) else ∅
  unitless _ := False
  amount g _ _ := match kindOf g.2 with | .bar => 1 | .E => NE | _ => N
  payload g _ d := match kindOf g.2 with
    | .bar => if d then barPayY m g.1.1 (yn g.1.1) else barPayX m g.1.1 (xn g.1.1)
    | .A k => payA m g.1.1 k
    | .B k => payB m g.1.1 (xn g.1.1) k
    | .C k => payC m g.1.1 k
    | .D k => payD m g.1.1 (yn g.1.1) k
    | .E => payE m g.1.1
  amount_pos g _ _ _ := by
    split <;> first | exact Nat.one_pos | exact NE_pos | exact N_pos

instance sched_payload_storable (g : GSem nD τ sig) (r : ℕ) (d : Bool) :
    BI.Storable (upEmb : UEmb _ 𝕄) ((sched (F := F) m).payload g r d) := by
  show BI.Storable upEmb (match kindOf g.2 with
    | .bar => if d then barPayY m g.1.1 (yn g.1.1) else barPayX m g.1.1 (xn g.1.1)
    | .A k => payA m g.1.1 k
    | .B k => payB m g.1.1 (xn g.1.1) k
    | .C k => payC m g.1.1 k
    | .D k => payD m g.1.1 (yn g.1.1) k
    | .E => payE m g.1.1)
  generalize kindOf g.2 = kk
  cases kk with
  | bar =>
    cases d
    · show BI.Storable upEmb (barPayX m g.1.1 (xn g.1.1)); unfold barPayX; infer_instance
    · show BI.Storable upEmb (barPayY m g.1.1 (yn g.1.1)); unfold barPayY; infer_instance
  | A k => show BI.Storable upEmb (payA m g.1.1 k); unfold payA; infer_instance
  | B k => show BI.Storable upEmb (payB m g.1.1 (xn g.1.1) k); unfold payB; infer_instance
  | C k => show BI.Storable upEmb (payC m g.1.1 k); unfold payC; infer_instance
  | D k => show BI.Storable upEmb (payD m g.1.1 (yn g.1.1) k); unfold payD; infer_instance
  | E => show BI.Storable upEmb (payE m g.1.1); unfold payE; infer_instance

section Sched
variable (c : Dev nD)

omit [FloatOps F] in
theorem duties_bar : (sched (F := F) m).duties (cell c .bar) 0 = Finset.univ := by
  dsimp only [sched]; rw [if_pos ⟨rfl, rfl⟩, kindOf_semOf]
omit [FloatOps F] in
theorem duties_dma (k : CK) (hk : k ≠ .bar) : (sched (F := F) m).duties (cell c k) 0 = {false} := by
  dsimp only [sched]; rw [if_pos ⟨rfl, rfl⟩, kindOf_semOf]; cases k <;> first | rfl | exact absurd rfl hk
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Bool) : (sched (F := F) m).amount (cell c .bar) 0 d = 1 := by dsimp only [sched]; rw [kindOf_semOf]
omit [FloatOps F] in
theorem amount_E (d : Bool) : (sched (F := F) m).amount (cell c .E) 0 d = NE := by dsimp only [sched]; rw [kindOf_semOf]
omit [FloatOps F] in
theorem amount_chunk (k : CK) (hb : k ≠ .bar) (he : k ≠ .E) (d : Bool) : (sched (F := F) m).amount (cell c k) 0 d = N := by
  dsimp only [sched]; rw [kindOf_semOf]; cases k <;> first | rfl | exact absurd rfl hb | exact absurd rfl he

omit [FloatOps F] in
theorem expect_bar : (sched (F := F) m).expect (cell c .bar) 0 = 2 := by
  show (∑ d ∈ (sched (F := F) m).duties (cell c .bar) 0, (sched (F := F) m).amount (cell c .bar) 0 d) = 2
  rw [duties_bar, Finset.sum_congr rfl fun d _ => amount_bar m c d, Finset.sum_const, Finset.card_univ, Fintype.card_bool, smul_eq_mul]
omit [FloatOps F] in
theorem expect_dma (k : CK) (hb : k ≠ .bar) : (sched (F := F) m).expect (cell c k) 0 = (sched (F := F) m).amount (cell c k) 0 false := by
  show (∑ d ∈ (sched (F := F) m).duties (cell c k) 0, (sched (F := F) m).amount (cell c k) 0 d) = _
  rw [duties_dma m c k hb, Finset.sum_singleton]
omit [FloatOps F] in
theorem expect_chunk (k : CK) (hb : k ≠ .bar) (he : k ≠ .E) : (sched (F := F) m).expect (cell c k) 0 = N :=
  (expect_dma m c k hb).trans (amount_chunk m c k hb he false)
omit [FloatOps F] in
theorem expect_E : (sched (F := F) m).expect (cell c .E) 0 = NE :=
  (expect_dma m c .E (fun h => CK.noConfusion h)).trans (amount_E m c false)
omit [FloatOps F] in
theorem payload_bar_true : (sched (F := F) m).payload (cell c .bar) 0 true = barPayY m c (yn c) := by
  dsimp only [sched]; rw [kindOf_semOf]; rfl
omit [FloatOps F] in
theorem payload_bar_false : (sched (F := F) m).payload (cell c .bar) 0 false = barPayX m c (xn c) := by
  dsimp only [sched]; rw [kindOf_semOf]; rfl
omit [FloatOps F] in
theorem payload_A (k : Fin 32) (d : Bool) : (sched (F := F) m).payload (cell c (.A k)) 0 d = payA m c k := by
  dsimp only [sched]; rw [kindOf_semOf]
omit [FloatOps F] in
theorem payload_B (k : Fin 32) (d : Bool) : (sched (F := F) m).payload (cell c (.B k)) 0 d = payB m c (xn c) k := by
  dsimp only [sched]; rw [kindOf_semOf]
omit [FloatOps F] in
theorem payload_C (k : Fin 32) (d : Bool) : (sched (F := F) m).payload (cell c (.C k)) 0 d = payC m c k := by
  dsimp only [sched]; rw [kindOf_semOf]
omit [FloatOps F] in
theorem payload_D (k : Fin 32) (d : Bool) : (sched (F := F) m).payload (cell c (.D k)) 0 d = payD m c (yn c) k := by
  dsimp only [sched]; rw [kindOf_semOf]
omit [FloatOps F] in
theorem payload_E (d : Bool) : (sched (F := F) m).payload (cell c .E) 0 d = payE m c := by
  dsimp only [sched]; rw [kindOf_semOf]

omit [FloatOps F] in
/-- The rest of a one-duty round, nothing taken: its payload. -/
theorem rest_dma (k : CK) (hk : k ≠ .bar) :
    bigSep ((sched (F := F) m).duties (cell c k) 0 \ ∅) (fun d => (sched (F := F) m).payload (cell c k) 0 d)
      = (sched (F := F) m).payload (cell c k) 0 false := by
  rw [Finset.sdiff_empty, duties_dma m c k hk, bigSep_singleton]
omit [FloatOps F] in
theorem rest_bar : bigSep ((sched (F := F) m).duties (cell c .bar) 0 \ ∅) (fun d => (sched (F := F) m).payload (cell c .bar) 0 d)
    = iprop(barPayX m c (xn c) ∗ barPayY m c (yn c)) := by
  rw [Finset.sdiff_empty, duties_bar, bigSep_univ_eq_bigSepL [false, true] (by decide) (by decide), bigSepL_cons_cons, bigSepL_singleton,
    payload_bar_false, payload_bar_true]
  rfl

end Sched

end Cert.KernelIdeal.AG

end
-- ==== Proof.AgOwe.lean ====
/-
  What every device owes its neighbours' cells from launch — a barrier unit to each, the credit of every direct
  chunk to the first-axis neighbour, of every relayed chunk to the second-axis neighbour —, the levels that
  order the waits (barrier below arrivals of direct chunks below arrivals of relayed chunks), and the credit
  tokens the launch deals each device for its own cells.
-/
import proofs.«900087_g7700000000000088_dist_ag_v7x_xy2x2_x_m4096_n1024_f32_1_alg».proof.Proof.AgProto
import Idealize.ShloMosaic.Lib.Pipeline.Launch

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Chunks from `n` on, chunks below `n` -/

def Sfrom (n : ℕ) : Finset (Fin 32) := Finset.univ.filter fun k => n ≤ k.val
def Tbelow (n : ℕ) : Finset (Fin 32) := Finset.univ.filter fun k => k.val < n

theorem mem_Sfrom {n : ℕ} {k : Fin 32} : k ∈ Sfrom n ↔ n ≤ k.val := by
  unfold Sfrom; rw [Finset.mem_filter]; exact ⟨fun h => h.2, fun h => ⟨Finset.mem_univ _, h⟩⟩
theorem mem_Tbelow {n : ℕ} {k : Fin 32} : k ∈ Tbelow n ↔ k.val < n := by
  unfold Tbelow; rw [Finset.mem_filter]; exact ⟨fun h => h.2, fun h => ⟨Finset.mem_univ _, h⟩⟩

theorem Sfrom_zero : Sfrom 0 = Finset.univ := by
  ext k; rw [mem_Sfrom]; exact ⟨fun _ => Finset.mem_univ _, fun _ => Nat.zero_le _⟩
theorem Sfrom_32 : Sfrom 32 = ∅ := by
  ext k; rw [mem_Sfrom]; have := k.isLt; exact ⟨fun h => by omega, fun h => absurd h (Finset.notMem_empty _)⟩
theorem Tbelow_zero : Tbelow 0 = ∅ := by
  ext k; rw [mem_Tbelow]; exact ⟨fun h => by omega, fun h => absurd h (Finset.notMem_empty _)⟩
theorem Tbelow_32 : Tbelow 32 = Finset.univ := by
  ext k; rw [mem_Tbelow]; exact ⟨fun _ => Finset.mem_univ _, fun _ => k.isLt⟩

theorem Sfrom_eq_insert {n : ℕ} (hn : n < 32) : Sfrom n = insert (⟨n, hn⟩ : Fin 32) (Sfrom (n + 1)) := by
  ext k; rw [Finset.mem_insert, mem_Sfrom, mem_Sfrom, Fin.ext_iff]; dsimp only; omega
theorem notMem_Sfrom_succ {n : ℕ} (hn : n < 32) : (⟨n, hn⟩ : Fin 32) ∉ Sfrom (n + 1) := by
  rw [mem_Sfrom]; dsimp only; omega
theorem Tbelow_succ_eq_insert {n : ℕ} (hn : n < 32) : Tbelow (n + 1) = insert (⟨n, hn⟩ : Fin 32) (Tbelow n) := by
  ext k; rw [Finset.mem_insert, mem_Tbelow, mem_Tbelow, Fin.ext_iff]; dsimp only; omega
theorem notMem_Tbelow_self {n : ℕ} (hn : n < 32) : (⟨n, hn⟩ : Fin 32) ∉ Tbelow n := by
  rw [mem_Tbelow]; dsimp only; omega

omit [FloatOps F] in
theorem bigSep_Sfrom_peel {n : ℕ} (hn : n < 32) (Φ : Fin 32 → sProp 𝕄) :
    bigSep (Sfrom n) Φ = iprop(Φ ⟨n, hn⟩ ∗ bigSep (Sfrom (n + 1)) Φ) := by
  rw [Sfrom_eq_insert hn, bigSep_insert (notMem_Sfrom_succ hn)]; rfl
omit [FloatOps F] in
theorem bigSep_Tbelow_succ {n : ℕ} (hn : n < 32) (Φ : Fin 32 → sProp 𝕄) :
    bigSep (Tbelow (n + 1)) Φ = iprop(Φ ⟨n, hn⟩ ∗ bigSep (Tbelow n) Φ) := by
  rw [Tbelow_succ_eq_insert hn, bigSep_insert (notMem_Tbelow_self hn)]; rfl

/-! ## What each device owes at launch -/

/-- What device `c` still owes the arrival cells of its first-axis neighbour after `n` direct sends. -/
def oweB (c : Dev nD) (n : ℕ) : CellTallies nD τ sig Unit := ∑ k ∈ Sfrom n, tallyAt (cell (xn c) (.B k)) () N
/-- What it still owes the relayed-arrival cells of its second-axis neighbour after `n` relays. -/
def oweD (c : Dev nD) (n : ℕ) : CellTallies nD τ sig Unit := ∑ k ∈ Sfrom n, tallyAt (cell (yn c) (.D k)) () N

theorem oweB_peel (c : Dev nD) {n : ℕ} (hn : n < 32) :
    oweB c n = oweB c (n + 1) + tallyAt (cell (xn c) (.B ⟨n, hn⟩)) () N := by
  unfold oweB; rw [Sfrom_eq_insert hn, Finset.sum_insert (notMem_Sfrom_succ hn), add_comm]
theorem oweD_peel (c : Dev nD) {n : ℕ} (hn : n < 32) :
    oweD c n = oweD c (n + 1) + tallyAt (cell (yn c) (.D ⟨n, hn⟩)) () N := by
  unfold oweD; rw [Sfrom_eq_insert hn, Finset.sum_insert (notMem_Sfrom_succ hn), add_comm]
theorem oweB_32 (c : Dev nD) : oweB c 32 = 0 := by unfold oweB; rw [Sfrom_32, Finset.sum_empty]
theorem oweD_32 (c : Dev nD) : oweD c 32 = 0 := by unfold oweD; rw [Sfrom_32, Finset.sum_empty]

/-- All chunks, then the barrier unit of the second-axis neighbour, then that of the first-axis neighbour: the
    first signal peels the last summand, the second the one before. -/
def O₂ (c : Dev nD) : CellTallies nD τ sig Unit := oweD c 0 + oweB c 0
def O₁ (c : Dev nD) : CellTallies nD τ sig Unit := O₂ c + tallyAt (cell (yn c) .bar) () 1
def O₀ (c : Dev nD) : CellTallies nD τ sig Unit := O₁ c + tallyAt (cell (xn c) .bar) () 1

theorem oweB_pos {c : Dev nD} {n : ℕ} {g : GSem nD τ sig} {u : Unit} (h : 0 < oweB c n g u) :
    ∃ k : Fin 32, g = cell (xn c) (.B k) := by
  unfold oweB at h
  obtain ⟨k, -, hk⟩ := Pipeline.sum_pos_exists h
  exact ⟨k, (Pipeline.tallyAt_pos hk).1⟩
theorem oweD_pos {c : Dev nD} {n : ℕ} {g : GSem nD τ sig} {u : Unit} (h : 0 < oweD c n g u) :
    ∃ k : Fin 32, g = cell (yn c) (.D k) := by
  unfold oweD at h
  obtain ⟨k, -, hk⟩ := Pipeline.sum_pos_exists h
  exact ⟨k, (Pipeline.tallyAt_pos hk).1⟩

/-! ## The levels -/

def L (g : GSem nD τ sig) : Finset Unit := if g.1.2 = .tc then {()} else ∅
/-- The barrier cell at 1, arrivals of direct chunks at 2, arrivals of relayed chunks at 3, every other cell at 0. -/
def lv (g : GSem nD τ sig) (_ : Unit) : ℕ := match kindOf g.2 with | .bar => 1 | .B _ => 2 | .D _ => 3 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv ((c : Thread nD τ), .reg barS) u = 1 := rfl
theorem lv_B (c : Dev nD) (k : Fin 32) (u : Unit) : lv ((c : Thread nD τ), semOf (.B k)) u = 2 := by
  dsimp only [lv]; rw [kindOf_semOf]
theorem lv_D (c : Dev nD) (k : Fin 32) (u : Unit) : lv ((c : Thread nD τ), semOf (.D k)) u = 3 := by
  dsimp only [lv]; rw [kindOf_semOf]

omit [FloatOps F] in
/-- At its barrier wait a device owes only chunk arrivals, which sit above the barrier cell. -/
theorem mayWait_bar (c : Dev nD) : (levAts L lv : sProp 𝕄) ⊢ MayWait (c : Thread nD τ) (.reg barS) () (O₂ c) :=
  Pipeline.mayWait_of_levAts (by rw [L_tc]; exact Finset.mem_singleton_self _) fun g u hg => by
    rcases Pipeline.add_pos_cases hg with h | h
    · obtain ⟨k, rfl⟩ := oweD_pos h
      exact ⟨by rw [L_tc]; exact Finset.mem_singleton_self _, by rw [lv_bar, lv_D]; decide⟩
    · obtain ⟨k, rfl⟩ := oweB_pos h
      exact ⟨by rw [L_tc]; exact Finset.mem_singleton_self _, by rw [lv_bar, lv_B]; decide⟩

omit [FloatOps F] in
/-- Waiting for a direct chunk to arrive a device owes only relayed arrivals, which sit above. -/
theorem mayWait_B (c : Dev nD) (n : ℕ) (k : Fin 32) :
    (levAts L lv : sProp 𝕄) ⊢ MayWait (c : Thread nD τ) (semOf (.B k)) () (oweD c n) :=
  Pipeline.mayWait_of_levAts (by rw [L_tc]; exact Finset.mem_singleton_self _) fun g u hg => by
    obtain ⟨j, rfl⟩ := oweD_pos hg
    exact ⟨by rw [L_tc]; exact Finset.mem_singleton_self _, by rw [lv_B, lv_D]; decide⟩

/-! ## The launch credit -/

omit [FloatOps F] in
/-- The launch deals every device the tokens of its own cells: two barrier units (one from each neighbour) and the
    credit of every chunk arriving directly and of every chunk arriving relayed. -/
theorem creds (c : Dev nD) :
    (Pipeline.launchCred O₀ c : sProp 𝕄) ⊢ iprop(cred (tallyAt (cell c .bar) () 2)
      ∗ (bigSep Finset.univ fun k : Fin 32 => cred (tallyAt (cell c (.B k)) () N))
      ∗ (bigSep Finset.univ fun k : Fin 32 => cred (tallyAt (cell c (.D k)) () N))) := by
  have e0 : (Pipeline.launchCred O₀ c : sProp 𝕄)
      = iprop(Pipeline.launchCred O₁ c ∗ Pipeline.launchCred (fun d => tallyAt (cell (xn d) .bar) () 1) c) :=
    Pipeline.launchCred_add O₁ (fun d => tallyAt (cell (xn d) .bar) () 1) c
  have e1 : (Pipeline.launchCred O₁ c : sProp 𝕄)
      = iprop(Pipeline.launchCred O₂ c ∗ Pipeline.launchCred (fun d => tallyAt (cell (yn d) .bar) () 1) c) :=
    Pipeline.launchCred_add O₂ (fun d => tallyAt (cell (yn d) .bar) () 1) c
  have e2 : (Pipeline.launchCred O₂ c : sProp 𝕄)
      = iprop(Pipeline.launchCred (fun d => oweD d 0) c ∗ Pipeline.launchCred (fun d => oweB d 0) c) :=
    Pipeline.launchCred_add (fun d => oweD d 0) (fun d => oweB d 0) c
  have eD : (Pipeline.launchCred (fun d => oweD d 0) c : sProp 𝕄)
      = bigSep Finset.univ fun k : Fin 32 => Pipeline.launchCred (fun d => tallyAt (cell (yn d) (.D k)) () N) c := by
    have h := Pipeline.launchCred_sum (Val := Elt F) (Name := ℕ) (U := UU) (Lvl := ℕ) (Sfrom 0)
      (fun (k : Fin 32) (d : Dev nD) => (tallyAt (cell (yn d) (.D k)) () N : CellTallies nD τ sig Unit)) c
    rw [Sfrom_zero] at h; exact h
  have eB : (Pipeline.launchCred (fun d => oweB d 0) c : sProp 𝕄)
      = bigSep Finset.univ fun k : Fin 32 => Pipeline.launchCred (fun d => tallyAt (cell (xn d) (.B k)) () N) c := by
    have h := Pipeline.launchCred_sum (Val := Elt F) (Name := ℕ) (U := UU) (Lvl := ℕ) (Sfrom 0)
      (fun (k : Fin 32) (d : Dev nD) => (tallyAt (cell (xn d) (.B k)) () N : CellTallies nD τ sig Unit)) c
    rw [Sfrom_zero] at h; exact h
  have hD : (bigSep Finset.univ fun k : Fin 32 => (Pipeline.launchCred (fun d => tallyAt (cell (yn d) (.D k)) () N) c : sProp 𝕄))
      ⊢ bigSep Finset.univ fun k : Fin 32 => cred (tallyAt (cell c (.D k)) () N) :=
    bigSep_mono fun k _ => Pipeline.launchCred_tallyAt (semOf (.D k)) yn yn yn_yn yn_yn () N c
  have hB : (bigSep Finset.univ fun k : Fin 32 => (Pipeline.launchCred (fun d => tallyAt (cell (xn d) (.B k)) () N) c : sProp 𝕄))
      ⊢ bigSep Finset.univ fun k : Fin 32 => cred (tallyAt (cell c (.B k)) () N) :=
    bigSep_mono fun k _ => Pipeline.launchCred_tallyAt (semOf (.B k)) xn xn xn_xn xn_xn () N c
  have hx : (Pipeline.launchCred (fun d => tallyAt (cell (xn d) .bar) () 1) c : sProp 𝕄) ⊢ cred (tallyAt (cell c .bar) () 1) :=
    Pipeline.launchCred_tallyAt (semOf .bar) xn xn xn_xn xn_xn () 1 c
  have hy : (Pipeline.launchCred (fun d => tallyAt (cell (yn d) .bar) () 1) c : sProp 𝕄) ⊢ cred (tallyAt (cell c .bar) () 1) :=
    Pipeline.launchCred_tallyAt (semOf .bar) yn yn yn_yn yn_yn () 1 c
  have h2 : (iprop(cred (tallyAt (cell c .bar) () 1) ∗ cred (tallyAt (cell c .bar) () 1)) : sProp 𝕄) ⊢ cred (tallyAt (cell c .bar) () 2) := by
    rw [← tallyAt_add (cell c .bar) () 1 1]; exact (cred_add _ _).2
  rw [e0, e1, e2, eD, eB]
  iintro ⟨⟨⟨HD, HB⟩, Hy⟩, Hx⟩
  isplitl [Hx Hy]
  · iapply h2
    isplitl [Hx]
    · iapply hx; iexact Hx
    · iapply hy; iexact Hy
  isplitl [HB]
  · iapply hB; iexact HB
  · iapply hD; iexact HD

end Cert.KernelIdeal.AG

end
-- ==== Proof.AgGhost.lean ====
/-
  What a device holds as the kernel begins and ends: the cells' invariants and that every cell is at its round 0
  (shared, persistent); its own positions; the tokens of the duties it pays — its two barrier signals, each chunk's
  direct transfer and relay on both ends, the local copy —; the credit of its barrier and arrival cells; the two arrays.
-/
import proofs.«900087_g7700000000000088_dist_ag_v7x_xy2x2_x_m4096_n1024_f32_1_alg».proof.Proof.AgOwe

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

abbrev 𝒱₀ : Variants := Variants.none

def recI : sProp 𝕄 := bigSep Finset.univ fun ck : Dev nD × CK => cellInv ER (sched m) (K ck) (cell ck.1 ck.2)
def recR : sProp 𝕄 := bigSep Finset.univ fun ck : Dev nD × CK => reached ER (cell ck.1 ck.2) 0

instance recI_persistent : BI.Persistent (recI m K) := by unfold recI; infer_instance
instance recR_persistent : BI.Persistent (recR (F := F)) := by unfold recR; infer_instance

omit [FloatOps F] in
theorem inv_at (c : Dev nD) (k : CK) : recI m K ⊢ cellInv ER (sched m) (K (c, k)) (cell c k) :=
  bigSep_elim (Finset.mem_univ ((c, k) : Dev nD × CK))
omit [FloatOps F] in
theorem reached_at (c : Dev nD) (k : CK) : (recR : sProp 𝕄) ⊢ reached ER (cell c k) 0 :=
  bigSep_elim (Finset.mem_univ ((c, k) : Dev nD × CK))

/-- What a device still owes, under whatever waits it has recorded. -/
def ow (c : Dev nD) (O : CellTallies nD τ sig Unit) : sProp 𝕄 := iprop(∃ W : Waits sig Unit, owes (c : Thread nD τ) O W)

def positions (c : Dev nD) : sProp 𝕄 := bigSep Finset.univ fun k : CK => atPos ER (cell c k) 0 ∅ 0

def payToks (c : Dev nD) : sProp 𝕄 :=
  iprop(dutyTok ER (cell (xn c) .bar) 0 false ∗ dutyTok ER (cell (yn c) .bar) 0 true ∗ dutyTok ER (cell c .E) 0 false
    ∗ (bigSep Finset.univ fun k : Fin 32 => dutyTok ER (cell c (.A k)) 0 false)
    ∗ (bigSep Finset.univ fun k : Fin 32 => dutyTok ER (cell (xn c) (.B k)) 0 false)
    ∗ (bigSep Finset.univ fun k : Fin 32 => dutyTok ER (cell c (.C k)) 0 false)
    ∗ (bigSep Finset.univ fun k : Fin 32 => dutyTok ER (cell (yn c) (.D k)) 0 false))

def ghost (c : Dev nD) : sProp 𝕄 := iprop(recI m K ∗ recR ∗ positions c ∗ payToks c)

def launchCreds (c : Dev nD) : sProp 𝕄 :=
  iprop(cred (tallyAt (cell c .bar) () 2) ∗ (bigSep Finset.univ fun k : Fin 32 => cred (tallyAt (cell c (.B k)) () N))
    ∗ (bigSep Finset.univ fun k : Fin 32 => cred (tallyAt (cell c (.D k)) () N)))

def bufs0 (c : Dev nD) : sProp 𝕄 :=
  iprop((((c : Thread nD τ).loc main_arg0) ↦{fullShare} X m c) ∗ (((c : Thread nD τ).loc main_v1) ↦{fullShare} V0 m c))

def start (c : Dev nD) : sProp 𝕄 := iprop((∃ K, ghost m K c) ∗ launchCreds c ∗ levAts L lv ∗ bufs0 m c)

/-- The device's own transfer semaphores, every one back at zero and closed. -/
def ownZeros (c : Dev nD) : sProp 𝕄 :=
  iprop((bigSep Finset.univ fun k : Fin 32 => semVal (cell c (.A k)) 0) ∗ (bigSep Finset.univ fun k : Fin 32 => semVal (cell c (.B k)) 0)
    ∗ (bigSep Finset.univ fun k : Fin 32 => semVal (cell c (.C k)) 0) ∗ (bigSep Finset.univ fun k : Fin 32 => semVal (cell c (.D k)) 0)
    ∗ semVal (cell c .E) 0)

def Φ₀ (c : Dev nD) : sProp 𝕄 := start m c
def Φ₁ (c : Dev nD) : sProp 𝕄 :=
  iprop((∃ g, ⌜OutSpec m c g⌝ ∗ (((c : Thread nD τ).loc main_v1) ↦{fullShare} g)) ∗ (((c : Thread nD τ).loc main_arg0) ↦{fullShare} X m c) ∗ ownZeros c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.AG

end
-- ==== Proof.AgRegions.lean ====
/-
  The pieces of the arrays the copies of the all-gather read and write are bands of rows. This module turns
  membership in a piece into inequalities on the row coordinate, and derives from them: the relayed chunk is
  the chunk that arrived; chunks of one family are pairwise disjoint; the three families written on one result
  array are disjoint from each other; and together they cover the array.
-/
import proofs.«900087_g7700000000000088_dist_ag_v7x_xy2x2_x_m4096_n1024_f32_1_alg».proof.Proof.AgDefs

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Rows of the pieces

Every piece is a band of whole rows: membership is a condition on the row coordinate alone. With the device
at mesh position `(a, b)`, `c = 2a + b`: the own block sits on rows `4096a ..`, chunk `k` of the direct
half on rows `4096a + 2048b + 64k ..` (as sent by `c`), and the relayed chunk on rows
`4096(1-a) + 2048b + 64k ..`. -/

theorem xn_val (c : Dev nD) : (xn c).val = ((c.val % 2) + 2) - 2 * (c.val / 2) := rfl
theorem yn_val (c : Dev nD) : (yn c).val = (2 * (c.val / 2) + 1) - (c.val % 2) := rfl

theorem mem_o1 (c : Dev nD) (k : Fin 32) (i : S8192x1024.Idx) :
    i ∈ (o1 c k).view.set ↔ 4096 * (c.val / 2) + 2048 * (c.val % 2) + 64 * k.val ≤ (i 0).val
      ∧ (i 0).val < 4096 * (c.val / 2) + 2048 * (c.val % 2) + 64 * k.val + 64 := by
  have hs : (o1 c k).view.set = (Rect.unit (s := S8192x1024) (k0_off1 c (BitVec.ofNat 32 (64 * k.val))) S64x1024.size (Gen.k0_off1_inb c k)).set :=
    View.set_slice_whole main_v1 _
  rw [hs, Rect.mem_set_unit, Gen.k0_off1_eq, Fin.forall_fin_two]
  have h1 : (i 1).val < 1024 := (i 1).isLt
  simp only [Matrix.cons_val_zero, Matrix.cons_val_one]
  omega

theorem mem_o4 (c : Dev nD) (k : Fin 32) (i : S8192x1024.Idx) :
    i ∈ (o4 c k).view.set ↔ (2048 * (c.val % 2) + 64 * k.val + 4096) - 4096 * (c.val / 2) ≤ (i 0).val
      ∧ (i 0).val < (2048 * (c.val % 2) + 64 * k.val + 4096) - 4096 * (c.val / 2) + 64 := by
  have hs : (o4 c k).view.set = (Rect.unit (s := S8192x1024) (k0_off4 c (BitVec.ofNat 32 (64 * k.val))) S64x1024.size (Gen.k0_off4_inb c k)).set :=
    View.set_slice_whole main_v1 _
  rw [hs, Rect.mem_set_unit, Gen.k0_off4_eq, Fin.forall_fin_two]
  have h1 : (i 1).val < 1024 := (i 1).isLt
  simp only [Matrix.cons_val_zero, Matrix.cons_val_one]
  omega

theorem mem_o3 (c : Dev nD) (i : S8192x1024.Idx) :
    i ∈ (o3 c).view.set ↔ 4096 * (c.val / 2) ≤ (i 0).val ∧ (i 0).val < 4096 * (c.val / 2) + 4096 := by
  have hs : (o3 c).view.set = (Rect.unit (s := S8192x1024) (k0_off3 c) S4096x1024.size (Gen.k0_off3_inb c)).set :=
    View.set_slice_whole main_v1 _
  rw [hs, Rect.mem_set_unit, Gen.k0_off3_eq, Fin.forall_fin_two]
  have h1 : (i 1).val < 1024 := (i 1).isLt
  simp only [Matrix.cons_val_zero, Matrix.cons_val_one]
  omega

theorem mem_xSl (c : Dev nD) (k : Fin 32) (i : S4096x1024.Idx) :
    i ∈ (xSl c k).view.set ↔ 2048 * (c.val % 2) + 64 * k.val ≤ (i 0).val
      ∧ (i 0).val < 2048 * (c.val % 2) + 64 * k.val + 64 := by
  have hs : (xSl c k).view.set = (Rect.unit (s := S4096x1024) (k0_off2 c (BitVec.ofNat 32 (64 * k.val))) S64x1024.size (Gen.k0_off2_inb c k)).set :=
    View.set_slice_whole main_arg0 _
  rw [hs, Rect.mem_set_unit, Gen.k0_off2_eq, Fin.forall_fin_two]
  have h1 : (i 1).val < 1024 := (i 1).isLt
  simp only [Matrix.cons_val_zero, Matrix.cons_val_one]
  omega

/-! ## The relayed chunk is the chunk that arrived -/

theorem slice_unit_congr {s : Shape} (m : Memref sig .tc .hbm s .f32) {off off' size : Fin s.rank → Nat} (h : off = off')
    (p : ∀ a, off a + size a ≤ s.size a) (p' : ∀ a, off' a + size a ≤ s.size a) :
    m.slice (Rect.unit off size p) (fun _ => rfl) = m.slice (Rect.unit off' size p') (fun _ => rfl) := by
  subst h; rfl

theorem off4_eq_off1 (c : Dev nD) (k : Fin 32) :
    k0_off4 c (BitVec.ofNat 32 (64 * k.val)) = k0_off1 (xn c) (BitVec.ofNat 32 (64 * k.val)) := by
  rw [Gen.k0_off4_eq, Gen.k0_off1_eq, xn_val]
  have hc : c.val < 4 := c.isLt
  have : (2048 * (c.val % 2) + 64 * k.val + 4096) - 4096 * (c.val / 2)
      = 4096 * ((((c.val % 2) + 2) - 2 * (c.val / 2)) / 2) + 2048 * ((((c.val % 2) + 2) - 2 * (c.val / 2)) % 2) + 64 * k.val := by omega
  rw [this]

/-- The rows device `c` relays are the rows its chunk from the first-axis neighbour arrived on. -/
theorem o4_eq (c : Dev nD) (k : Fin 32) : o4 c k = o1 (xn c) k :=
  slice_unit_congr oM (off4_eq_off1 c k) _ _

/-! ## Chunks of one family are disjoint -/

theorem o1_disjoint (c : Dev nD) {k j : Fin 32} (h : k ≠ j) : Disjoint (o1 c k).view.set (o1 c j).view.set := by
  have hv : k.val ≠ j.val := fun e => h (Fin.ext e)
  rw [Finset.disjoint_left]; intro i hk hj
  rw [mem_o1] at hk hj; omega

theorem o4_disjoint (c : Dev nD) {k j : Fin 32} (h : k ≠ j) : Disjoint (o4 c k).view.set (o4 c j).view.set := by
  have hv : k.val ≠ j.val := fun e => h (Fin.ext e)
  have hc : c.val < 4 := c.isLt
  rw [Finset.disjoint_left]; intro i hk hj
  rw [mem_o4] at hk hj; omega

theorem xSl_disjoint (c : Dev nD) {k j : Fin 32} (h : k ≠ j) : Disjoint (xSl c k).view.set (xSl c j).view.set := by
  have hv : k.val ≠ j.val := fun e => h (Fin.ext e)
  rw [Finset.disjoint_left]; intro i hk hj
  rw [mem_xSl] at hk hj; omega

/-! ## The three families on one result array do not meet -/

theorem o3_disjoint_o1 (c : Dev nD) (k : Fin 32) : Disjoint (o3 c).view.set (o1 (xn c) k).view.set := by
  have hc : c.val < 4 := c.isLt
  have hk : k.val < 32 := k.isLt
  rw [Finset.disjoint_left]; intro i h3 h1
  rw [mem_o3] at h3; rw [mem_o1, xn_val] at h1; omega

theorem o3_disjoint_o4 (c : Dev nD) (k : Fin 32) : Disjoint (o3 c).view.set (o4 (yn c) k).view.set := by
  have hc : c.val < 4 := c.isLt
  have hk : k.val < 32 := k.isLt
  rw [Finset.disjoint_left]; intro i h3 h4
  rw [mem_o3] at h3; rw [mem_o4, yn_val] at h4; omega

theorem o1_disjoint_o4 (c : Dev nD) (k j : Fin 32) : Disjoint (o1 (xn c) k).view.set (o4 (yn c) j).view.set := by
  have hc : c.val < 4 := c.isLt
  have hk : k.val < 32 := k.isLt
  have hj : j.val < 32 := j.isLt
  rw [Finset.disjoint_left]; intro i h1 h4
  rw [mem_o1, xn_val] at h1; rw [mem_o4, yn_val] at h4; omega

/-! ## Together they are the whole array -/

theorem cover' (c : Dev nD) (i : S8192x1024.Idx) :
    i ∈ (o3 c).view.set ∨ (∃ k, i ∈ (o1 (xn c) k).view.set) ∨ (∃ k, i ∈ (o4 (yn c) k).view.set) := by
  have hc : c.val < 4 := c.isLt
  have hi : (i 0).val < 8192 := (i 0).isLt
  have hk : ((i 0).val % 2048) / 64 < 32 := by omega
  by_cases h3 : 4096 * (c.val / 2) ≤ (i 0).val ∧ (i 0).val < 4096 * (c.val / 2) + 4096
  · exact Or.inl ((mem_o3 c i).mpr h3)
  · by_cases hb : ((i 0).val % 4096) / 2048 = c.val % 2
    · refine Or.inr (Or.inl ⟨⟨((i 0).val % 2048) / 64, hk⟩, ?_⟩)
      rw [mem_o1, xn_val]; simp only []; omega
    · refine Or.inr (Or.inr ⟨⟨((i 0).val % 2048) / 64, hk⟩, ?_⟩)
      rw [mem_o4, yn_val]; simp only []; omega

/-- Every element of a device's result array lies in its own block, in a chunk from the first-axis neighbour,
    or in a chunk relayed by the second-axis neighbour (chunk `(row mod 2048) / 64`). -/
theorem cover (c : Dev nD) (i : Idx ((c : Thread nD τ).loc main_v1)) :
    i ∈ (o3 c).view.set ∨ (∃ k, i ∈ (o1 (xn c) k).view.set) ∨ (∃ k, i ∈ (o4 (yn c) k).view.set) :=
  cover' c i

end Cert.KernelIdeal.AG

end
-- ==== Proof.AgSteps.lean ====
/-
  One device's moves, each as a rule of the program logic: the direct transfer of a chunk, the wait for a chunk's
  arrival, its relay, and the three closing waits of a chunk.  Stated once for a symbolic device and chunk.
-/
import proofs.«900087_g7700000000000088_dist_ag_v7x_xy2x2_x_m4096_n1024_f32_1_alg».proof.Proof.AgGhost
import proofs.«900087_g7700000000000088_dist_ag_v7x_xy2x2_x_m4096_n1024_f32_1_alg».proof.Proof.AgRegions

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- The whole of an own transfer cell's one round waited for, and the cell closed: its payload, its counter at zero. -/
theorem wait_cell (c : Dev nD) (k : CK) (hb : k ≠ .bar) (s : DmaSem sig) (hs : semOf k = .dma s) (n : ℕ)
    (hn : (sched (F := F) m).expect (cell c k) 0 = n) (O : CellTallies nD τ sig Unit)
    {sp sp' : Space} {sh sh' : Shape} {e e' : EltTy} {src : Memref sig .tc sp' sh' e'} {dst : Memref sig .tc sp sh e}
    (hd : dst.view.dmaCredit = n) {hsrc : src.view.WordExact} {hdst : dst.view.WordExact}
    {α : Type} {Q : α → sProp 𝕄} {kk : PUnit → Prog (TpuEff nD τ sig (Elt F) Λ₀ .tc) α} :
    iprop(recI m K ∗ atPos ER (cell c k) 0 ∅ 0 ∗ cred (tallyAt (cell c k) () n) ∗ ow c O ∗ MayWait (c : Thread nD τ) (semOf k) () O)
      ⊢ iprop(((semVal (cell c k) 0 ∗ (sched m).payload (cell c k) 0 false ∗ ow c O)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hd
  have hcell : cell c k = ((c : Thread nD τ), SemLoc.dma s) := by show ((c : Thread nD τ), semOf k) = _; rw [hs]
  have hinv : recI m K ⊢ cellInv ER (sched m) (K (c, k)) ((c : Thread nD τ), SemLoc.dma s) := hcell ▸ inv_at m K c k
  have hrest := rest_dma m c k hb
  have hexp := hn
  rw [hcell] at hrest hexp
  rw [hcell, hs]
  unfold ow
  iintro ⟨#HI, Hat, Hc, ⟨%W, HO⟩, Hmay⟩ Hk
  ihave #Hinv := hinv $$ HI
  iapply (Rounds.wp_wait_rest_token 𝒱₀ ER (sched m) (c : Thread nD τ) none (κ := K (c, k))
      (wpE_waitDma2_eq 𝒱₀ (c : Thread nD τ) none Set.univ) (Set.mem_univ _) () (O := O) (W := W) (R := 0) (m := 0) (T := ∅)
      (by rw [Nat.zero_add, hexp])) $$ [Hc HO Hat Hmay]
  · isplitr; · iexact Hinv
    isplitl [Hc]; · iexact Hc
    isplitl [HO]; · iexact HO
    isplitl [Hmay]; · iexact Hmay
    iexact Hat
  iintro ⟨HO, Hat, -, Hpay⟩
  ihave Hp := (Entails.of_eq hrest) $$ Hpay
  imod (Rounds.cell_close ER (sched m) (Set.mem_univ (K (c, k))) (fun h => h) (R := 0 + 1) (duties_later m _)) $$ [Hat] with Hz
  · isplitr; · iexact Hinv
    iexact Hat
  iapply Hk
  isplitl [Hz]; · iexact Hz
  isplitl [Hp]; · iexact Hp
  iexists _; iexact HO

/-! ## The direct transfers -/

/-- What the direct transfer of chunk `k` takes: its rows of the own block, the rows they land in, its two tokens. -/
def R1 (c : Dev nD) (k : Fin 32) : sProp 𝕄 :=
  iprop(payA m c k ∗ ((o1 c k).view.loc (xn c : Thread nD τ) ↦[(o1 c k).view.set]{fullShare} V0 m (xn c))
    ∗ dutyTok ER (cell c (.A k)) 0 false ∗ dutyTok ER (cell (xn c) (.B k)) 0 false)
/-- What it leaves: the credit of its departure cell. -/
def R1' (c : Dev nD) (k : Fin 32) : sProp 𝕄 := cred (tallyAt (cell c (.A k)) () N)
/-- After `n` direct transfers. -/
def S1 (c : Dev nD) (n : ℕ) (O : CellTallies nD τ sig Unit) : sProp 𝕄 :=
  iprop(bigSep (Sfrom n) (R1 m c) ∗ bigSep (Tbelow n) (R1' (F := F) c) ∗ ow c (O + oweB c n))

theorem step_p1 (c n' : Dev nD) (hn' : n' = xn c) (n : ℕ) (hn : n < 32) (O : CellTallies nD τ sig Unit)
    {hsc : ((o1 c ⟨n, hn⟩ : Memref sig (Dev.tc n' : Thread nD τ).2.kind .hbm S64x1024 .f32)).view.ref.isScScratch = false}
    {hsrc : (xSl c ⟨n, hn⟩).view.WordExact} {hdst : (o1 c ⟨n, hn⟩).view.WordExact}
    {hsem : DmaTarget.Typed .hbm (semOf (.B ⟨n, hn⟩)) (.remote (Dev.tc n' : Thread nD τ) (o1 c ⟨n, hn⟩) (semOf (.A ⟨n, hn⟩)) hsc)}
    {α : Type} {Q : α → sProp 𝕄} {kk : PUnit → Prog (TpuEff nD τ sig (Elt F) Λ₀ .tc) α} :
    iprop(recI m K ∗ recR ∗ S1 m c n O)
      ⊢ iprop((S1 m c (n + 1) O -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xSl c ⟨n, hn⟩) (.remote (Dev.tc n' : Thread nD τ) (o1 c ⟨n, hn⟩) (semOf (.A ⟨n, hn⟩)) hsc) (semOf (.B ⟨n, hn⟩)) hsrc hdst hsem) kk) Q) := by
  subst hn'
  unfold S1
  rw [bigSep_Sfrom_peel hn, bigSep_Tbelow_succ hn, oweB_peel c hn, ← add_assoc]
  unfold R1 R1' ow payA
  iintro ⟨#HI, #HR, ⟨⟨Hx, Hd, HtA, HtB⟩, HS⟩, HT, ⟨%W, HO⟩⟩ Hk
  iapply (Rounds.wp_send_pointsTo 𝒱₀ ER (sched m) (c : Thread nD τ) none (κ₁ := K (c, .A ⟨n, hn⟩)) (κ₂ := K (xn c, .B ⟨n, hn⟩))
      (r₁ := 0) (r₂ := 0) (d₁ := false) (d₂ := false) (fd := V0 m (xn c)) (src := xSl c ⟨n, hn⟩) (dst := o1 c ⟨n, hn⟩)
      (q := fullShare.right) (fs := X m c) (c' := (xn c : Thread nD τ))
      (by rw [duties_dma m c (.A ⟨n, hn⟩) (fun h => CK.noConfusion h)]; exact Finset.mem_singleton_self _)
      (by rw [duties_dma m (xn c) (.B ⟨n, hn⟩) (fun h => CK.noConfusion h)]; exact Finset.mem_singleton_self _)
      () () N rfl (amount_chunk m c (.A ⟨n, hn⟩) (fun h => CK.noConfusion h) (fun h => CK.noConfusion h) false)
      (amount_chunk m (xn c) (.B ⟨n, hn⟩) (fun h => CK.noConfusion h) (fun h => CK.noConfusion h) false) (O + oweB c (n + 1)) rfl (W := W)
      (by rw [payload_A]; unfold payA; exact BI.Entails.refl _)
      (by rw [payload_B, xn_xn]; unfold payB W1'; exact BI.Entails.refl _)) $$ [Hx Hd HO HtA HtB]
  · isplitr; · iapply (inv_at m K c (.A ⟨n, hn⟩)); iexact HI
    isplitr; · iapply (inv_at m K (xn c) (.B ⟨n, hn⟩)); iexact HI
    isplitl [Hx]; · iexact Hx
    isplitl [Hd]; · iexact Hd
    isplitl [HO]; · iexact HO
    isplitl [HtA]; · iexact HtA
    isplitr; · iapply (reached_at (F := F) c (.A ⟨n, hn⟩)); iexact HR
    isplitl [HtB]; · iexact HtB
    iapply (reached_at (F := F) (xn c) (.B ⟨n, hn⟩)); iexact HR
  iintro ⟨Hc, HO⟩
  iapply Hk
  isplitl [HS]; · iexact HS
  isplitl [Hc HT]
  · isplitl [Hc]; · iexact Hc
    iexact HT
  iexists W; iexact HO

/-! ## The relays -/

omit [FloatOps F] in
/-- A points-to through a 64-row slice of the result array depends on the slice's offsets only. -/
theorem pt_slice_congr (c : Dev nD) {off off' : Fin 2 → Nat} (h : off = off')
    (p : ∀ a, off a + S64x1024.size a ≤ S8192x1024.size a) (p' : ∀ a, off' a + S64x1024.size a ≤ S8192x1024.size a)
    (q : PosShare TreeShare) (f : Buf (Elt F) ((c : Thread nD τ).loc main_v1)) :
    (((oM.slice (Rect.unit (s := S8192x1024) off S64x1024.size p) (fun _ => rfl)).view.loc (c : Thread nD τ)
        ↦[(oM.slice (Rect.unit (s := S8192x1024) off S64x1024.size p) (fun _ => rfl)).view.set]{q} f : sProp 𝕄))
      = ((oM.slice (Rect.unit (s := S8192x1024) off' S64x1024.size p') (fun _ => rfl)).view.loc (c : Thread nD τ)
        ↦[(oM.slice (Rect.unit (s := S8192x1024) off' S64x1024.size p') (fun _ => rfl)).view.set]{q} f) := by
  subst h; rfl

omit [FloatOps F] in
/-- The rows a chunk arrived in are the rows relayed. -/
theorem payB_eq_payC (c : Dev nD) (k : Fin 32) : payB m c (xn c) k = payC m c k :=
  (pt_slice_congr c (off4_eq_off1 c k) _ _ fullShare (W1 m c k)).symm

def R2 (c : Dev nD) (k : Fin 32) : sProp 𝕄 :=
  iprop(((o4 c k).view.loc (yn c : Thread nD τ) ↦[(o4 c k).view.set]{fullShare} V0 m (yn c))
    ∗ dutyTok ER (cell c (.C k)) 0 false ∗ dutyTok ER (cell (yn c) (.D k)) 0 false)
def R2' (c : Dev nD) (k : Fin 32) : sProp 𝕄 := cred (tallyAt (cell c (.C k)) () N)
/-- After `n` relays. -/
def S2 (c : Dev nD) (n : ℕ) : sProp 𝕄 :=
  iprop(bigSep (Sfrom n) (R2 m c) ∗ bigSep (Tbelow n) (R2' (F := F) c) ∗ ow c (oweD c n))

theorem step_p2 (c n' : Dev nD) (hn' : n' = yn c) (n : ℕ) (hn : n < 32)
    {hsc : ((o4 c ⟨n, hn⟩ : Memref sig (Dev.tc n' : Thread nD τ).2.kind .hbm S64x1024 .f32)).view.ref.isScScratch = false}
    {hsrc : (o4 c ⟨n, hn⟩).view.WordExact} {hdst : (o4 c ⟨n, hn⟩).view.WordExact}
    {hsem : DmaTarget.Typed .hbm (semOf (.D ⟨n, hn⟩)) (.remote (Dev.tc n' : Thread nD τ) (o4 c ⟨n, hn⟩) (semOf (.C ⟨n, hn⟩)) hsc)}
    {α : Type} {Q : α → sProp 𝕄} {kk : PUnit → Prog (TpuEff nD τ sig (Elt F) Λ₀ .tc) α} :
    iprop(recI m K ∗ recR ∗ payB m c (xn c) ⟨n, hn⟩ ∗ S2 m c n)
      ⊢ iprop((S2 m c (n + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (o4 c ⟨n, hn⟩) (.remote (Dev.tc n' : Thread nD τ) (o4 c ⟨n, hn⟩) (semOf (.C ⟨n, hn⟩)) hsc) (semOf (.D ⟨n, hn⟩)) hsrc hdst hsem) kk) Q) := by
  subst hn'
  unfold S2
  rw [bigSep_Sfrom_peel hn, bigSep_Tbelow_succ hn, oweD_peel c hn, payB_eq_payC]
  unfold R2 R2' ow payC
  iintro ⟨#HI, #HR, Hx, ⟨⟨Hd, HtC, HtD⟩, HS⟩, HT, ⟨%W, HO⟩⟩ Hk
  iapply (Rounds.wp_send_pointsTo 𝒱₀ ER (sched m) (c : Thread nD τ) none (κ₁ := K (c, .C ⟨n, hn⟩)) (κ₂ := K (yn c, .D ⟨n, hn⟩))
      (r₁ := 0) (r₂ := 0) (d₁ := false) (d₂ := false) (fd := V0 m (yn c)) (src := o4 c ⟨n, hn⟩) (dst := o4 c ⟨n, hn⟩)
      (q := fullShare) (fs := W1 m c ⟨n, hn⟩) (c' := (yn c : Thread nD τ))
      (by rw [duties_dma m c (.C ⟨n, hn⟩) (fun h => CK.noConfusion h)]; exact Finset.mem_singleton_self _)
      (by rw [duties_dma m (yn c) (.D ⟨n, hn⟩) (fun h => CK.noConfusion h)]; exact Finset.mem_singleton_self _)
      () () N rfl (amount_chunk m c (.C ⟨n, hn⟩) (fun h => CK.noConfusion h) (fun h => CK.noConfusion h) false)
      (amount_chunk m (yn c) (.D ⟨n, hn⟩) (fun h => CK.noConfusion h) (fun h => CK.noConfusion h) false) (oweD c (n + 1)) rfl (W := W)
      (by rw [payload_C]; unfold payC; exact BI.Entails.refl _)
      (by rw [payload_D, yn_yn]; unfold payD W4'; exact BI.Entails.refl _)) $$ [Hx Hd HO HtC HtD]
  · isplitr; · iapply (inv_at m K c (.C ⟨n, hn⟩)); iexact HI
    isplitr; · iapply (inv_at m K (yn c) (.D ⟨n, hn⟩)); iexact HI
    isplitl [Hx]; · iexact Hx
    isplitl [Hd]; · iexact Hd
    isplitl [HO]; · iexact HO
    isplitl [HtC]; · iexact HtC
    isplitr; · iapply (reached_at (F := F) c (.C ⟨n, hn⟩)); iexact HR
    isplitl [HtD]; · iexact HtD
    iapply (reached_at (F := F) (yn c) (.D ⟨n, hn⟩)); iexact HR
  iintro ⟨Hc, HO⟩
  iapply Hk
  isplitl [HS]; · iexact HS
  isplitl [Hc HT]
  · isplitl [Hc]; · iexact Hc
    iexact HT
  iexists W; iexact HO

/-! ## The waits, chunk after chunk -/

/-- The cells of one kind, chunks `n` on still to wait for; the chunks before `n` waited for and closed. -/
def WG (kf : Fin 32 → CK) (c : Dev nD) (n : ℕ) : sProp 𝕄 :=
  iprop(bigSep (Sfrom n) (fun k => iprop(atPos ER (cell c (kf k)) 0 ∅ 0 ∗ cred (tallyAt (cell c (kf k)) () N)))
    ∗ bigSep (Tbelow n) (fun k => semVal (cell c (kf k)) 0))

theorem step_waitG (kf : Fin 32 → CK) (hkb : ∀ k, kf k ≠ .bar) (hke : ∀ k, kf k ≠ .E) (base : ℕ) (hbase : base + 32 ≤ sig.nDmaSem)
    (hs : ∀ k, semOf (kf k) = .dma (dsem base hbase k)) (c : Dev nD) (n : ℕ) (hn : n < 32) (O : CellTallies nD τ sig Unit)
    {sp sp' : Space} {sh' : Shape} {e' : EltTy} {src : Memref sig .tc sp' sh' e'} {dst : Memref sig .tc sp S64x1024 .f32}
    {hsrc : src.view.WordExact} {hdst : dst.view.WordExact}
    {α : Type} {Q : α → sProp 𝕄} {kk : PUnit → Prog (TpuEff nD τ sig (Elt F) Λ₀ .tc) α} :
    iprop(recI m K ∗ WG kf c n ∗ ow c O ∗ MayWait (c : Thread nD τ) (semOf (kf ⟨n, hn⟩)) () O)
      ⊢ iprop(((WG kf c (n + 1) ∗ (sched m).payload (cell c (kf ⟨n, hn⟩)) 0 false ∗ ow c O)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem base hbase ⟨n, hn⟩) src dst hsrc hdst) kk) Q) := by
  unfold WG
  rw [bigSep_Sfrom_peel hn, bigSep_Tbelow_succ hn]
  iintro ⟨#HI, ⟨⟨⟨Hat, Hc⟩, HS⟩, HT⟩, HO, Hmay⟩ Hk
  iapply (wait_cell m K c (kf ⟨n, hn⟩) (hkb _) (dsem base hbase ⟨n, hn⟩) (hs _) N (expect_chunk m c _ (hkb _) (hke _)) O (dst := dst) rfl) $$ [Hat Hc HO Hmay]
  · isplitr; · iexact HI
    isplitl [Hat]; · iexact Hat
    isplitl [Hc]; · iexact Hc
    isplitl [HO]; · iexact HO
    iexact Hmay
  iintro ⟨Hz, Hp, HO⟩
  iapply Hk
  isplitl [HS Hz HT]
  · isplitl [HS]; · iexact HS
    isplitl [Hz]; · iexact Hz
    iexact HT
  isplitl [Hp]; · iexact Hp
  iexact HO

/-- The same with what has arrived kept beside the closed cells. -/
def WS (kf : Fin 32 → CK) (c : Dev nD) (n : ℕ) : sProp 𝕄 :=
  iprop(WG (F := F) kf c n ∗ bigSep (Tbelow n) (fun k => (sched m).payload (cell c (kf k)) 0 false))

theorem step_waitS (kf : Fin 32 → CK) (hkb : ∀ k, kf k ≠ .bar) (hke : ∀ k, kf k ≠ .E) (base : ℕ) (hbase : base + 32 ≤ sig.nDmaSem)
    (hs : ∀ k, semOf (kf k) = .dma (dsem base hbase k)) (c : Dev nD) (n : ℕ) (hn : n < 32)
    {sp sp' : Space} {sh' : Shape} {e' : EltTy} {src : Memref sig .tc sp' sh' e'} {dst : Memref sig .tc sp S64x1024 .f32}
    {hsrc : src.view.WordExact} {hdst : dst.view.WordExact}
    {α : Type} {Q : α → sProp 𝕄} {kk : PUnit → Prog (TpuEff nD τ sig (Elt F) Λ₀ .tc) α} :
    iprop(recI m K ∗ WS m kf c n ∗ ow c 0)
      ⊢ iprop(((WS m kf c (n + 1) ∗ ow c 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem base hbase ⟨n, hn⟩) src dst hsrc hdst) kk) Q) := by
  unfold WS
  rw [bigSep_Tbelow_succ hn (fun k => (sched m).payload (cell c (kf k)) 0 false)]
  iintro ⟨#HI, ⟨HG, HP⟩, HO⟩ Hk
  iapply (step_waitG m K kf hkb hke base hbase hs c n hn 0 (dst := dst)) $$ [HG HO]
  · isplitr; · iexact HI
    isplitl [HG]; · iexact HG
    isplitl [HO]; · iexact HO
    rw [MayWait_zero]; iempintro
  iintro ⟨HG, Hp, HO⟩
  iapply Hk
  isplitr [HO]
  · isplitl [HG]; · iexact HG
    isplitl [Hp]; · iexact Hp
    iexact HP
  iexact HO

/-- The wait for chunk `n`'s arrival, the relays from `n` on still owed. -/
theorem step_waitB (c : Dev nD) (n : ℕ) (hn : n < 32)
    {sp sp' : Space} {sh' : Shape} {e' : EltTy} {src : Memref sig .tc sp' sh' e'} {dst : Memref sig .tc sp S64x1024 .f32}
    {hsrc : src.view.WordExact} {hdst : dst.view.WordExact}
    {α : Type} {Q : α → sProp 𝕄} {kk : PUnit → Prog (TpuEff nD τ sig (Elt F) Λ₀ .tc) α} :
    iprop(recI m K ∗ levAts L lv ∗ WG (F := F) CK.B c n ∗ S2 m c n)
      ⊢ iprop(((WG (F := F) CK.B c (n + 1) ∗ payB m c (xn c) ⟨n, hn⟩ ∗ S2 m c n)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 32 (by decide) ⟨n, hn⟩) src dst hsrc hdst) kk) Q) := by
  unfold S2
  iintro ⟨#HI, #Hlev, HG, HS, HT, HO⟩ Hk
  iapply (step_waitG m K CK.B (fun _ h => CK.noConfusion h) (fun _ h => CK.noConfusion h) 32 _ (fun _ => rfl) c n hn (oweD c n) (dst := dst)) $$ [HG HO]
  · isplitr; · iexact HI
    isplitl [HG]; · iexact HG
    isplitl [HO]; · iexact HO
    iapply (mayWait_B (F := F) c n ⟨n, hn⟩); iexact Hlev
  iintro ⟨HG, Hp, HO⟩
  iapply Hk
  isplitl [HG]; · iexact HG
  isplitl [Hp]
  · ihave Hp' := (Entails.of_eq (payload_B m c ⟨n, hn⟩ false)) $$ Hp
    iexact Hp'
  isplitl [HS]; · iexact HS
  isplitl [HT]; · iexact HT
  iexact HO

/-- The wait for the local copy: the own rows filled, the lent share back, the cell closed. -/
theorem wait_E (c : Dev nD)
    {sp sp' : Space} {sh' : Shape} {e' : EltTy} {src : Memref sig .tc sp' sh' e'} {dst : Memref sig .tc sp S4096x1024 .f32}
    {hsrc : src.view.WordExact} {hdst : dst.view.WordExact}
    {α : Type} {Q : α → sProp 𝕄} {kk : PUnit → Prog (TpuEff nD τ sig (Elt F) Λ₀ .tc) α} :
    iprop(recI m K ∗ atPos ER (cell c .E) 0 ∅ 0 ∗ cred (tallyAt (cell c .E) () NE) ∗ ow c 0)
      ⊢ iprop(((semVal (cell c .E) 0 ∗ payE m c ∗ ow c 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (⟨128, by decide⟩ : DmaSem sig) src dst hsrc hdst) kk) Q) := by
  iintro ⟨#HI, Hat, Hc, HO⟩ Hk
  iapply (wait_cell m K c .E (fun h => CK.noConfusion h) _ rfl NE (expect_E m c) 0 (dst := dst) rfl) $$ [Hat Hc HO]
  · isplitr; · iexact HI
    isplitl [Hat]; · iexact Hat
    isplitl [Hc]; · iexact Hc
    isplitl [HO]; · iexact HO
    rw [MayWait_zero]; iempintro
  iintro ⟨Hz, Hp, HO⟩
  ihave Hp' := (Entails.of_eq (payload_E m c false)) $$ Hp
  iapply Hk
  isplitl [Hz]; · iexact Hz
  isplitl [Hp']; · iexact Hp'
  iexact HO

end Cert.KernelIdeal.AG

end
-- ==== Proof.AgState.lean ====
/-
  What a device holds between the setting apart of its arrays' pieces and their joining at the end.
-/
import proofs.«900087_g7700000000000088_dist_ag_v7x_xy2x2_x_m4096_n1024_f32_1_alg».proof.Proof.AgSteps

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- What a device holds once the pieces of its arrays are set apart. -/
def Prep (c : Dev nD) : sProp 𝕄 :=
  iprop(recI m K ∗ recR ∗ levAts L lv
    ∗ (atPos ER (cell c .bar) 0 ∅ 0 ∗ cred (tallyAt (cell c .bar) () 2) ∗ dutyTok ER (cell (xn c) .bar) 0 false ∗ dutyTok ER (cell (yn c) .bar) 0 true
        ∗ barPayX m (xn c) c ∗ barPayY m (yn c) c)
    ∗ ((bigSep Finset.univ fun k : Fin 32 => payA m c k) ∗ (bigSep Finset.univ fun k : Fin 32 => dutyTok ER (cell c (.A k)) 0 false)
        ∗ (bigSep Finset.univ fun k : Fin 32 => dutyTok ER (cell (xn c) (.B k)) 0 false))
    ∗ ((bigSep Finset.univ fun k : Fin 32 => dutyTok ER (cell c (.C k)) 0 false) ∗ (bigSep Finset.univ fun k : Fin 32 => dutyTok ER (cell (yn c) (.D k)) 0 false))
    ∗ (WG (F := F) CK.B c 0 ∗ WG (F := F) CK.D c 0 ∗ (bigSep Finset.univ fun k : Fin 32 => atPos ER (cell c (.A k)) 0 ∅ 0)
        ∗ (bigSep Finset.univ fun k : Fin 32 => atPos ER (cell c (.C k)) 0 ∅ 0))
    ∗ (atPos ER (cell c .E) 0 ∅ 0 ∗ dutyTok ER (cell c .E) 0 false
        ∗ ((xM : Memref sig .tc .hbm S4096x1024 .f32).view.loc (c : Thread nD τ) ↦[(xM : Memref sig .tc .hbm S4096x1024 .f32).view.set]{fullShare.left} X m c)
        ∗ ((o3 c).view.loc (c : Thread nD τ) ↦[(o3 c).view.set]{fullShare} V0 m c))
    ∗ ow c (O₀ c))

/-- What it holds at the end. -/
def Done (c : Dev nD) : sProp 𝕄 :=
  iprop(WS m CK.A c 32 ∗ WS m CK.C c 32 ∗ WS m CK.D c 32 ∗ WG (F := F) CK.B c 32 ∗ semVal (cell c .E) 0 ∗ payE m c ∗ ow c 0)

/-- The rows of the own block no direct transfer reads, at the share the transfers were lent from. -/
def xRest (c : Dev nD) : sProp 𝕄 :=
  ((c : Thread nD τ).loc main_arg0) ↦[Finset.univ \ (Finset.univ.biUnion fun k : Fin 32 => (xSl c k).view.set)]{fullShare.right} X m c
/-- The elements of the result array outside every piece (there are none; the protocol does not need to know). -/
def outRest (c : Dev nD) : sProp 𝕄 :=
  ((c : Thread nD τ).loc main_v1) ↦[((Finset.univ \ (o3 c).view.set) \ (Finset.univ.biUnion fun k : Fin 32 => (o1 (xn c) k).view.set))
      \ (Finset.univ.biUnion fun k : Fin 32 => (o4 (yn c) k).view.set)]{fullShare} V0 m c

end Cert.KernelIdeal.AG

end
-- ==== Proof.AgBody.lean ====
/-
  One device's whole run: the handshake, the 32 direct transfers, the local copy, 32 times the wait for a chunk's
  arrival and its relay, the closing waits — from what the device holds when the pieces of its two arrays have been
  set apart, to every piece filled and every own semaphore closed.
-/
import proofs.«900087_g7700000000000088_dist_ag_v7x_xy2x2_x_m4096_n1024_f32_1_alg».proof.Proof.AgState
import proofs.«900087_g7700000000000088_dist_ag_v7x_xy2x2_x_m4096_n1024_f32_1_alg».proof.Proof.Gen.KernelIdeal.Skeleton

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The devices the kernel addresses -/

omit [FloatOps F] in
theorem dev1_eq (c : Dev nD) : (⟨k0_dev1 c, Gen.k0_dev1_lt c⟩ : Dev nD) = xn c := Fin.ext (Gen.k0_dev1_eq c)
omit [FloatOps F] in
theorem dev2_eq (c : Dev nD) : (⟨k0_dev2 c, Gen.k0_dev2_lt c⟩ : Dev nD) = yn c := Fin.ext (Gen.k0_dev2_eq c)
omit [FloatOps F] in
theorem dev3_eq (c : Dev nD) : (⟨k0_dev3 c, Gen.k0_dev3_lt c⟩ : Dev nD) = xn c := Fin.ext (Gen.k0_dev3_eq c)
omit [FloatOps F] in
theorem dev4_eq (c : Dev nD) : (⟨k0_dev4 c, Gen.k0_dev4_lt c⟩ : Dev nD) = xn c := Fin.ext (Gen.k0_dev4_eq c)
omit [FloatOps F] in
theorem dev5_eq (c : Dev nD) : (⟨k0_dev5 c, Gen.k0_dev5_lt c⟩ : Dev nD) = xn c := Fin.ext (Gen.k0_dev5_eq c)
omit [FloatOps F] in
theorem dev6_eq (c : Dev nD) : (⟨k0_dev6 c, Gen.k0_dev6_lt c⟩ : Dev nD) = xn c := Fin.ext (Gen.k0_dev6_eq c)
omit [FloatOps F] in
theorem dev7_eq (c : Dev nD) : (⟨k0_dev7 c, Gen.k0_dev7_lt c⟩ : Dev nD) = xn c := Fin.ext (Gen.k0_dev7_eq c)
omit [FloatOps F] in
theorem dev8_eq (c : Dev nD) : (⟨k0_dev8 c, Gen.k0_dev8_lt c⟩ : Dev nD) = xn c := Fin.ext (Gen.k0_dev8_eq c)
omit [FloatOps F] in
theorem dev9_eq (c : Dev nD) : (⟨k0_dev9 c, Gen.k0_dev9_lt c⟩ : Dev nD) = xn c := Fin.ext (Gen.k0_dev9_eq c)
omit [FloatOps F] in
theorem dev10_eq (c : Dev nD) : (⟨k0_dev10 c, Gen.k0_dev10_lt c⟩ : Dev nD) = xn c := Fin.ext (Gen.k0_dev10_eq c)
omit [FloatOps F] in
theorem dev11_eq (c : Dev nD) : (⟨k0_dev11 c, Gen.k0_dev11_lt c⟩ : Dev nD) = xn c := Fin.ext (Gen.k0_dev11_eq c)
omit [FloatOps F] in
theorem dev12_eq (c : Dev nD) : (⟨k0_dev12 c, Gen.k0_dev12_lt c⟩ : Dev nD) = xn c := Fin.ext (Gen.k0_dev12_eq c)
omit [FloatOps F] in
theorem dev13_eq (c : Dev nD) : (⟨k0_dev13 c, Gen.k0_dev13_lt c⟩ : Dev nD) = xn c := Fin.ext (Gen.k0_dev13_eq c)
omit [FloatOps F] in
theorem dev14_eq (c : Dev nD) : (⟨k0_dev14 c, Gen.k0_dev14_lt c⟩ : Dev nD) = xn c := Fin.ext (Gen.k0_dev14_eq c)
omit [FloatOps F] in
theorem dev15_eq (c : Dev nD) : (⟨k0_dev15 c, Gen.k0_dev15_lt c⟩ : Dev nD) = xn c := Fin.ext (Gen.k0_dev15_eq c)
omit [FloatOps F] in
theorem dev16_eq (c : Dev nD) : (⟨k0_dev16 c, Gen.k0_dev16_lt c⟩ : Dev nD) = xn c := Fin.ext (Gen.k0_dev16_eq c)
omit [FloatOps F] in
theorem dev17_eq (c : Dev nD) : (⟨k0_dev17 c, Gen.k0_dev17_lt c⟩ : Dev nD) = xn c := Fin.ext (Gen.k0_dev17_eq c)
omit [FloatOps F] in
theorem dev18_eq (c : Dev nD) : (⟨k0_dev18 c, Gen.k0_dev18_lt c⟩ : Dev nD) = xn c := Fin.ext (Gen.k0_dev18_eq c)
omit [FloatOps F] in
theorem dev19_eq (c : Dev nD) : (⟨k0_dev19 c, Gen.k0_dev19_lt c⟩ : Dev nD) = xn c := Fin.ext (Gen.k0_dev19_eq c)
omit [FloatOps F] in
theorem dev20_eq (c : Dev nD) : (⟨k0_dev20 c, Gen.k0_dev20_lt c⟩ : Dev nD) = xn c := Fin.ext (Gen.k0_dev20_eq c)
omit [FloatOps F] in
theorem dev21_eq (c : Dev nD) : (⟨k0_dev21 c, Gen.k0_dev21_lt c⟩ : Dev nD) = xn c := Fin.ext (Gen.k0_dev21_eq c)
omit [FloatOps F] in
theorem dev22_eq (c : Dev nD) : (⟨k0_dev22 c, Gen.k0_dev22_lt c⟩ : Dev nD) = xn c := Fin.ext (Gen.k0_dev22_eq c)
omit [FloatOps F] in
theorem dev23_eq (c : Dev nD) : (⟨k0_dev23 c, Gen.k0_dev23_lt c⟩ : Dev nD) = xn c := Fin.ext (Gen.k0_dev23_eq c)
omit [FloatOps F] in
theorem dev24_eq (c : Dev nD) : (⟨k0_dev24 c, Gen.k0_dev24_lt c⟩ : Dev nD) = xn c := Fin.ext (Gen.k0_dev24_eq c)
omit [FloatOps F] in
theorem dev25_eq (c : Dev nD) : (⟨k0_dev25 c, Gen.k0_dev25_lt c⟩ : Dev nD) = xn c := Fin.ext (Gen.k0_dev25_eq c)
omit [FloatOps F] in
theorem dev26_eq (c : Dev nD) : (⟨k0_dev26 c, Gen.k0_dev26_lt c⟩ : Dev nD) = xn c := Fin.ext (Gen.k0_dev26_eq c)
omit [FloatOps F] in
theorem dev27_eq (c : Dev nD) : (⟨k0_dev27 c, Gen.k0_dev27_lt c⟩ : Dev nD) = xn c := Fin.ext (Gen.k0_dev27_eq c)
omit [FloatOps F] in
theorem dev28_eq (c : Dev nD) : (⟨k0_dev28 c, Gen.k0_dev28_lt c⟩ : Dev nD) = xn c := Fin.ext (Gen.k0_dev28_eq c)
omit [FloatOps F] in
theorem dev29_eq (c : Dev nD) : (⟨k0_dev29 c, Gen.k0_dev29_lt c⟩ : Dev nD) = xn c := Fin.ext (Gen.k0_dev29_eq c)
omit [FloatOps F] in
theorem dev30_eq (c : Dev nD) : (⟨k0_dev30 c, Gen.k0_dev30_lt c⟩ : Dev nD) = xn c := Fin.ext (Gen.k0_dev30_eq c)
omit [FloatOps F] in
theorem dev31_eq (c : Dev nD) : (⟨k0_dev31 c, Gen.k0_dev31_lt c⟩ : Dev nD) = xn c := Fin.ext (Gen.k0_dev31_eq c)
omit [FloatOps F] in
theorem dev32_eq (c : Dev nD) : (⟨k0_dev32 c, Gen.k0_dev32_lt c⟩ : Dev nD) = xn c := Fin.ext (Gen.k0_dev32_eq c)
omit [FloatOps F] in
theorem dev33_eq (c : Dev nD) : (⟨k0_dev33 c, Gen.k0_dev33_lt c⟩ : Dev nD) = xn c := Fin.ext (Gen.k0_dev33_eq c)
omit [FloatOps F] in
theorem dev34_eq (c : Dev nD) : (⟨k0_dev34 c, Gen.k0_dev34_lt c⟩ : Dev nD) = xn c := Fin.ext (Gen.k0_dev34_eq c)
omit [FloatOps F] in
theorem dev35_eq (c : Dev nD) : (⟨k0_dev35 c, Gen.k0_dev35_lt c⟩ : Dev nD) = yn c := Fin.ext (Gen.k0_dev35_eq c)
omit [FloatOps F] in
theorem dev36_eq (c : Dev nD) : (⟨k0_dev36 c, Gen.k0_dev36_lt c⟩ : Dev nD) = yn c := Fin.ext (Gen.k0_dev36_eq c)
omit [FloatOps F] in
theorem dev37_eq (c : Dev nD) : (⟨k0_dev37 c, Gen.k0_dev37_lt c⟩ : Dev nD) = yn c := Fin.ext (Gen.k0_dev37_eq c)
omit [FloatOps F] in
theorem dev38_eq (c : Dev nD) : (⟨k0_dev38 c, Gen.k0_dev38_lt c⟩ : Dev nD) = yn c := Fin.ext (Gen.k0_dev38_eq c)
omit [FloatOps F] in
theorem dev39_eq (c : Dev nD) : (⟨k0_dev39 c, Gen.k0_dev39_lt c⟩ : Dev nD) = yn c := Fin.ext (Gen.k0_dev39_eq c)
omit [FloatOps F] in
theorem dev40_eq (c : Dev nD) : (⟨k0_dev40 c, Gen.k0_dev40_lt c⟩ : Dev nD) = yn c := Fin.ext (Gen.k0_dev40_eq c)
omit [FloatOps F] in
theorem dev41_eq (c : Dev nD) : (⟨k0_dev41 c, Gen.k0_dev41_lt c⟩ : Dev nD) = yn c := Fin.ext (Gen.k0_dev41_eq c)
omit [FloatOps F] in
theorem dev42_eq (c : Dev nD) : (⟨k0_dev42 c, Gen.k0_dev42_lt c⟩ : Dev nD) = yn c := Fin.ext (Gen.k0_dev42_eq c)
omit [FloatOps F] in
theorem dev43_eq (c : Dev nD) : (⟨k0_dev43 c, Gen.k0_dev43_lt c⟩ : Dev nD) = yn c := Fin.ext (Gen.k0_dev43_eq c)
omit [FloatOps F] in
theorem dev44_eq (c : Dev nD) : (⟨k0_dev44 c, Gen.k0_dev44_lt c⟩ : Dev nD) = yn c := Fin.ext (Gen.k0_dev44_eq c)
omit [FloatOps F] in
theorem dev45_eq (c : Dev nD) : (⟨k0_dev45 c, Gen.k0_dev45_lt c⟩ : Dev nD) = yn c := Fin.ext (Gen.k0_dev45_eq c)
omit [FloatOps F] in
theorem dev46_eq (c : Dev nD) : (⟨k0_dev46 c, Gen.k0_dev46_lt c⟩ : Dev nD) = yn c := Fin.ext (Gen.k0_dev46_eq c)
omit [FloatOps F] in
theorem dev47_eq (c : Dev nD) : (⟨k0_dev47 c, Gen.k0_dev47_lt c⟩ : Dev nD) = yn c := Fin.ext (Gen.k0_dev47_eq c)
omit [FloatOps F] in
theorem dev48_eq (c : Dev nD) : (⟨k0_dev48 c, Gen.k0_dev48_lt c⟩ : Dev nD) = yn c := Fin.ext (Gen.k0_dev48_eq c)
omit [FloatOps F] in
theorem dev49_eq (c : Dev nD) : (⟨k0_dev49 c, Gen.k0_dev49_lt c⟩ : Dev nD) = yn c := Fin.ext (Gen.k0_dev49_eq c)
omit [FloatOps F] in
theorem dev50_eq (c : Dev nD) : (⟨k0_dev50 c, Gen.k0_dev50_lt c⟩ : Dev nD) = yn c := Fin.ext (Gen.k0_dev50_eq c)
omit [FloatOps F] in
theorem dev51_eq (c : Dev nD) : (⟨k0_dev51 c, Gen.k0_dev51_lt c⟩ : Dev nD) = yn c := Fin.ext (Gen.k0_dev51_eq c)
omit [FloatOps F] in
theorem dev52_eq (c : Dev nD) : (⟨k0_dev52 c, Gen.k0_dev52_lt c⟩ : Dev nD) = yn c := Fin.ext (Gen.k0_dev52_eq c)
omit [FloatOps F] in
theorem dev53_eq (c : Dev nD) : (⟨k0_dev53 c, Gen.k0_dev53_lt c⟩ : Dev nD) = yn c := Fin.ext (Gen.k0_dev53_eq c)
omit [FloatOps F] in
theorem dev54_eq (c : Dev nD) : (⟨k0_dev54 c, Gen.k0_dev54_lt c⟩ : Dev nD) = yn c := Fin.ext (Gen.k0_dev54_eq c)
omit [FloatOps F] in
theorem dev55_eq (c : Dev nD) : (⟨k0_dev55 c, Gen.k0_dev55_lt c⟩ : Dev nD) = yn c := Fin.ext (Gen.k0_dev55_eq c)
omit [FloatOps F] in
theorem dev56_eq (c : Dev nD) : (⟨k0_dev56 c, Gen.k0_dev56_lt c⟩ : Dev nD) = yn c := Fin.ext (Gen.k0_dev56_eq c)
omit [FloatOps F] in
theorem dev57_eq (c : Dev nD) : (⟨k0_dev57 c, Gen.k0_dev57_lt c⟩ : Dev nD) = yn c := Fin.ext (Gen.k0_dev57_eq c)
omit [FloatOps F] in
theorem dev58_eq (c : Dev nD) : (⟨k0_dev58 c, Gen.k0_dev58_lt c⟩ : Dev nD) = yn c := Fin.ext (Gen.k0_dev58_eq c)
omit [FloatOps F] in
theorem dev59_eq (c : Dev nD) : (⟨k0_dev59 c, Gen.k0_dev59_lt c⟩ : Dev nD) = yn c := Fin.ext (Gen.k0_dev59_eq c)
omit [FloatOps F] in
theorem dev60_eq (c : Dev nD) : (⟨k0_dev60 c, Gen.k0_dev60_lt c⟩ : Dev nD) = yn c := Fin.ext (Gen.k0_dev60_eq c)
omit [FloatOps F] in
theorem dev61_eq (c : Dev nD) : (⟨k0_dev61 c, Gen.k0_dev61_lt c⟩ : Dev nD) = yn c := Fin.ext (Gen.k0_dev61_eq c)
omit [FloatOps F] in
theorem dev62_eq (c : Dev nD) : (⟨k0_dev62 c, Gen.k0_dev62_lt c⟩ : Dev nD) = yn c := Fin.ext (Gen.k0_dev62_eq c)
omit [FloatOps F] in
theorem dev63_eq (c : Dev nD) : (⟨k0_dev63 c, Gen.k0_dev63_lt c⟩ : Dev nD) = yn c := Fin.ext (Gen.k0_dev63_eq c)
omit [FloatOps F] in
theorem dev64_eq (c : Dev nD) : (⟨k0_dev64 c, Gen.k0_dev64_lt c⟩ : Dev nD) = yn c := Fin.ext (Gen.k0_dev64_eq c)
omit [FloatOps F] in
theorem dev65_eq (c : Dev nD) : (⟨k0_dev65 c, Gen.k0_dev65_lt c⟩ : Dev nD) = yn c := Fin.ext (Gen.k0_dev65_eq c)
omit [FloatOps F] in
theorem dev66_eq (c : Dev nD) : (⟨k0_dev66 c, Gen.k0_dev66_lt c⟩ : Dev nD) = yn c := Fin.ext (Gen.k0_dev66_eq c)

variable (m : (ℓ : Loc nD τ sig) → Buf (Elt F) ℓ) (K : Dev nD × CK → ℕ)

omit [FloatOps F] in
theorem S1_intro (c : Dev nD) :
    iprop((bigSep Finset.univ fun k : Fin 32 => payA m c k) ∗ barPayX m c (xn c) ∗ (bigSep Finset.univ fun k : Fin 32 => dutyTok ER (cell c (.A k)) 0 false)
        ∗ (bigSep Finset.univ fun k : Fin 32 => dutyTok ER (cell (xn c) (.B k)) 0 false) ∗ ow c (O₂ c))
      ⊢ S1 m c 0 (oweD c 0) := by
  unfold S1 R1 R1' barPayX O₂
  rw [Sfrom_zero, Tbelow_zero, bigSep_empty, bigSep_sep', bigSep_sep', bigSep_sep']
  iintro ⟨H1, H2, H3, H4, HO⟩
  isplitl [H1 H2 H3 H4]
  · isplitl [H1]; · iexact H1
    isplitl [H2]; · iexact H2
    isplitl [H3]; · iexact H3
    iexact H4
  isplitr; · iempintro
  iexact HO

omit [FloatOps F] in
theorem S1_elim (c : Dev nD) (O : CellTallies nD τ sig Unit) :
    S1 m c 32 O ⊢ iprop((bigSep Finset.univ fun k : Fin 32 => cred (tallyAt (cell c (.A k)) () N)) ∗ ow c O) := by
  unfold S1 R1'
  rw [Sfrom_32, Tbelow_32, bigSep_empty, oweB_32, add_zero]
  iintro ⟨-, HT, HO⟩
  isplitl [HT]; · iexact HT
  iexact HO

omit [FloatOps F] in
theorem S2_intro (c : Dev nD) :
    iprop(barPayY m c (yn c) ∗ (bigSep Finset.univ fun k : Fin 32 => dutyTok ER (cell c (.C k)) 0 false)
        ∗ (bigSep Finset.univ fun k : Fin 32 => dutyTok ER (cell (yn c) (.D k)) 0 false) ∗ ow c (oweD c 0))
      ⊢ S2 m c 0 := by
  unfold S2 R2 R2' barPayY
  rw [Sfrom_zero, Tbelow_zero, bigSep_empty, bigSep_sep', bigSep_sep']
  iintro ⟨H1, H2, H3, HO⟩
  isplitl [H1 H2 H3]
  · isplitl [H1]; · iexact H1
    isplitl [H2]; · iexact H2
    iexact H3
  isplitr; · iempintro
  iexact HO

omit [FloatOps F] in
theorem S2_elim (c : Dev nD) :
    S2 m c 32 ⊢ iprop((bigSep Finset.univ fun k : Fin 32 => cred (tallyAt (cell c (.C k)) () N)) ∗ ow c 0) := by
  unfold S2 R2'
  rw [Sfrom_32, Tbelow_32, bigSep_empty, oweD_32]
  iintro ⟨-, HT, HO⟩
  isplitl [HT]; · iexact HT
  iexact HO

omit [FloatOps F] in
/-- Positions and credits of one kind of cell, none waited for yet. -/
theorem WS_intro (kf : Fin 32 → CK) (c : Dev nD) :
    iprop((bigSep Finset.univ fun k : Fin 32 => atPos ER (cell c (kf k)) 0 ∅ 0) ∗ (bigSep Finset.univ fun k : Fin 32 => cred (tallyAt (cell c (kf k)) () N)))
      ⊢ WS m kf c 0 := by
  unfold WS WG
  rw [Sfrom_zero, Tbelow_zero, bigSep_empty, bigSep_empty, bigSep_sep']
  iintro ⟨H1, H2⟩
  isplitl [H1 H2]
  · isplitl [H1 H2]
    · isplitl [H1]; · iexact H1
      iexact H2
    iempintro
  iempintro

omit [FloatOps F] in
theorem WS_of_WG (kf : Fin 32 → CK) (c : Dev nD) : WG (F := F) kf c 0 ⊢ WS m kf c 0 := by
  unfold WS
  rw [Tbelow_zero, bigSep_empty]
  iintro H
  isplitl [H]; · iexact H
  iempintro

/-! ## The handshake -/

/-- One barrier signal: the duty `d` of the neighbour `dst`'s barrier cell paid, with its payload. -/
theorem signal_bar (c dst : Dev nD) (d : Bool) (s : Sem sig) (hs : semOf .bar = .reg s) (n1 : ℕ) (h1 : n1 = 1) (O : CellTallies nD τ sig Unit)
    {α : Type} {Q : α → sProp 𝕄} {kk : PUnit → Prog (TpuEff nD τ sig (Elt F) Λ₀ .tc) α} :
    iprop(recI m K ∗ recR ∗ dutyTok ER (cell dst .bar) 0 d ∗ (sched m).payload (cell dst .bar) 0 d ∗ ow c (O + tallyAt (cell dst .bar) () 1))
      ⊢ iprop((ow c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (dst : Thread nD τ) s n1) kk) Q) := by
  subst h1
  have hcell : cell dst .bar = ((dst : Thread nD τ), SemLoc.reg s) := by show ((dst : Thread nD τ), semOf .bar) = _; rw [hs]
  have hinv : recI m K ⊢ cellInv ER (sched m) (K (dst, .bar)) ((dst : Thread nD τ), SemLoc.reg s) := hcell ▸ inv_at m K dst .bar
  have hreach : (recR : sProp 𝕄) ⊢ reached ER ((dst : Thread nD τ), SemLoc.reg s) 0 := hcell ▸ reached_at (F := F) dst .bar
  have hdut : d ∈ (sched m).duties ((dst : Thread nD τ), SemLoc.reg s) 0 := by rw [← hcell, duties_bar]; exact Finset.mem_univ _
  have hamt : (sched m).amount ((dst : Thread nD τ), SemLoc.reg s) 0 d = 1 := by rw [← hcell]; exact amount_bar m dst d
  rw [hcell]
  unfold ow
  iintro ⟨#HI, #HR, Ht, Hp, ⟨%W, HO⟩⟩ Hk
  iapply (Rounds.wp_signal 𝒱₀ ER (sched m) (c : Thread nD τ) none (dst := (dst : Thread nD τ)) (κ := K (dst, .bar))
      (d := d) hdut hamt () O rfl) $$ [HO Ht Hp]
  · isplitr; · iapply hinv; iexact HI
    isplitl [HO]; · iexact HO
    isplitl [Ht]; · iexact Ht
    isplitl [Hp]; · iexact Hp
    iapply hreach; iexact HR
  iintro HO
  iapply Hk
  iexists W; iexact HO

/-- The wait for both neighbours' signals: what they hand over. -/
theorem wait_bar (c : Dev nD) (s : Sem sig) (hs : semOf .bar = .reg s) (n2 : ℕ) (h2 : n2 = 2) (O : CellTallies nD τ sig Unit)
    {α : Type} {Q : α → sProp 𝕄} {kk : PUnit → Prog (TpuEff nD τ sig (Elt F) Λ₀ .tc) α} :
    iprop(recI m K ∗ atPos ER (cell c .bar) 0 ∅ 0 ∗ cred (tallyAt (cell c .bar) () 2) ∗ ow c O ∗ MayWait (c : Thread nD τ) (semOf .bar) () O)
      ⊢ iprop(((barPayX m c (xn c) ∗ barPayY m c (yn c) ∗ ow c O)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait s n2) kk) Q) := by
  subst h2
  have hcell : cell c .bar = ((c : Thread nD τ), SemLoc.reg s) := by show ((c : Thread nD τ), semOf .bar) = _; rw [hs]
  have hinv : recI m K ⊢ cellInv ER (sched m) (K (c, .bar)) ((c : Thread nD τ), SemLoc.reg s) := hcell ▸ inv_at m K c .bar
  have hrest := rest_bar m c
  have hexp := expect_bar m c
  rw [hcell] at hrest hexp
  rw [hcell, hs]
  unfold ow
  iintro ⟨#HI, Hat, Hc, ⟨%W, HO⟩, Hmay⟩ Hk
  iapply (Rounds.wp_wait_rest_token 𝒱₀ ER (sched m) (c : Thread nD τ) none (κ := K (c, .bar))
      (wpE_semWait_eq 𝒱₀ (c : Thread nD τ) none Set.univ) (Set.mem_univ _) () (O := O) (W := W) (R := 0) (m := 0) (T := ∅)
      (by rw [hexp])) $$ [Hc HO Hat Hmay]
  · isplitr; · iapply hinv; iexact HI
    isplitl [Hc]; · iexact Hc
    isplitl [HO]; · iexact HO
    isplitl [Hmay]; · iexact Hmay
    iexact Hat
  iintro ⟨HO, -, -, Hpay⟩
  ihave Hp := (Entails.of_eq hrest) $$ Hpay
  icases Hp with ⟨Hd1, Hd2⟩
  iapply Hk
  isplitl [Hd1]; · iexact Hd1
  isplitl [Hd2]; · iexact Hd2
  iexists _; iexact HO

set_option hygiene false in
local macro "p1step " n:num e:ident : tactic =>
  `(tactic| (iapply (step_p1 m K c _ ($e c) $n (by decide) (oweD c 0)) $$ [H1]
             · (isplitr; · iexact HI); (isplitr; · iexact HR); iexact H1
             iintro H1))
set_option hygiene false in
local macro "p2step " n:num e:ident : tactic =>
  `(tactic| (iapply (step_waitB m K c $n (by decide)) $$ [HB H2]
             · (isplitr; · iexact HI); (isplitr; · iexact Hlev); (isplitl [HB]; · iexact HB); iexact H2
             iintro ⟨HB, Hp, H2⟩
             iapply (step_p2 m K c _ ($e c) $n (by decide)) $$ [Hp H2]
             · (isplitr; · iexact HI); (isplitr; · iexact HR); (isplitl [Hp]; · iexact Hp); iexact H2
             iintro H2))
set_option hygiene false in
local macro "p3step " n:num : tactic =>
  `(tactic| (iapply (step_waitS m K CK.A (fun _ h => CK.noConfusion h) (fun _ h => CK.noConfusion h) 0 _ (fun _ => rfl) c $n (by decide)) $$ [HA HO]
             · (isplitr; · iexact HI); (isplitl [HA]; · iexact HA); iexact HO
             iintro ⟨HA, HO⟩
             iapply (step_waitS m K CK.C (fun _ h => CK.noConfusion h) (fun _ h => CK.noConfusion h) 64 _ (fun _ => rfl) c $n (by decide)) $$ [HC HO]
             · (isplitr; · iexact HI); (isplitl [HC]; · iexact HC); iexact HO
             iintro ⟨HC, HO⟩
             iapply (step_waitS m K CK.D (fun _ h => CK.noConfusion h) (fun _ h => CK.noConfusion h) 96 _ (fun _ => rfl) c $n (by decide)) $$ [HD HO]
             · (isplitr; · iexact HI); (isplitl [HD]; · iexact HD); iexact HO
             iintro ⟨HD, HO⟩))

set_option maxHeartbeats 3000000 in
/-- The body, one rule per operation in program order. -/
theorem body_steps (c : Dev nD) (Kt : PUnit → sProp 𝕄) :
    iprop(Prep m K c ∗ (Done m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _)
            cc0_scratch0 cc0_scratch1 cc0_scratch2 cc0_scratch3 cc0_scratch4) Kt := by
  simp only [cc0_body_eq_skeleton]; unfold cc0_body_skel
  simp only [k0_part57_eq_skeleton]; unfold k0_part57_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel
  simp only [semSignalWord, semWaitWord, Prog.lift, Prog.bind_op, Prog.bind_ret, Prog.pure_eq_ret, wp_deviceId]
  simp only [dev1_eq c, dev2_eq c]
  unfold Prep
  iintro ⟨⟨#HI, #HR, #Hlev, ⟨HatBar, HcBar, HtBX, HtBY, HoutX, HoutY⟩, ⟨HpA, HtA, HtB⟩, ⟨HtC, HtD⟩, ⟨HB, HD0, HatA, HatC⟩, ⟨HatE, HtE, HxL, Ho3⟩, HO⟩, Hk⟩
  -- the first signal, to the neighbour along the first axis: with it the rows of the own result array that neighbour fills
  iapply (signal_bar m K c (xn c) false _ rfl _ rfl (O₁ c)) $$ [HO HtBX HoutX]
  · isplitr; · iexact HI
    isplitr; · iexact HR
    isplitl [HtBX]; · iexact HtBX
    isplitl [HoutX]
    · ihave Hx := (Entails.of_eq (show barPayX m (xn c) c = (sched m).payload (cell (xn c) .bar) 0 false from by rw [payload_bar_false, xn_xn])) $$ HoutX
      iexact Hx
    iexact HO
  iintro HO
  -- the second, to the neighbour along the second axis
  iapply (signal_bar m K c (yn c) true _ rfl _ rfl (O₂ c)) $$ [HO HtBY HoutY]
  · isplitr; · iexact HI
    isplitr; · iexact HR
    isplitl [HtBY]; · iexact HtBY
    isplitl [HoutY]
    · ihave Hy := (Entails.of_eq (show barPayY m (yn c) c = (sched m).payload (cell (yn c) .bar) 0 true from by rw [payload_bar_true, yn_yn])) $$ HoutY
      iexact Hy
    iexact HO
  iintro HO
  -- the wait for both neighbours' signals: the rows of their result arrays this device fills
  iapply (wait_bar m K c _ rfl _ rfl (O₂ c)) $$ [HcBar HO HatBar]
  · isplitr; · iexact HI
    isplitl [HatBar]; · iexact HatBar
    isplitl [HcBar]; · iexact HcBar
    isplitl [HO]; · iexact HO
    iapply (mayWait_bar (F := F) c); iexact Hlev
  iintro ⟨Hd1, Hd2, HO⟩
  ihave H1 := (S1_intro m c) $$ [HpA Hd1 HtA HtB HO]
  · isplitl [HpA]; · iexact HpA
    isplitl [Hd1]; · iexact Hd1
    isplitl [HtA]; · iexact HtA
    isplitl [HtB]; · iexact HtB
    iexact HO
  -- the 32 direct transfers
  p1step 0 dev3_eq
  p1step 1 dev4_eq
  p1step 2 dev5_eq
  p1step 3 dev6_eq
  p1step 4 dev7_eq
  p1step 5 dev8_eq
  p1step 6 dev9_eq
  p1step 7 dev10_eq
  p1step 8 dev11_eq
  p1step 9 dev12_eq
  p1step 10 dev13_eq
  p1step 11 dev14_eq
  p1step 12 dev15_eq
  p1step 13 dev16_eq
  p1step 14 dev17_eq
  p1step 15 dev18_eq
  p1step 16 dev19_eq
  p1step 17 dev20_eq
  p1step 18 dev21_eq
  p1step 19 dev22_eq
  p1step 20 dev23_eq
  p1step 21 dev24_eq
  p1step 22 dev25_eq
  p1step 23 dev26_eq
  p1step 24 dev27_eq
  p1step 25 dev28_eq
  p1step 26 dev29_eq
  p1step 27 dev30_eq
  p1step 28 dev31_eq
  p1step 29 dev32_eq
  p1step 30 dev33_eq
  p1step 31 dev34_eq
  ihave H1' := (S1_elim m c (oweD c 0)) $$ H1
  icases H1' with ⟨HcA, HO⟩
  -- the local copy of the own block
  iapply (Rounds.wp_copy_pointsTo 𝒱₀ ER (sched m) (c : Thread nD τ) none (κ := K (c, .E)) (r := 0) (d := false)
      (src := xM) (dst := o3 c) (q := fullShare.left) (fs := X m c) (fd := V0 m c)
      (by rw [duties_dma m c .E (fun h => CK.noConfusion h)]; exact Finset.mem_singleton_self _) () NE rfl (amount_E m c false)
      (by rw [payload_E]; unfold payE W3; exact BI.Entails.refl _)) $$ [HxL Ho3 HtE]
  · isplitr; · iapply (inv_at m K c .E); iexact HI
    isplitl [HxL]; · iexact HxL
    isplitl [Ho3]; · iexact Ho3
    isplitl [HtE]; · iexact HtE
    iapply (reached_at (F := F) c .E); iexact HR
  iintro HcE
  ihave H2 := (S2_intro m c) $$ [Hd2 HtC HtD HO]
  · isplitl [Hd2]; · iexact Hd2
    isplitl [HtC]; · iexact HtC
    isplitl [HtD]; · iexact HtD
    iexact HO
  -- 32 times: the wait for a chunk's arrival, then its relay
  p2step 0 dev35_eq
  p2step 1 dev36_eq
  p2step 2 dev37_eq
  p2step 3 dev38_eq
  p2step 4 dev39_eq
  p2step 5 dev40_eq
  p2step 6 dev41_eq
  p2step 7 dev42_eq
  p2step 8 dev43_eq
  p2step 9 dev44_eq
  p2step 10 dev45_eq
  p2step 11 dev46_eq
  p2step 12 dev47_eq
  p2step 13 dev48_eq
  p2step 14 dev49_eq
  p2step 15 dev50_eq
  p2step 16 dev51_eq
  p2step 17 dev52_eq
  p2step 18 dev53_eq
  p2step 19 dev54_eq
  p2step 20 dev55_eq
  p2step 21 dev56_eq
  p2step 22 dev57_eq
  p2step 23 dev58_eq
  p2step 24 dev59_eq
  p2step 25 dev60_eq
  p2step 26 dev61_eq
  p2step 27 dev62_eq
  p2step 28 dev63_eq
  p2step 29 dev64_eq
  p2step 30 dev65_eq
  p2step 31 dev66_eq
  ihave H2' := (S2_elim m c) $$ H2
  icases H2' with ⟨HcC, HO⟩
  ihave HA := (WS_intro m CK.A c) $$ [HatA HcA]
  · isplitl [HatA]; · iexact HatA
    iexact HcA
  ihave HC := (WS_intro m CK.C c) $$ [HatC HcC]
  · isplitl [HatC]; · iexact HatC
    iexact HcC
  ihave HD := (WS_of_WG m CK.D c) $$ HD0
  -- the closing waits, chunk by chunk: the direct transfer gone, the relay gone, the relayed chunk arrived
  p3step 0
  p3step 1
  p3step 2
  p3step 3
  p3step 4
  p3step 5
  p3step 6
  p3step 7
  p3step 8
  p3step 9
  p3step 10
  p3step 11
  p3step 12
  p3step 13
  p3step 14
  p3step 15
  p3step 16
  p3step 17
  p3step 18
  p3step 19
  p3step 20
  p3step 21
  p3step 22
  p3step 23
  p3step 24
  p3step 25
  p3step 26
  p3step 27
  p3step 28
  p3step 29
  p3step 30
  p3step 31
  -- the local copy done
  iapply (wait_E m K c) $$ [HatE HcE HO]
  · isplitr; · iexact HI
    isplitl [HatE]; · iexact HatE
    isplitl [HcE]; · iexact HcE
    iexact HO
  iintro ⟨HzE, HpE', HO⟩
  rw [wp_ret]; imodintro
  iapply Hk
  unfold Done
  isplitl [HA]; · iexact HA
  isplitl [HC]; · iexact HC
  isplitl [HD]; · iexact HD
  isplitl [HB]; · iexact HB
  isplitl [HzE]; · iexact HzE
  isplitl [HpE']; · iexact HpE'
  iexact HO

end Cert.KernelIdeal.AG

end
-- ==== Proof.AgCK.lean ====
/-
  The cells of one device, listed: the barrier, then the transfer cells A, B, C, D chunk by chunk, then E. A
  separating conjunction over all cells is the conjunction of the barrier's part, one per family of chunks, and E's.
-/
import proofs.«900087_g7700000000000088_dist_ag_v7x_xy2x2_x_m4096_n1024_f32_1_alg».proof.Proof.AgProto

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The transfer cells: A, B, C, D by chunk, then E. -/
abbrev DK : Type := Fin 32 ⊕ Fin 32 ⊕ Fin 32 ⊕ Fin 32 ⊕ Unit

def dkCK : DK → CK
  | .inl k => .A k
  | .inr (.inl k) => .B k
  | .inr (.inr (.inl k)) => .C k
  | .inr (.inr (.inr (.inl k))) => .D k
  | .inr (.inr (.inr (.inr _))) => .E

/-- Every cell is the barrier or a transfer cell. -/
def ckSum : Unit ⊕ DK ≃ CK where
  toFun | .inl _ => .bar | .inr d => dkCK d
  invFun
    | .bar => .inl ()
    | .A k => .inr (.inl k)
    | .B k => .inr (.inr (.inl k))
    | .C k => .inr (.inr (.inr (.inl k)))
    | .D k => .inr (.inr (.inr (.inr (.inl k))))
    | .E => .inr (.inr (.inr (.inr (.inr ()))))
  left_inv := by rintro (_ | _ | _ | _ | _ | _) <;> rfl
  right_inv := by intro k; cases k <;> rfl

theorem dkCK_injective : Function.Injective dkCK := fun a b h =>
  Sum.inr.inj (ckSum.injective (show ckSum (.inr a) = ckSum (.inr b) from h))

omit [FloatOps F] in
theorem bigSep_DK (Φ : DK → sProp 𝕄) : bigSep Finset.univ Φ
    = iprop((bigSep Finset.univ fun k : Fin 32 => Φ (.inl k)) ∗ (bigSep Finset.univ fun k : Fin 32 => Φ (.inr (.inl k)))
      ∗ (bigSep Finset.univ fun k : Fin 32 => Φ (.inr (.inr (.inl k)))) ∗ (bigSep Finset.univ fun k : Fin 32 => Φ (.inr (.inr (.inr (.inl k)))))
      ∗ Φ (.inr (.inr (.inr (.inr ()))))) := by
  rw [bigSep_univ_sum, bigSep_univ_sum, bigSep_univ_sum, bigSep_univ_sum, bigSep_univ_of_subsingleton ()]; rfl

omit [FloatOps F] in
theorem bigSep_CK_DK (Φ : CK → sProp 𝕄) : bigSep Finset.univ Φ = iprop(Φ .bar ∗ bigSep Finset.univ fun d : DK => Φ (dkCK d)) := by
  rw [bigSep_univ_equiv ckSum Φ, bigSep_univ_sum, bigSep_univ_of_subsingleton ()]; rfl

omit [FloatOps F] in
/-- A conjunction over all cells, family by family. -/
theorem bigSep_CK (Φ : CK → sProp 𝕄) : bigSep Finset.univ Φ
    = iprop(Φ .bar ∗ (bigSep Finset.univ fun k : Fin 32 => Φ (.A k)) ∗ (bigSep Finset.univ fun k : Fin 32 => Φ (.B k))
      ∗ (bigSep Finset.univ fun k : Fin 32 => Φ (.C k)) ∗ (bigSep Finset.univ fun k : Fin 32 => Φ (.D k)) ∗ Φ .E) := by
  rw [bigSep_CK_DK, bigSep_DK]; rfl

end Cert.KernelIdeal.AG

end
-- ==== Proof.AgPrep.lean ====
/-
  Setting a device's two arrays apart into the pieces its copies read and write, at the start, and joining the
  pieces at the end: the block of the input by share and by chunk, the result array into the own block's rows, the
  chunks arriving directly, the chunks arriving relayed, and what is left.
-/
import proofs.«900087_g7700000000000088_dist_ag_v7x_xy2x2_x_m4096_n1024_f32_1_alg».proof.Proof.AgState
import proofs.«900087_g7700000000000088_dist_ag_v7x_xy2x2_x_m4096_n1024_f32_1_alg».proof.Proof.AgCK
import proofs.«900087_g7700000000000088_dist_ag_v7x_xy2x2_x_m4096_n1024_f32_1_alg».proof.Proof.AgRegions

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The input block, by share and by chunk -/

omit [FloatOps F] in
theorem x_pieces (c : Dev nD) :
    ((((c : Thread nD τ).loc main_arg0) ↦{fullShare} X m c : sProp 𝕄))
      ⊣⊢ iprop(((xM : Memref sig .tc .hbm S4096x1024 .f32).view.loc (c : Thread nD τ) ↦[(xM : Memref sig .tc .hbm S4096x1024 .f32).view.set]{fullShare.left} X m c)
          ∗ (bigSep Finset.univ fun k : Fin 32 => payA m c k) ∗ xRest m c) := by
  have hset : (xM : Memref sig .tc .hbm S4096x1024 .f32).view.set = Finset.univ := View.set_whole _
  have hbi : (((c : Thread nD τ).loc main_arg0) ↦[Finset.univ.biUnion fun k : Fin 32 => (xSl c k).view.set]{fullShare.right} X m c : sProp 𝕄)
      = bigSep Finset.univ fun k : Fin 32 => payA m c k :=
    pointsTo_biUnion (ℓ := (c : Thread nD τ).loc main_arg0) Finset.univ (fun k : Fin 32 => (xSl c k).view.set) fun k _ j _ h => xSl_disjoint c h
  have h1 : ((((c : Thread nD τ).loc main_arg0) ↦{fullShare} X m c : sProp 𝕄))
      ⊣⊢ iprop((((c : Thread nD τ).loc main_arg0) ↦{fullShare.left} X m c) ∗ (((c : Thread nD τ).loc main_arg0) ↦{fullShare.right} X m c)) :=
    pointsTo_share (PosShare.mem_left_op_right fullShare)
  have h2 : ((((c : Thread nD τ).loc main_arg0) ↦{fullShare.right} X m c : sProp 𝕄))
      ⊣⊢ iprop((((c : Thread nD τ).loc main_arg0) ↦[Finset.univ.biUnion fun k : Fin 32 => (xSl c k).view.set]{fullShare.right} X m c)
          ∗ (((c : Thread nD τ).loc main_arg0) ↦[Finset.univ \ (Finset.univ.biUnion fun k : Fin 32 => (xSl c k).view.set)]{fullShare.right} X m c)) :=
    pointsTo_split_subset (Finset.subset_univ _)
  unfold xRest
  rw [hset, ← hbi]
  constructor
  · iintro H
    ihave H' := h1.1 $$ H
    icases H' with ⟨HL, HR⟩
    ihave HR' := h2.1 $$ HR
    icases HR' with ⟨HA, HX⟩
    isplitl [HL]; · iexact HL
    isplitl [HA]; · iexact HA
    iexact HX
  · iintro ⟨HL, HA, HX⟩
    iapply h1.2
    isplitl [HL]; · iexact HL
    iapply h2.2
    isplitl [HA]; · iexact HA
    iexact HX

/-! ## The result array, by piece -/

/-- The rows of the own block; the rows of the chunks arriving directly; the rows of the chunks arriving relayed. -/
abbrev S3 (c : Dev nD) : Finset (Idx ((c : Thread nD τ).loc main_v1)) := (o3 c).view.set
abbrev U1 (c : Dev nD) : Finset (Idx ((c : Thread nD τ).loc main_v1)) := Finset.univ.biUnion fun k : Fin 32 => (o1 (xn c) k).view.set
abbrev U4 (c : Dev nD) : Finset (Idx ((c : Thread nD τ).loc main_v1)) := Finset.univ.biUnion fun k : Fin 32 => (o4 (yn c) k).view.set

theorem U1_sub (c : Dev nD) : U1 c ⊆ Finset.univ \ S3 c := fun i hi => by
  obtain ⟨k, -, hk⟩ := Finset.mem_biUnion.mp hi
  exact Finset.mem_sdiff.mpr ⟨Finset.mem_univ _, fun h3 => Finset.disjoint_left.mp (o3_disjoint_o1 c k) h3 hk⟩

theorem U4_sub (c : Dev nD) : U4 c ⊆ (Finset.univ \ S3 c) \ U1 c := fun i hi => by
  obtain ⟨j, -, hj⟩ := Finset.mem_biUnion.mp hi
  refine Finset.mem_sdiff.mpr ⟨Finset.mem_sdiff.mpr ⟨Finset.mem_univ _, fun h3 => Finset.disjoint_left.mp (o3_disjoint_o4 c j) h3 hj⟩, fun h1 => ?_⟩
  obtain ⟨k, -, hk⟩ := Finset.mem_biUnion.mp h1
  exact Finset.disjoint_left.mp (o1_disjoint_o4 c k j) hk hj

omit [FloatOps F] in
theorem out_pieces (c : Dev nD) :
    ((((c : Thread nD τ).loc main_v1) ↦{fullShare} V0 m c : sProp 𝕄))
      ⊢ iprop(((o3 c).view.loc (c : Thread nD τ) ↦[(o3 c).view.set]{fullShare} V0 m c) ∗ barPayX m (xn c) c ∗ barPayY m (yn c) c ∗ outRest m c) := by
  have hb1 : (((c : Thread nD τ).loc main_v1) ↦[U1 c]{fullShare} V0 m c : sProp 𝕄) = barPayX m (xn c) c :=
    pointsTo_biUnion (ℓ := (c : Thread nD τ).loc main_v1) Finset.univ (fun k : Fin 32 => (o1 (xn c) k).view.set) fun k _ j _ h => o1_disjoint (xn c) h
  have hb4 : (((c : Thread nD τ).loc main_v1) ↦[U4 c]{fullShare} V0 m c : sProp 𝕄) = barPayY m (yn c) c :=
    pointsTo_biUnion (ℓ := (c : Thread nD τ).loc main_v1) Finset.univ (fun k : Fin 32 => (o4 (yn c) k).view.set) fun k _ j _ h => o4_disjoint (yn c) h
  have h3 : ((((c : Thread nD τ).loc main_v1) ↦{fullShare} V0 m c : sProp 𝕄))
      ⊣⊢ iprop((((c : Thread nD τ).loc main_v1) ↦[S3 c]{fullShare} V0 m c) ∗ (((c : Thread nD τ).loc main_v1) ↦[Finset.univ \ S3 c]{fullShare} V0 m c)) :=
    pointsTo_split_subset (Finset.subset_univ _)
  have h1 : ((((c : Thread nD τ).loc main_v1) ↦[Finset.univ \ S3 c]{fullShare} V0 m c : sProp 𝕄))
      ⊣⊢ iprop((((c : Thread nD τ).loc main_v1) ↦[U1 c]{fullShare} V0 m c) ∗ (((c : Thread nD τ).loc main_v1) ↦[(Finset.univ \ S3 c) \ U1 c]{fullShare} V0 m c)) :=
    pointsTo_split_subset (U1_sub c)
  have h4 : ((((c : Thread nD τ).loc main_v1) ↦[(Finset.univ \ S3 c) \ U1 c]{fullShare} V0 m c : sProp 𝕄))
      ⊣⊢ iprop((((c : Thread nD τ).loc main_v1) ↦[U4 c]{fullShare} V0 m c) ∗ (((c : Thread nD τ).loc main_v1) ↦[((Finset.univ \ S3 c) \ U1 c) \ U4 c]{fullShare} V0 m c)) :=
    pointsTo_split_subset (U4_sub c)
  rw [← hb1, ← hb4]
  unfold outRest
  iintro H
  ihave H' := h3.1 $$ H
  icases H' with ⟨H3, HR⟩
  ihave HR' := h1.1 $$ HR
  icases HR' with ⟨H1, HR⟩
  ihave HR'' := h4.1 $$ HR
  icases HR'' with ⟨H4, HR⟩
  isplitl [H3]; · iexact H3
  isplitl [H1]; · iexact H1
  isplitl [H4]; · iexact H4
  iexact HR

omit [FloatOps F] in
/-- The pieces of the result array, filled, are the array at contents that meet the specification piece by piece. -/
theorem out_join (c : Dev nD) :
    iprop(((o3 c).view.loc (c : Thread nD τ) ↦[(o3 c).view.set]{fullShare} W3 m c)
        ∗ (bigSep Finset.univ fun k : Fin 32 => payC m c k) ∗ (bigSep Finset.univ fun k : Fin 32 => payD m c (yn c) k) ∗ outRest m c)
      ⊢ (iprop(∃ g, ⌜OutSpec m c g⌝ ∗ (((c : Thread nD τ).loc main_v1) ↦{fullShare} g)) : sProp 𝕄) := by
  have hC : (bigSep Finset.univ fun k : Fin 32 => (payC m c k : sProp 𝕄))
      = bigSep Finset.univ fun k : Fin 32 => (((c : Thread nD τ).loc main_v1) ↦[(o1 (xn c) k).view.set]{fullShare} W1 m c k) :=
    bigSep_congr fun k _ => by rw [← payB_eq_payC]; rfl
  have hD : (bigSep Finset.univ fun k : Fin 32 => (payD m c (yn c) k : sProp 𝕄))
      = bigSep Finset.univ fun k : Fin 32 => (((c : Thread nD τ).loc main_v1) ↦[(o4 (yn c) k).view.set]{fullShare} W4 m c k) :=
    bigSep_congr fun k _ => rfl
  have j1 : (bigSep Finset.univ fun k : Fin 32 => (((c : Thread nD τ).loc main_v1) ↦[(o1 (xn c) k).view.set]{fullShare} W1 m c k) : sProp 𝕄)
      ⊢ iprop(∃ g, ⌜∀ k ∈ (Finset.univ : Finset (Fin 32)), ∀ i ∈ (o1 (xn c) k).view.set, g i = W1 m c k i⌝ ∗ (((c : Thread nD τ).loc main_v1) ↦[U1 c]{fullShare} g)) :=
    pointsTo_biUnion_join (ℓ := (c : Thread nD τ).loc main_v1) Finset.univ (fun k : Fin 32 => (o1 (xn c) k).view.set) (fun k => W1 m c k) (V0 m c)
      (fun k _ j _ h => o1_disjoint (xn c) h)
  have j4 : (bigSep Finset.univ fun k : Fin 32 => (((c : Thread nD τ).loc main_v1) ↦[(o4 (yn c) k).view.set]{fullShare} W4 m c k) : sProp 𝕄)
      ⊢ iprop(∃ g, ⌜∀ k ∈ (Finset.univ : Finset (Fin 32)), ∀ i ∈ (o4 (yn c) k).view.set, g i = W4 m c k i⌝ ∗ (((c : Thread nD τ).loc main_v1) ↦[U4 c]{fullShare} g)) :=
    pointsTo_biUnion_join (ℓ := (c : Thread nD τ).loc main_v1) Finset.univ (fun k : Fin 32 => (o4 (yn c) k).view.set) (fun k => W4 m c k) (V0 m c)
      (fun k _ j _ h => o4_disjoint (yn c) h)
  rw [hC, hD]
  unfold outRest
  iintro ⟨H3, HC, HD, HR⟩
  ihave G1 := j1 $$ HC
  icases G1 with ⟨%g₁, %hg₁, H1⟩
  ihave G4 := j4 $$ HD
  icases G4 with ⟨%g₄, %hg₄, H4⟩
  ihave Ha := (pointsTo_join_subset (ℓ := (c : Thread nD τ).loc main_v1) (q := fullShare) (g := g₄) (f := V0 m c) (U4_sub c)) $$ [H4 HR]
  · isplitl [H4]; · iexact H4
    iexact HR
  ihave Hb := (pointsTo_join_subset (ℓ := (c : Thread nD τ).loc main_v1) (q := fullShare) (g := g₁) (f := (U4 c).piecewise g₄ (V0 m c)) (U1_sub c)) $$ [H1 Ha]
  · isplitl [H1]; · iexact H1
    iexact Ha
  ihave Hc := (pointsTo_join_subset (ℓ := (c : Thread nD τ).loc main_v1) (q := fullShare) (g := W3 m c) (f := (U1 c).piecewise g₁ ((U4 c).piecewise g₄ (V0 m c)))
      (Finset.subset_univ (S3 c))) $$ [H3 Hb]
  · isplitl [H3]; · iexact H3
    iexact Hb
  iexists (S3 c).piecewise (W3 m c) ((U1 c).piecewise g₁ ((U4 c).piecewise g₄ (V0 m c)))
  isplitr
  · ipureintro
    refine ⟨fun i hi => Finset.piecewise_eq_of_mem _ _ _ hi, fun k i hi => ?_, fun k i hi => ?_⟩
    · have h3 : i ∉ S3 c := fun h => Finset.disjoint_left.mp (o3_disjoint_o1 c k) h hi
      have h1 : i ∈ U1 c := Finset.mem_biUnion.mpr ⟨k, Finset.mem_univ _, hi⟩
      rw [Finset.piecewise_eq_of_notMem _ _ _ h3, Finset.piecewise_eq_of_mem _ _ _ h1]
      exact hg₁ k (Finset.mem_univ _) i hi
    · have h3 : i ∉ S3 c := fun h => Finset.disjoint_left.mp (o3_disjoint_o4 c k) h hi
      have h1 : i ∉ U1 c := fun h => by
        obtain ⟨j, -, hj⟩ := Finset.mem_biUnion.mp h
        exact Finset.disjoint_left.mp (o1_disjoint_o4 c j k) hj hi
      have h4 : i ∈ U4 c := Finset.mem_biUnion.mpr ⟨k, Finset.mem_univ _, hi⟩
      rw [Finset.piecewise_eq_of_notMem _ _ _ h3, Finset.piecewise_eq_of_notMem _ _ _ h1, Finset.piecewise_eq_of_mem _ _ _ h4]
      exact hg₄ k (Finset.mem_univ _) i hi
  · iexact Hc

/-! ## Cells of one kind, none waited for yet; all waited for -/

omit [FloatOps F] in
theorem WG_zero_intro (kf : Fin 32 → CK) (c : Dev nD) :
    iprop((bigSep Finset.univ fun k : Fin 32 => atPos ER (cell c (kf k)) 0 ∅ 0) ∗ (bigSep Finset.univ fun k : Fin 32 => cred (tallyAt (cell c (kf k)) () N)))
      ⊢ (WG (F := F) kf c 0 : sProp 𝕄) := by
  unfold WG
  rw [Sfrom_zero, Tbelow_zero, bigSep_empty, bigSep_sep']
  iintro ⟨H1, H2⟩
  isplitl
  · isplitl [H1]; · iexact H1
    iexact H2
  · iempintro

omit [FloatOps F] in
theorem WG_32_elim (kf : Fin 32 → CK) (c : Dev nD) :
    (WG (F := F) kf c 32 : sProp 𝕄) ⊢ bigSep Finset.univ fun k : Fin 32 => semVal (cell c (kf k)) 0 := by
  unfold WG
  rw [Sfrom_32, Tbelow_32, bigSep_empty]
  iintro ⟨-, H⟩
  iexact H

omit [FloatOps F] in
theorem WS_32_elim (kf : Fin 32 → CK) (c : Dev nD) :
    (WS m kf c 32 : sProp 𝕄) ⊢ iprop((bigSep Finset.univ fun k : Fin 32 => semVal (cell c (kf k)) 0)
      ∗ bigSep Finset.univ fun k : Fin 32 => (sched m).payload (cell c (kf k)) 0 false) := by
  unfold WS
  rw [Tbelow_32]
  iintro ⟨HG, HP⟩
  isplitl [HG]
  · iapply (WG_32_elim (F := F) kf c); iexact HG
  · iexact HP

/-! ## Setting apart, joining -/

omit [FloatOps F] in
theorem prep_in (c : Dev nD) :
    iprop(ghost m K c ∗ launchCreds c ∗ levAts L lv ∗ bufs0 m c ∗ ow c (O₀ c)) ⊢ iprop(Prep m K c ∗ xRest m c ∗ outRest m c) := by
  unfold ghost positions payToks launchCreds bufs0 Prep
  rw [bigSep_CK (fun k => (atPos ER (cell c k) 0 ∅ 0 : sProp 𝕄))]
  iintro ⟨⟨HI, HR, ⟨Hpbar, HpA, HpB, HpC, HpD, HpE⟩, ⟨Htx, Hty, HtE, HtA, HtB, HtC, HtD⟩⟩, ⟨Hcbar, HcB, HcD⟩, Hlev, ⟨Hx, Hv⟩, HO⟩
  ihave Hx' := (x_pieces m c).1 $$ Hx
  icases Hx' with ⟨HxL, HxA, HxR⟩
  ihave Hv' := (out_pieces m c) $$ Hv
  icases Hv' with ⟨Hv3, HvX, HvY, HvR⟩
  ihave HWB := (WG_zero_intro (F := F) CK.B c) $$ [HpB HcB]
  · isplitl [HpB]; · iexact HpB
    iexact HcB
  ihave HWD := (WG_zero_intro (F := F) CK.D c) $$ [HpD HcD]
  · isplitl [HpD]; · iexact HpD
    iexact HcD
  isplitr [HxR HvR]
  · isplitl [HI]; · iexact HI
    isplitl [HR]; · iexact HR
    isplitl [Hlev]; · iexact Hlev
    isplitl [Hpbar Hcbar Htx Hty HvX HvY]
    · isplitl [Hpbar]; · iexact Hpbar
      isplitl [Hcbar]; · iexact Hcbar
      isplitl [Htx]; · iexact Htx
      isplitl [Hty]; · iexact Hty
      isplitl [HvX]; · iexact HvX
      iexact HvY
    isplitl [HxA HtA HtB]
    · isplitl [HxA]; · iexact HxA
      isplitl [HtA]; · iexact HtA
      iexact HtB
    isplitl [HtC HtD]
    · isplitl [HtC]; · iexact HtC
      iexact HtD
    isplitl [HWB HWD HpA HpC]
    · isplitl [HWB]; · iexact HWB
      isplitl [HWD]; · iexact HWD
      isplitl [HpA]; · iexact HpA
      iexact HpC
    isplitl [HpE HtE HxL Hv3]
    · isplitl [HpE]; · iexact HpE
      isplitl [HtE]; · iexact HtE
      isplitl [HxL]; · iexact HxL
      iexact Hv3
    iexact HO
  · isplitl [HxR]; · iexact HxR
    iexact HvR

omit [FloatOps F] in
theorem prep_out (c : Dev nD) : iprop(Done m c ∗ xRest m c ∗ outRest m c) ⊢ iprop(Φ₁ m c ∗ ow c 0) := by
  have eA : (bigSep Finset.univ fun k : Fin 32 => ((sched m).payload (cell c (CK.A k)) 0 false : sProp 𝕄)) = bigSep Finset.univ fun k : Fin 32 => payA m c k :=
    bigSep_congr fun k _ => payload_A m c k false
  have eC : (bigSep Finset.univ fun k : Fin 32 => ((sched m).payload (cell c (CK.C k)) 0 false : sProp 𝕄)) = bigSep Finset.univ fun k : Fin 32 => payC m c k :=
    bigSep_congr fun k _ => payload_C m c k false
  have eD : (bigSep Finset.univ fun k : Fin 32 => ((sched m).payload (cell c (CK.D k)) 0 false : sProp 𝕄)) = bigSep Finset.univ fun k : Fin 32 => payD m c (yn c) k :=
    bigSep_congr fun k _ => payload_D m c k false
  unfold Done Φ₁ ownZeros payE
  iintro ⟨⟨HA, HC, HD, HB, HzE, ⟨Hv3, HxL⟩, HO⟩, HxR, HvR⟩
  ihave HA' := (WS_32_elim m CK.A c) $$ HA
  icases HA' with ⟨HzA, HpA⟩
  ihave HC' := (WS_32_elim m CK.C c) $$ HC
  icases HC' with ⟨HzC, HpC⟩
  ihave HD' := (WS_32_elim m CK.D c) $$ HD
  icases HD' with ⟨HzD, HpD⟩
  ihave HzB := (WG_32_elim (F := F) CK.B c) $$ HB
  ihave HpA' := (Entails.of_eq eA) $$ HpA
  ihave HpC' := (Entails.of_eq eC) $$ HpC
  ihave HpD' := (Entails.of_eq eD) $$ HpD
  ihave Hx := (x_pieces m c).2 $$ [HxL HpA' HxR]
  · isplitl [HxL]; · iexact HxL
    isplitl [HpA']; · iexact HpA'
    iexact HxR
  ihave Hg := (out_join m c) $$ [Hv3 HpC' HpD' HvR]
  · isplitl [Hv3]; · iexact Hv3
    isplitl [HpC']; · iexact HpC'
    isplitl [HpD']; · iexact HpD'
    iexact HvR
  isplitr [HO]
  · isplitl [Hg]; · iexact Hg
    isplitl [Hx]; · iexact Hx
    isplitl [HzA]; · iexact HzA
    isplitl [HzB]; · iexact HzB
    isplitl [HzC]; · iexact HzC
    isplitl [HzD]; · iexact HzD
    iexact HzE
  · iexact HO

end Cert.KernelIdeal.AG

end
-- ==== Proof.AgLaunch.lean ====
/-
  The launch of the all-gather: the cells and duty tokens the launch element funds, every device's semaphores at
  zero turned into its cells' invariants, the tokens dealt to the devices that pay the duties, and with the body
  obligation as a hypothesis the run of @main to a final state whose result arrays hold, piece by piece, what
  the copies deliver.
-/
import proofs.«900087_g7700000000000088_dist_ag_v7x_xy2x2_x_m4096_n1024_f32_1_alg».proof.Proof.AgGhost
import proofs.«900087_g7700000000000088_dist_ag_v7x_xy2x2_x_m4096_n1024_f32_1_alg».proof.Proof.AgCK
import proofs.«900087_g7700000000000088_dist_ag_v7x_xy2x2_x_m4096_n1024_f32_1_alg».proof.Proof.Gen.KernelIdeal.Launch
import proofs.«900087_g7700000000000088_dist_ag_v7x_xy2x2_x_m4096_n1024_f32_1_alg».proof.Proof.Gen.KernelIdeal.Frame
import Idealize.ShloMosaic.Lib.Pipeline.Launch
import Idealize.ShloMosaic.Lib.Pipeline.Kit
import Idealize.ShloMosaic.Lib.Tactic

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores: every transfer semaphore -/

abbrev osem : DmaSem sig → SemLoc sig := fun i => .dma i

theorem dma_scoped : ∀ i : DmaSem sig, (SemLoc.dma i : SemLoc sig).isScoped .tc = true := by decide
theorem reg_unscoped : ∀ s : Sem sig, (SemLoc.reg s : SemLoc sig).isScoped .tc = false := by decide

theorem ownSemFacts : Pipeline.OwnSemFacts cfg0.spec osem :=
  ⟨dma_scoped, fun a b h => SemLoc.dma.inj h, fun k w s => w.elim0⟩

/-! ## The transfer cells are the kernel's own semaphores -/

def dkDma : DK → DmaSem sig
  | .inl k => dsem 0 (by decide) k
  | .inr (.inl k) => dsem 32 (by decide) k
  | .inr (.inr (.inl k)) => dsem 64 (by decide) k
  | .inr (.inr (.inr (.inl k))) => dsem 96 (by decide) k
  | .inr (.inr (.inr (.inr _))) => ⟨128, by decide⟩

theorem semOf_dkCK (d : DK) : semOf (dkCK d) = .dma (dkDma d) := by
  rcases d with _ | _ | _ | _ | _ <;> rfl

theorem dkDma_injective : Function.Injective dkDma := fun a b h =>
  dkCK_injective (semOf_injective (by rw [semOf_dkCK, semOf_dkCK, h]))

def dkE : DK ≃ DmaSem sig :=
  Equiv.ofBijective dkDma ((Fintype.bijective_iff_injective_and_card dkDma).mpr ⟨dkDma_injective, by
    simp only [Fintype.card_sum, Fintype.card_fin, Fintype.card_unit]⟩)

omit [FloatOps F] in
/-- The kernel's own semaphores at zero are its transfer cells at zero. -/
theorem ownSems0_DK (c : Dev nD) :
    (Pipeline.ownSems0 (Ix := Unit) (Name := ℕ) (U := UU) (Lvl := ℕ) (Val := Elt F) (τ := τ) osem c : sProp 𝕄)
      = bigSep Finset.univ fun d : DK => semVal (cell c (dkCK d)) 0 := by
  unfold Pipeline.ownSems0
  rw [bigSep_univ_equiv dkE]
  exact bigSep_congr fun d _ => by
    show (semVal (((c : Thread nD τ)), SemLoc.dma (dkDma d)) 0 : sProp 𝕄) = semVal (((c : Thread nD τ)), semOf (dkCK d)) 0
    rw [semOf_dkCK]

omit [FloatOps F] in
/-- The barrier semaphore is the launch's one unscoped semaphore. -/
theorem unscopedSems0_eq (c : Dev nD) : (unscopedSems0 c : sProp 𝕄) = semVal (cell c .bar) 0 := by
  have h : (Finset.univ.filter fun sm : SemLoc sig => ¬ sm.isScoped .tc) = {SemLoc.reg barS} := by
    ext sm
    rw [Finset.mem_filter, Finset.mem_singleton]
    cases sm with
    | reg s =>
      have hs : s = barS := Fin.ext (by have h1 := s.isLt; have h2 := (barS : Sem sig).isLt; have h3 : sig.nSem = 1 := rfl; omega)
      subst hs
      simp [reg_unscoped]
    | dma i => simp [dma_scoped i]
  unfold unscopedSems0
  rw [h, bigSep_singleton]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [ownSems0_DK, unscopedSems0_eq, bigSep_CK_DK]
  iintro ⟨H1, H2⟩
  isplitl [H2]; · iexact H2
  iexact H1

/-! ## The cells and the duty tokens the launch element funds -/

def agCells : Finset (GSem nD τ sig) := Finset.univ.map ⟨fun ck : Dev nD × CK => cell ck.1 ck.2, cell_injective⟩

/-- A device's own cells' duty tokens as minted: every cell's `false`, and its barrier's `true`. -/
abbrev tokOf (cj : Dev nD × (CK ⊕ Unit)) : GSem nD τ sig × ℕ × Bool := match cj.2 with
  | .inl k => (cell cj.1 k, 0, false)
  | .inr _ => (cell cj.1 .bar, 0, true)

theorem tokOf_injective : Function.Injective (tokOf : Dev nD × (CK ⊕ Unit) → GSem nD τ sig × ℕ × Bool) := by
  rintro ⟨c, x⟩ ⟨c', x'⟩ h
  have h1 : c = c' := by
    have := congrArg (fun y : GSem nD τ sig × ℕ × Bool => y.1.1.1) h
    rcases x with k | u <;> rcases x' with k' | u' <;> exact this
  subst h1
  rcases x with k | u <;> rcases x' with k' | u'
  · have hk : k = k' := semOf_injective (congrArg (fun y : GSem nD τ sig × ℕ × Bool => y.1.2) h)
    subst hk; rfl
  · exact absurd (congrArg (fun y : GSem nD τ sig × ℕ × Bool => y.2.2) h) (by intro h'; cases h')
  · exact absurd (congrArg (fun y : GSem nD τ sig × ℕ × Bool => y.2.2) h) (by intro h'; cases h')
  · rfl

def agToks : Finset (GSem nD τ sig × ℕ × Bool) := Finset.univ.map ⟨tokOf, tokOf_injective⟩

def u₀ : UU :=
  (initOf (Pipeline.cells cfgs cellOf_inj) (Pipeline.launchToks cfgs cellOf_inj), initOf agCells agToks)

/-- The duty tokens of device `c`'s own cells. -/
def toks (c : Dev nD) : sProp 𝕄 :=
  iprop((bigSep Finset.univ fun k : CK => dutyTok ER (cell c k) 0 false) ∗ dutyTok ER (cell c .bar) 0 true)

/-- What the launch element deals device `c`. -/
def G (c : Dev nD) : sProp 𝕄 :=
  iprop((bigSep Finset.univ fun k : CK => roundState ER (sched m) (cell c k) 0)
    ∗ (bigSep Finset.univ fun k : CK => iprop(atPos ER (cell c k) 0 ∅ 0 ∗ reached ER (cell c k) 0)) ∗ toks c)

/-- What the global step makes of it. -/
def G' (c : Dev nD) : sProp 𝕄 := iprop(∃ K, ghost m K c)

omit [FloatOps F] in
theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun k : CK => Φ (cell c k) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_univ_sum, bigSep_univ_of_subsingleton ()]; rfl
  iintro HX
  imod (Rounds.fund ER (sched m) agCells agToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (cell c k)))
          ∗ (bigSep Finset.univ fun k : CK => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (cell c k) 0) ∗ bigSep Finset.univ fun k : CK => roundState ER (sched m) (cell c k) 0)
      ⊢ (|={Set.univ}=> bigSep Finset.univ fun k : CK => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay the duties -/

omit [FloatOps F] in
/-- A barrier's `false` token goes to the first-axis neighbour of its owner, its `true` token to the second-axis
    neighbour; the token of a direct chunk's arrival to the first-axis neighbour, of a relayed chunk's arrival to the
    second-axis neighbour; the tokens of the sends, the relays and the local copy stay. -/
theorem toks_around : (bigSep Finset.univ fun c : Dev nD => (toks c : sProp 𝕄)) ⊢ bigSep Finset.univ fun c : Dev nD => payToks c := by
  have h1 : (bigSep Finset.univ fun c : Dev nD => (toks c : sProp 𝕄))
      = bigSep Finset.univ fun c : Dev nD => iprop((dutyTok ER (cell c .bar) 0 false
          ∗ (bigSep Finset.univ fun k : Fin 32 => dutyTok ER (cell c (.A k)) 0 false)
          ∗ (bigSep Finset.univ fun k : Fin 32 => dutyTok ER (cell c (.B k)) 0 false)
          ∗ (bigSep Finset.univ fun k : Fin 32 => dutyTok ER (cell c (.C k)) 0 false)
          ∗ (bigSep Finset.univ fun k : Fin 32 => dutyTok ER (cell c (.D k)) 0 false)
          ∗ dutyTok ER (cell c .E) 0 false) ∗ dutyTok ER (cell c .bar) 0 true) :=
    bigSep_congr fun c _ => by unfold toks; rw [bigSep_CK]
  rw [h1]
  unfold payToks
  simp only [bigSep_sep']
  rw [bigSep_univ_equiv xnE (fun c : Dev nD => (dutyTok ER (cell c .bar) 0 false : sProp 𝕄)),
    bigSep_univ_equiv ynE (fun c : Dev nD => (dutyTok ER (cell c .bar) 0 true : sProp 𝕄)),
    bigSep_univ_equiv xnE (fun c : Dev nD => (bigSep Finset.univ fun k : Fin 32 => dutyTok ER (cell c (.B k)) 0 false : sProp 𝕄)),
    bigSep_univ_equiv ynE (fun c : Dev nD => (bigSep Finset.univ fun k : Fin 32 => dutyTok ER (cell c (.D k)) 0 false : sProp 𝕄))]
  iintro ⟨⟨H1, HA, HB, HC, HD, HE⟩, HT⟩
  isplitl [H1]; · iexact H1
  isplitl [HT]; · iexact HT
  isplitl [HE]; · iexact HE
  isplitl [HA]; · iexact HA
  isplitl [HB]; · iexact HB
  isplitl [HC]; · iexact HC
  iexact HD

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells' invariants and that every cell is at its round 0: shared by all devices. -/
def records (K : Dev nD × CK → ℕ) : sProp 𝕄 := iprop(recI m K ∗ recR)

instance records_persistent (K : Dev nD × CK → ℕ) : BI.Persistent (records m K) := by unfold records; infer_instance

omit [FloatOps F] in
theorem ghost_intro (K : Dev nD × CK → ℕ) (c : Dev nD) : iprop(records m K ∗ (positions c ∗ payToks c)) ⊢ G' m c := by
  unfold records G' ghost
  iintro ⟨⟨HI, HR⟩, Hp, Ht⟩
  iexists K
  isplitl [HI]; · iexact HI
  isplitl [HR]; · iexact HR
  isplitl [Hp]; · iexact Hp
  iexact Ht

omit [FloatOps F] in
theorem regroup :
    (bigSep Finset.univ fun c : Dev nD => iprop((bigSep Finset.univ fun k : CK => iprop(∃ κ : ℕ, cellInv ER (sched m) κ (cell c k)))
          ∗ (bigSep Finset.univ fun k : CK => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : Dev nD × CK => iprop(∃ κ : ℕ, cellInv ER (sched m) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (sched m) κ (cell ck.1 ck.2) : sProp 𝕄))) $$ HI
  icases HK with ⟨%K, #HI⟩
  ihave Htk := (toks_around (F := F)) $$ Htok
  iapply (bigSep_with_persistent (R := records m K) fun c _ => ghost_intro m K c)
  isplitr
  · unfold records recI recR; isplitl; · iexact HI
    iexact HR
  · iapply (Entails.of_eq (bigSep_sep' Finset.univ (fun c : Dev nD => (positions c : sProp 𝕄)) payToks).symm)
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds (F := F) c) $$ Hcr
  imodintro
  unfold start launchCreds bufs0 G'
  isplitl
  · isplitl [HG]; · iexact HG
    isplitl [Hc]; · iexact Hc
    isplitl [Hlev]; · iexact Hlev
    isplitl [Ha]; · iexact Ha
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

/-- What a device ends with: its result array at contents that are, piece by piece, what the copies deliver, and its
    block as it was. -/
def Yc (c : Dev nD) : sProp 𝕄 :=
  iprop((∃ g, ⌜OutSpec m c g⌝ ∗ (((c : Thread nD τ).loc main_v1) ↦{fullShare} g)) ∗ (((c : Thread nD τ).loc main_arg0) ↦{fullShare} X m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_DK, bigSep_DK]
  unfold Φ₁ Yc ownZeros
  iintro ⟨Hg, Ha, HA, HB, HC, HD, HE⟩
  isplitl [Hg Ha]
  · isplitl [Hg]; · iexact Hg
    iexact Ha
  isplitl [HA HB HC HD HE]
  · isplitl [HA]; · iexact HA
    isplitl [HB]; · iexact HB
    isplitl [HC]; · iexact HC
    isplitl [HD]; · iexact HD
    iexact HE
  · iempintro

theorem waits (c : Dev nD) : (levAts L lv : sProp 𝕄) ⊢ Pipeline.cellsWaits cfgs (dats m) () 0 c :=
  Pipeline.cellsWaits_intro cfgs (dats m) () 0 c fun w s t => w.elim0

/-! ## The run -/

set_option maxRecDepth 65536 in
/-- At the compiled mesh, from any memory with zero counters, given the body obligation: every weakly fair execution of
    @main terminates, and in every final state each device's result array holds piece by piece what the copies deliver
    and its block is unchanged. -/
theorem run_main (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      (∃ g, OutSpec m c g ∧ r.2.mem ((c.tc : Thread nD τ).loc main_v1) = g)
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => (∃ g, OutSpec m c g ∧ s.mem ((c.tc : Thread nD τ).loc main_v1) = g)
      ∧ s.mem ((c.tc : Thread nD τ).loc main_arg0) = m ((c.tc : Thread nD τ).loc main_arg0))
    (hY := fun c s' => by
      unfold Yc
      iintro ⟨⟨⟨%g, %hg, Hv⟩, Ha⟩, -, HSI⟩
      icombine HSI Hv gives %hv
      icombine HSI Ha gives %ha
      imodintro
      isplitr
      · ipureintro; exact ⟨⟨g, hg, Buf.eq_of_forall_mem_univ hv⟩, Buf.eq_of_forall_mem_univ ha⟩
      iexact HSI)
    (hQ := fun _ h c => (h c).2.2)

/-- info: 'Cert.KernelIdeal.AG.run_main' depends on axioms: [propext, Classical.choice, Quot.sound] -/
#guard_msgs in #print axioms run_main

end Cert.KernelIdeal.AG

end
-- ==== Proof.AgRun.lean ====
/-
  The device's run from what the launch deals it to what it hands back — the pieces of its arrays set apart, the body,
  the pieces joined — and with it the run of the whole mesh.
-/
import proofs.«900087_g7700000000000088_dist_ag_v7x_xy2x2_x_m4096_n1024_f32_1_alg».proof.Proof.AgBody
import proofs.«900087_g7700000000000088_dist_ag_v7x_xy2x2_x_m4096_n1024_f32_1_alg».proof.Proof.AgPrep
import proofs.«900087_g7700000000000088_dist_ag_v7x_xy2x2_x_m4096_n1024_f32_1_alg».proof.Proof.AgLaunch

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body obligation -/

omit [FloatOps F] in
theorem ow_intro (c : Dev nD) (O : CellTallies nD τ sig Unit) (W : Waits sig Unit) : owes (c : Thread nD τ) O W ⊢ (ow c O : sProp 𝕄) := by
  unfold ow; iintro H; iexists W; iexact H
omit [FloatOps F] in
theorem ow_elim (c : Dev nD) (O : CellTallies nD τ sig Unit) : (ow c O : sProp 𝕄) ⊢ iprop(∃ W : Waits sig Unit, owes (c : Thread nD τ) O W) := by
  unfold ow; exact BI.Entails.refl _

variable {m K}

/-- From what the launch deals the device to what it hands back: the arrays' pieces set apart, the run, the pieces joined. -/
theorem body_obligation (m : (ℓ : Loc nD τ sig) → Buf (Elt F) ℓ) (c : Dev nD) :
    BodyObligation (dats (F := F) m 0 c) (defs₀ (F := F)) 𝒱₀ () Set.univ := fun t => by
  rw [Gen.fin_N0 t]
  simp only [Finset.univ_eq_empty, bigSep_empty]
  show iprop(Φ₀ m c ∗ (dats m 0 c).owesAt () Gen.t0_0.castSucc ∗ emp)
    ⊢ wp frame (wpE (defs₀ (F := F)) 𝒱₀ (c : Thread nD τ) none) Set.univ
        (cc0_body (Memref.whole main_arg0) (Memref.isWhole_whole _) (Memref.whole main_v1) (Memref.isWhole_whole _)
          cc0_scratch0 cc0_scratch1 cc0_scratch2 cc0_scratch3 cc0_scratch4)
        (fun _ => iprop(Φ₁ m c ∗ (dats m 0 c).owesAt () Gen.t0_0.succ ∗ emp))
  unfold Φ₀ start Dat.owesAt Pipeline.owesWithin
  rw [show (dats m 0 c).owed Gen.t0_0.castSucc = O₀ c from rfl, show (dats m 0 c).owed Gen.t0_0.succ = 0 from rfl]
  iintro ⟨⟨⟨%K, Hg⟩, Hcr, #Hlev, Hb⟩, ⟨%W, -, HO⟩, -⟩
  ihave Hprep := (prep_in m K c) $$ [Hg Hcr Hb HO]
  · isplitl [Hg]; · iexact Hg
    isplitl [Hcr]; · iexact Hcr
    isplitr; · iexact Hlev
    isplitl [Hb]; · iexact Hb
    iapply (ow_intro c (O₀ c) W); iexact HO
  icases Hprep with ⟨HP, HxR, HoR⟩
  iapply (body_steps m K c _)
  isplitl [HP]; · iexact HP
  iintro HD
  ihave Hout := (prep_out m c) $$ [HD HxR HoR]
  · isplitl [HD]; · iexact HD
    isplitl [HxR]; · iexact HxR
    iexact HoR
  icases Hout with ⟨HΦ, HO⟩
  ihave HO' := (ow_elim c 0) $$ HO
  icases HO' with ⟨%W', HO⟩
  isplitl [HΦ]; · iexact HΦ
  isplitl [HO]
  · iexists W'
    isplitr; · ipureintro; exact fun _ _ => Or.inl trivial
    iexact HO
  iempintro

/-- At the compiled mesh of four devices, from any memory with zero counters: every weakly fair execution terminates,
    each device's result array ends filled piece by piece as `OutSpec` says, and its block of the array is unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      (∃ g, OutSpec m c g ∧ r.2.mem ((c.tc : Thread nD τ).loc main_v1) = g)
        ∧ r.2.mem ((c.tc : Thread nD τ).loc main_arg0) = m ((c.tc : Thread nD τ).loc main_arg0)) :=
  run_main m ρ (body_obligation m)

/-- info: 'Cert.KernelIdeal.AG.run' depends on axioms: [propext, Classical.choice, Quot.sound] -/
#guard_msgs in #print axioms run

end Cert.KernelIdeal.AG

end
-- ==== Proof.BgDefs.lean ====
/-
  An all-gather on a 2 × 2 mesh, device (a, b) at logical id 2a + b.  Each device holds the row block a of the
  array (4096 rows of 1024) and ends with all 8192 rows: its own block by a local copy; of the other block, the
  half b (2048 rows, in 32 chunks of 64 rows) straight from its neighbour along the first axis, and the other
  half relayed by its neighbour along the second axis, who received it from the device diagonally opposite.
  This module names the neighbours, the pieces of the arrays the copies read and write, and what each holds.
-/
import proofs.«900087_g7700000000000088_dist_ag_v7x_xy2x2_x_m4096_n1024_f32_1_alg».proof.Proof.Gen.Kernel
import proofs.«900087_g7700000000000088_dist_ag_v7x_xy2x2_x_m4096_n1024_f32_1_alg».proof.Proof.Gen.Kernel.Launch
import Idealize.ShloMosaic.Lib.Pipeline.Launch
import Idealize.ShloMosaic.Lib.Pipeline.Kit
import Idealize.ShloMosaic.Lib.Tactic

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The two neighbours -/

/-- The neighbour along the first mesh axis: the other row block, the same half. -/
def xn (c : Dev nD) : Dev nD := ⟨((c.val % 2) + 2) - 2 * (c.val / 2), Gen.k0_dev1_eq c ▸ Gen.k0_dev1_lt c⟩
/-- The neighbour along the second mesh axis: the same row block, the other half. -/
def yn (c : Dev nD) : Dev nD := ⟨(2 * (c.val / 2) + 1) - (c.val % 2), Gen.k0_dev2_eq c ▸ Gen.k0_dev2_lt c⟩

theorem xn_xn (c : Dev nD) : xn (xn c) = c := by revert c; decide
theorem yn_yn (c : Dev nD) : yn (yn c) = c := by revert c; decide
theorem xn_yn (c : Dev nD) : xn (yn c) = yn (xn c) := by revert c; decide
theorem xn_ne (c : Dev nD) : xn c ≠ c := by revert c; decide
theorem yn_ne (c : Dev nD) : yn c ≠ c := by revert c; decide
theorem xn_ne_yn (c : Dev nD) : xn c ≠ yn c := by revert c; decide

def xnE : Dev nD ≃ Dev nD := ⟨xn, xn, xn_xn, xn_xn⟩
def ynE : Dev nD ≃ Dev nD := ⟨yn, yn, yn_yn, yn_yn⟩

/-! ## The arrays and their pieces -/

abbrev xM : Memref sig .tc .hbm S4096x1024 .f32 := Memref.whole main_arg0
abbrev oM : Memref sig .tc .hbm S8192x1024 .f32 := Memref.whole main_v1

/-- Chunk `k` of the half of its block that device `c` sends along the first axis. -/
abbrev xSl (c : Dev nD) (k : Fin 32) : Memref sig .tc .hbm S64x1024 .f32 :=
  xM.slice (Rect.unit (s := S4096x1024) (k0_off2 c (BitVec.ofNat 32 (64 * k.val))) S64x1024.size (Gen.k0_off2_inb c k)) (fun _ => rfl)
/-- Where that chunk lands in the result array (of the neighbour along the first axis). -/
abbrev o1 (c : Dev nD) (k : Fin 32) : Memref sig .tc .hbm S64x1024 .f32 :=
  oM.slice (Rect.unit (s := S8192x1024) (k0_off1 c (BitVec.ofNat 32 (64 * k.val))) S64x1024.size (Gen.k0_off1_inb c k)) (fun _ => rfl)
/-- The chunk `k` device `c` relays along the second axis: the same rows of both result arrays. -/
abbrev o4 (c : Dev nD) (k : Fin 32) : Memref sig .tc .hbm S64x1024 .f32 :=
  oM.slice (Rect.unit (s := S8192x1024) (k0_off4 c (BitVec.ofNat 32 (64 * k.val))) S64x1024.size (Gen.k0_off4_inb c k)) (fun _ => rfl)
/-- The rows of the result array that hold the device's own block. -/
abbrev o3 (c : Dev nD) : Memref sig .tc .hbm S4096x1024 .f32 :=
  oM.slice (Rect.unit (s := S8192x1024) (k0_off3 c) S4096x1024.size (Gen.k0_off3_inb c)) (fun _ => rfl)

variable (m : (ℓ : Loc nD τ sig) → Buf (Elt F) ℓ)

/-- Device `c`'s block of the array, and its result array as the kernel finds it. -/
abbrev X (c : Dev nD) : Buf (Elt F) ((c : Thread nD τ).loc main_arg0) := m ((c : Thread nD τ).loc main_arg0)
abbrev V0 (c : Dev nD) : Buf (Elt F) ((c : Thread nD τ).loc main_v1) := m ((c : Thread nD τ).loc main_v1)

/-- The result array once the device's own block has been copied into its rows. -/
def W3 (c : Dev nD) : Buf (Elt F) ((c : Thread nD τ).loc main_v1) :=
  (o3 c).view.write (Elt F) (V0 m c) ((xM : Memref sig .tc .hbm S4096x1024 .f32).view.read (Elt F) (X m c)) Finset.univ
/-- Device `c`'s result array once chunk `k` has arrived from its neighbour along the first axis. -/
def W1 (c : Dev nD) (k : Fin 32) : Buf (Elt F) ((c : Thread nD τ).loc main_v1) :=
  (o1 (xn c) k).view.write (Elt F) (V0 m c) ((xSl (xn c) k).view.read (Elt F) (X m (xn c))) Finset.univ
/-- Device `c`'s result array once chunk `k` has been relayed to it by its neighbour along the second axis. -/
def W4 (c : Dev nD) (k : Fin 32) : Buf (Elt F) ((c : Thread nD τ).loc main_v1) :=
  (o4 (yn c) k).view.write (Elt F) (V0 m c) ((o4 (yn c) k).view.read (Elt F) (W1 m (yn c) k)) Finset.univ

/-- What a result array is required to hold at the end, piece by piece. -/
structure OutSpec (c : Dev nD) (g : Buf (Elt F) ((c : Thread nD τ).loc main_v1)) : Prop where
  own : ∀ i ∈ (o3 c).view.set, g i = W3 m c i
  direct : ∀ k : Fin 32, ∀ i ∈ (o1 (xn c) k).view.set, g i = W1 m c k i
  relayed : ∀ k : Fin 32, ∀ i ∈ (o4 (yn c) k).view.set, g i = W4 m c k i

end Cert.Kernel.AG

end
-- ==== Proof.BgProto.lean ====
/-
  The protocol of the all-gather, cell by cell.  Per device: the barrier semaphore (signalled once by each
  neighbour, waited for both), and per chunk k four transfer semaphores — A k: the direct transfer of chunk k has
  left; B k: the neighbour's direct chunk k has arrived; C k: the relay of chunk k has left; D k: the neighbour's
  relayed chunk k has arrived — and E: the local copy of the own block is done.  Every cell has one round.
  A neighbour's barrier signal hands over the rows of its result array that this device's transfers will fill.
-/
import proofs.«900087_g7700000000000088_dist_ag_v7x_xy2x2_x_m4096_n1024_f32_1_alg».proof.Proof.BgDefs
import Mathlib.Tactic.DeriveFintype

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

inductive CK : Type
  | bar | A (k : Fin 32) | B (k : Fin 32) | C (k : Fin 32) | D (k : Fin 32) | E
  deriving DecidableEq, Fintype

abbrev barS : Sem sig := (SemArray.scalar (sig.barrier 0 rfl) : Sems sig S_).sem

def dsem (base : ℕ) (h : base + 32 ≤ sig.nDmaSem) (k : Fin 32) : DmaSem sig :=
  ⟨base + k.val, Nat.lt_of_lt_of_le (Nat.add_lt_add_left k.isLt base) h⟩

def semOf : CK → SemLoc sig
  | .bar => .reg barS
  | .A k => .dma (dsem 0 (by decide) k)
  | .B k => .dma (dsem 32 (by decide) k)
  | .C k => .dma (dsem 64 (by decide) k)
  | .D k => .dma (dsem 96 (by decide) k)
  | .E => .dma ⟨128, by decide⟩

def kindOf : SemLoc sig → CK
  | .reg _ => .bar
  | .dma s =>
    if h : s.val < 32 then .A ⟨s.val, h⟩
    else if h2 : s.val < 64 then .B ⟨s.val - 32, by omega⟩
    else if h3 : s.val < 96 then .C ⟨s.val - 64, by omega⟩
    else if h4 : s.val < 128 then .D ⟨s.val - 96, by omega⟩
    else .E

theorem kindOf_semOf (k : CK) : kindOf (semOf k) = k := by
  cases k with
  | bar => rfl
  | E => rfl
  | A k => unfold kindOf semOf dsem; dsimp only; split_ifs <;> first | omega | (congr 1; apply Fin.ext; dsimp only; omega)
  | B k => unfold kindOf semOf dsem; dsimp only; split_ifs <;> first | omega | (congr 1; apply Fin.ext; dsimp only; omega)
  | C k => unfold kindOf semOf dsem; dsimp only; split_ifs <;> first | omega | (congr 1; apply Fin.ext; dsimp only; omega)
  | D k => unfold kindOf semOf dsem; dsimp only; split_ifs <;> first | omega | (congr 1; apply Fin.ext; dsimp only; omega)

theorem semOf_injective : Function.Injective semOf := fun a b h => by
  have := congrArg kindOf h; rwa [kindOf_semOf, kindOf_semOf] at this

abbrev cell (c : Dev nD) (k : CK) : GSem nD τ sig := ((c : Thread nD τ), semOf k)

theorem cell_injective : Function.Injective (fun ck : Dev nD × CK => cell ck.1 ck.2) := by
  rintro ⟨c, k⟩ ⟨c', k'⟩ h
  have h1 : c = c' := congrArg (fun g : GSem nD τ sig => g.1.1) h
  have h2 : k = k' := semOf_injective (congrArg Prod.snd h)
  subst h1; subst h2; rfl

/-- The units one chunk's transfer, and the local copy, credit. -/
abbrev N : ℕ := (o1 (0 : Dev nD) 0).view.dmaCredit
abbrev NE : ℕ := (o3 (0 : Dev nD)).view.dmaCredit
theorem N_pos : 0 < N := View.dmaCredit_pos _ (by decide)
theorem NE_pos : 0 < NE := View.dmaCredit_pos _ (by decide)

variable (m : (ℓ : Loc nD τ sig) → Buf (Elt F) ℓ)

/-! ## What arrives, as the transfer writes it (receiver `c`, sender `s`) -/

def W1' (c s : Dev nD) (k : Fin 32) : Buf (Elt F) ((c : Thread nD τ).loc main_v1) :=
  (o1 s k).view.write (Elt F) (V0 m c) ((xSl s k).view.read (Elt F) (X m s)) Finset.univ
def W4' (c s : Dev nD) (k : Fin 32) : Buf (Elt F) ((c : Thread nD τ).loc main_v1) :=
  (o4 s k).view.write (Elt F) (V0 m c) ((o4 s k).view.read (Elt F) (W1' m s (xn s) k)) Finset.univ

theorem W1_eq (c : Dev nD) (k : Fin 32) : W1 m c k = W1' m c (xn c) k := rfl
theorem W4_eq (c : Dev nD) (k : Fin 32) : W4 m c k = W4' m c (yn c) k := rfl

/-! ## The payloads -/

/-- A k: the chunk's rows of the own block, the share lent to the direct transfer, back. -/
def payA (c : Dev nD) (k : Fin 32) : sProp 𝕄 :=
  (xSl c k).view.loc (c : Thread nD τ) ↦[(xSl c k).view.set]{fullShare.right} X m c
/-- B k: the chunk's rows of the result array, filled by sender `s`. -/
def payB (c s : Dev nD) (k : Fin 32) : sProp 𝕄 :=
  (o1 s k).view.loc (c : Thread nD τ) ↦[(o1 s k).view.set]{fullShare} W1' m c s k
/-- C k: the relayed rows of the own result array, back. -/
def payC (c : Dev nD) (k : Fin 32) : sProp 𝕄 :=
  (o4 c k).view.loc (c : Thread nD τ) ↦[(o4 c k).view.set]{fullShare} W1 m c k
/-- D k: the chunk's rows of the result array, filled by the relaying sender `s`. -/
def payD (c s : Dev nD) (k : Fin 32) : sProp 𝕄 :=
  (o4 s k).view.loc (c : Thread nD τ) ↦[(o4 s k).view.set]{fullShare} W4' m c s k
/-- E: the own block's rows of the result array, filled, and the share of the block lent to the copy. -/
def payE (c : Dev nD) : sProp 𝕄 :=
  iprop(((o3 c).view.loc (c : Thread nD τ) ↦[(o3 c).view.set]{fullShare} W3 m c)
    ∗ ((xM : Memref sig .tc .hbm S4096x1024 .f32).view.loc (c : Thread nD τ) ↦[(xM : Memref sig .tc .hbm S4096x1024 .f32).view.set]{fullShare.left} X m c))
/-- The barrier signal of the neighbour `s` along the first axis: the rows of ITS result array that `c`'s direct transfers fill. -/
def barPayX (c s : Dev nD) : sProp 𝕄 :=
  bigSep Finset.univ fun k : Fin 32 => (o1 c k).view.loc (s : Thread nD τ) ↦[(o1 c k).view.set]{fullShare} V0 m s
/-- The barrier signal of the neighbour along the second axis: the rows of its result array that `c`'s relays fill. -/
def barPayY (c s : Dev nD) : sProp 𝕄 :=
  bigSep Finset.univ fun k : Fin 32 => (o4 c k).view.loc (s : Thread nD τ) ↦[(o4 c k).view.set]{fullShare} V0 m s

/-- One round, round 0.  The barrier's duty `false` is the first-axis neighbour's signal, `true` the second-axis neighbour's. -/
def sched : Rounds.Schedule (GSem nD τ sig) Bool 𝕄 where
  duties g r := if r = 0 ∧ g.1.2 = .tc then (match kindOf g.2 with | .bar => Finset.univ | _ => {false}) else ∅
  unitless _ := False
  amount g _ _ := match kindOf g.2 with | .bar => 1 | .E => NE | _ => N
  payload g _ d := match kindOf g.2 with
    | .bar => if d then barPayY m g.1.1 (yn g.1.1) else barPayX m g.1.1 (xn g.1.1)
    | .A k => payA m g.1.1 k
    | .B k => payB m g.1.1 (xn g.1.1) k
    | .C k => payC m g.1.1 k
    | .D k => payD m g.1.1 (yn g.1.1) k
    | .E => payE m g.1.1
  amount_pos g _ _ _ := by
    split <;> first | exact Nat.one_pos | exact NE_pos | exact N_pos

instance sched_payload_storable (g : GSem nD τ sig) (r : ℕ) (d : Bool) :
    BI.Storable (upEmb : UEmb _ 𝕄) ((sched (F := F) m).payload g r d) := by
  show BI.Storable upEmb (match kindOf g.2 with
    | .bar => if d then barPayY m g.1.1 (yn g.1.1) else barPayX m g.1.1 (xn g.1.1)
    | .A k => payA m g.1.1 k
    | .B k => payB m g.1.1 (xn g.1.1) k
    | .C k => payC m g.1.1 k
    | .D k => payD m g.1.1 (yn g.1.1) k
    | .E => payE m g.1.1)
  generalize kindOf g.2 = kk
  cases kk with
  | bar =>
    cases d
    · show BI.Storable upEmb (barPayX m g.1.1 (xn g.1.1)); unfold barPayX; infer_instance
    · show BI.Storable upEmb (barPayY m g.1.1 (yn g.1.1)); unfold barPayY; infer_instance
  | A k => show BI.Storable upEmb (payA m g.1.1 k); unfold payA; infer_instance
  | B k => show BI.Storable upEmb (payB m g.1.1 (xn g.1.1) k); unfold payB; infer_instance
  | C k => show BI.Storable upEmb (payC m g.1.1 k); unfold payC; infer_instance
  | D k => show BI.Storable upEmb (payD m g.1.1 (yn g.1.1) k); unfold payD; infer_instance
  | E => show BI.Storable upEmb (payE m g.1.1); unfold payE; infer_instance

section Sched
variable (c : Dev nD)

omit [FloatOps F] in
theorem duties_bar : (sched (F := F) m).duties (cell c .bar) 0 = Finset.univ := by
  dsimp only [sched]; rw [if_pos ⟨rfl, rfl⟩, kindOf_semOf]
omit [FloatOps F] in
theorem duties_dma (k : CK) (hk : k ≠ .bar) : (sched (F := F) m).duties (cell c k) 0 = {false} := by
  dsimp only [sched]; rw [if_pos ⟨rfl, rfl⟩, kindOf_semOf]; cases k <;> first | rfl | exact absurd rfl hk
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Bool) : (sched (F := F) m).amount (cell c .bar) 0 d = 1 := by dsimp only [sched]; rw [kindOf_semOf]
omit [FloatOps F] in
theorem amount_E (d : Bool) : (sched (F := F) m).amount (cell c .E) 0 d = NE := by dsimp only [sched]; rw [kindOf_semOf]
omit [FloatOps F] in
theorem amount_chunk (k : CK) (hb : k ≠ .bar) (he : k ≠ .E) (d : Bool) : (sched (F := F) m).amount (cell c k) 0 d = N := by
  dsimp only [sched]; rw [kindOf_semOf]; cases k <;> first | rfl | exact absurd rfl hb | exact absurd rfl he

omit [FloatOps F] in
theorem expect_bar : (sched (F := F) m).expect (cell c .bar) 0 = 2 := by
  show (∑ d ∈ (sched (F := F) m).duties (cell c .bar) 0, (sched (F := F) m).amount (cell c .bar) 0 d) = 2
  rw [duties_bar, Finset.sum_congr rfl fun d _ => amount_bar m c d, Finset.sum_const, Finset.card_univ, Fintype.card_bool, smul_eq_mul]
omit [FloatOps F] in
theorem expect_dma (k : CK) (hb : k ≠ .bar) : (sched (F := F) m).expect (cell c k) 0 = (sched (F := F) m).amount (cell c k) 0 false := by
  show (∑ d ∈ (sched (F := F) m).duties (cell c k) 0, (sched (F := F) m).amount (cell c k) 0 d) = _
  rw [duties_dma m c k hb, Finset.sum_singleton]
omit [FloatOps F] in
theorem expect_chunk (k : CK) (hb : k ≠ .bar) (he : k ≠ .E) : (sched (F := F) m).expect (cell c k) 0 = N :=
  (expect_dma m c k hb).trans (amount_chunk m c k hb he false)
omit [FloatOps F] in
theorem expect_E : (sched (F := F) m).expect (cell c .E) 0 = NE :=
  (expect_dma m c .E (fun h => CK.noConfusion h)).trans (amount_E m c false)
omit [FloatOps F] in
theorem payload_bar_true : (sched (F := F) m).payload (cell c .bar) 0 true = barPayY m c (yn c) := by
  dsimp only [sched]; rw [kindOf_semOf]; rfl
omit [FloatOps F] in
theorem payload_bar_false : (sched (F := F) m).payload (cell c .bar) 0 false = barPayX m c (xn c) := by
  dsimp only [sched]; rw [kindOf_semOf]; rfl
omit [FloatOps F] in
theorem payload_A (k : Fin 32) (d : Bool) : (sched (F := F) m).payload (cell c (.A k)) 0 d = payA m c k := by
  dsimp only [sched]; rw [kindOf_semOf]
omit [FloatOps F] in
theorem payload_B (k : Fin 32) (d : Bool) : (sched (F := F) m).payload (cell c (.B k)) 0 d = payB m c (xn c) k := by
  dsimp only [sched]; rw [kindOf_semOf]
omit [FloatOps F] in
theorem payload_C (k : Fin 32) (d : Bool) : (sched (F := F) m).payload (cell c (.C k)) 0 d = payC m c k := by
  dsimp only [sched]; rw [kindOf_semOf]
omit [FloatOps F] in
theorem payload_D (k : Fin 32) (d : Bool) : (sched (F := F) m).payload (cell c (.D k)) 0 d = payD m c (yn c) k := by
  dsimp only [sched]; rw [kindOf_semOf]
omit [FloatOps F] in
theorem payload_E (d : Bool) : (sched (F := F) m).payload (cell c .E) 0 d = payE m c := by
  dsimp only [sched]; rw [kindOf_semOf]

omit [FloatOps F] in
/-- The rest of a one-duty round, nothing taken: its payload. -/
theorem rest_dma (k : CK) (hk : k ≠ .bar) :
    bigSep ((sched (F := F) m).duties (cell c k) 0 \ ∅) (fun d => (sched (F := F) m).payload (cell c k) 0 d)
      = (sched (F := F) m).payload (cell c k) 0 false := by
  rw [Finset.sdiff_empty, duties_dma m c k hk, bigSep_singleton]
omit [FloatOps F] in
theorem rest_bar : bigSep ((sched (F := F) m).duties (cell c .bar) 0 \ ∅) (fun d => (sched (F := F) m).payload (cell c .bar) 0 d)
    = iprop(barPayX m c (xn c) ∗ barPayY m c (yn c)) := by
  rw [Finset.sdiff_empty, duties_bar, bigSep_univ_eq_bigSepL [false, true] (by decide) (by decide), bigSepL_cons_cons, bigSepL_singleton,
    payload_bar_false, payload_bar_true]
  rfl

end Sched

end Cert.Kernel.AG

end
-- ==== Proof.BgOwe.lean ====
/-
  What every device owes its neighbours' cells from launch — a barrier unit to each, the credit of every direct
  chunk to the first-axis neighbour, of every relayed chunk to the second-axis neighbour —, the levels that
  order the waits (barrier below arrivals of direct chunks below arrivals of relayed chunks), and the credit
  tokens the launch deals each device for its own cells.
-/
import proofs.«900087_g7700000000000088_dist_ag_v7x_xy2x2_x_m4096_n1024_f32_1_alg».proof.Proof.BgProto
import Idealize.ShloMosaic.Lib.Pipeline.Launch

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Chunks from `n` on, chunks below `n` -/

def Sfrom (n : ℕ) : Finset (Fin 32) := Finset.univ.filter fun k => n ≤ k.val
def Tbelow (n : ℕ) : Finset (Fin 32) := Finset.univ.filter fun k => k.val < n

theorem mem_Sfrom {n : ℕ} {k : Fin 32} : k ∈ Sfrom n ↔ n ≤ k.val := by
  unfold Sfrom; rw [Finset.mem_filter]; exact ⟨fun h => h.2, fun h => ⟨Finset.mem_univ _, h⟩⟩
theorem mem_Tbelow {n : ℕ} {k : Fin 32} : k ∈ Tbelow n ↔ k.val < n := by
  unfold Tbelow; rw [Finset.mem_filter]; exact ⟨fun h => h.2, fun h => ⟨Finset.mem_univ _, h⟩⟩

theorem Sfrom_zero : Sfrom 0 = Finset.univ := by
  ext k; rw [mem_Sfrom]; exact ⟨fun _ => Finset.mem_univ _, fun _ => Nat.zero_le _⟩
theorem Sfrom_32 : Sfrom 32 = ∅ := by
  ext k; rw [mem_Sfrom]; have := k.isLt; exact ⟨fun h => by omega, fun h => absurd h (Finset.notMem_empty _)⟩
theorem Tbelow_zero : Tbelow 0 = ∅ := by
  ext k; rw [mem_Tbelow]; exact ⟨fun h => by omega, fun h => absurd h (Finset.notMem_empty _)⟩
theorem Tbelow_32 : Tbelow 32 = Finset.univ := by
  ext k; rw [mem_Tbelow]; exact ⟨fun _ => Finset.mem_univ _, fun _ => k.isLt⟩

theorem Sfrom_eq_insert {n : ℕ} (hn : n < 32) : Sfrom n = insert (⟨n, hn⟩ : Fin 32) (Sfrom (n + 1)) := by
  ext k; rw [Finset.mem_insert, mem_Sfrom, mem_Sfrom, Fin.ext_iff]; dsimp only; omega
theorem notMem_Sfrom_succ {n : ℕ} (hn : n < 32) : (⟨n, hn⟩ : Fin 32) ∉ Sfrom (n + 1) := by
  rw [mem_Sfrom]; dsimp only; omega
theorem Tbelow_succ_eq_insert {n : ℕ} (hn : n < 32) : Tbelow (n + 1) = insert (⟨n, hn⟩ : Fin 32) (Tbelow n) := by
  ext k; rw [Finset.mem_insert, mem_Tbelow, mem_Tbelow, Fin.ext_iff]; dsimp only; omega
theorem notMem_Tbelow_self {n : ℕ} (hn : n < 32) : (⟨n, hn⟩ : Fin 32) ∉ Tbelow n := by
  rw [mem_Tbelow]; dsimp only; omega

omit [FloatOps F] in
theorem bigSep_Sfrom_peel {n : ℕ} (hn : n < 32) (Φ : Fin 32 → sProp 𝕄) :
    bigSep (Sfrom n) Φ = iprop(Φ ⟨n, hn⟩ ∗ bigSep (Sfrom (n + 1)) Φ) := by
  rw [Sfrom_eq_insert hn, bigSep_insert (notMem_Sfrom_succ hn)]; rfl
omit [FloatOps F] in
theorem bigSep_Tbelow_succ {n : ℕ} (hn : n < 32) (Φ : Fin 32 → sProp 𝕄) :
    bigSep (Tbelow (n + 1)) Φ = iprop(Φ ⟨n, hn⟩ ∗ bigSep (Tbelow n) Φ) := by
  rw [Tbelow_succ_eq_insert hn, bigSep_insert (notMem_Tbelow_self hn)]; rfl

/-! ## What each device owes at launch -/

/-- What device `c` still owes the arrival cells of its first-axis neighbour after `n` direct sends. -/
def oweB (c : Dev nD) (n : ℕ) : CellTallies nD τ sig Unit := ∑ k ∈ Sfrom n, tallyAt (cell (xn c) (.B k)) () N
/-- What it still owes the relayed-arrival cells of its second-axis neighbour after `n` relays. -/
def oweD (c : Dev nD) (n : ℕ) : CellTallies nD τ sig Unit := ∑ k ∈ Sfrom n, tallyAt (cell (yn c) (.D k)) () N

theorem oweB_peel (c : Dev nD) {n : ℕ} (hn : n < 32) :
    oweB c n = oweB c (n + 1) + tallyAt (cell (xn c) (.B ⟨n, hn⟩)) () N := by
  unfold oweB; rw [Sfrom_eq_insert hn, Finset.sum_insert (notMem_Sfrom_succ hn), add_comm]
theorem oweD_peel (c : Dev nD) {n : ℕ} (hn : n < 32) :
    oweD c n = oweD c (n + 1) + tallyAt (cell (yn c) (.D ⟨n, hn⟩)) () N := by
  unfold oweD; rw [Sfrom_eq_insert hn, Finset.sum_insert (notMem_Sfrom_succ hn), add_comm]
theorem oweB_32 (c : Dev nD) : oweB c 32 = 0 := by unfold oweB; rw [Sfrom_32, Finset.sum_empty]
theorem oweD_32 (c : Dev nD) : oweD c 32 = 0 := by unfold oweD; rw [Sfrom_32, Finset.sum_empty]

/-- All chunks, then the barrier unit of the second-axis neighbour, then that of the first-axis neighbour: the
    first signal peels the last summand, the second the one before. -/
def O₂ (c : Dev nD) : CellTallies nD τ sig Unit := oweD c 0 + oweB c 0
def O₁ (c : Dev nD) : CellTallies nD τ sig Unit := O₂ c + tallyAt (cell (yn c) .bar) () 1
def O₀ (c : Dev nD) : CellTallies nD τ sig Unit := O₁ c + tallyAt (cell (xn c) .bar) () 1

theorem oweB_pos {c : Dev nD} {n : ℕ} {g : GSem nD τ sig} {u : Unit} (h : 0 < oweB c n g u) :
    ∃ k : Fin 32, g = cell (xn c) (.B k) := by
  unfold oweB at h
  obtain ⟨k, -, hk⟩ := Pipeline.sum_pos_exists h
  exact ⟨k, (Pipeline.tallyAt_pos hk).1⟩
theorem oweD_pos {c : Dev nD} {n : ℕ} {g : GSem nD τ sig} {u : Unit} (h : 0 < oweD c n g u) :
    ∃ k : Fin 32, g = cell (yn c) (.D k) := by
  unfold oweD at h
  obtain ⟨k, -, hk⟩ := Pipeline.sum_pos_exists h
  exact ⟨k, (Pipeline.tallyAt_pos hk).1⟩

/-! ## The levels -/

def L (g : GSem nD τ sig) : Finset Unit := if g.1.2 = .tc then {()} else ∅
/-- The barrier cell at 1, arrivals of direct chunks at 2, arrivals of relayed chunks at 3, every other cell at 0. -/
def lv (g : GSem nD τ sig) (_ : Unit) : ℕ := match kindOf g.2 with | .bar => 1 | .B _ => 2 | .D _ => 3 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv ((c : Thread nD τ), .reg barS) u = 1 := rfl
theorem lv_B (c : Dev nD) (k : Fin 32) (u : Unit) : lv ((c : Thread nD τ), semOf (.B k)) u = 2 := by
  dsimp only [lv]; rw [kindOf_semOf]
theorem lv_D (c : Dev nD) (k : Fin 32) (u : Unit) : lv ((c : Thread nD τ), semOf (.D k)) u = 3 := by
  dsimp only [lv]; rw [kindOf_semOf]

omit [FloatOps F] in
/-- At its barrier wait a device owes only chunk arrivals, which sit above the barrier cell. -/
theorem mayWait_bar (c : Dev nD) : (levAts L lv : sProp 𝕄) ⊢ MayWait (c : Thread nD τ) (.reg barS) () (O₂ c) :=
  Pipeline.mayWait_of_levAts (by rw [L_tc]; exact Finset.mem_singleton_self _) fun g u hg => by
    rcases Pipeline.add_pos_cases hg with h | h
    · obtain ⟨k, rfl⟩ := oweD_pos h
      exact ⟨by rw [L_tc]; exact Finset.mem_singleton_self _, by rw [lv_bar, lv_D]; decide⟩
    · obtain ⟨k, rfl⟩ := oweB_pos h
      exact ⟨by rw [L_tc]; exact Finset.mem_singleton_self _, by rw [lv_bar, lv_B]; decide⟩

omit [FloatOps F] in
/-- Waiting for a direct chunk to arrive a device owes only relayed arrivals, which sit above. -/
theorem mayWait_B (c : Dev nD) (n : ℕ) (k : Fin 32) :
    (levAts L lv : sProp 𝕄) ⊢ MayWait (c : Thread nD τ) (semOf (.B k)) () (oweD c n) :=
  Pipeline.mayWait_of_levAts (by rw [L_tc]; exact Finset.mem_singleton_self _) fun g u hg => by
    obtain ⟨j, rfl⟩ := oweD_pos hg
    exact ⟨by rw [L_tc]; exact Finset.mem_singleton_self _, by rw [lv_B, lv_D]; decide⟩

/-! ## The launch credit -/

omit [FloatOps F] in
/-- The launch deals every device the tokens of its own cells: two barrier units (one from each neighbour) and the
    credit of every chunk arriving directly and of every chunk arriving relayed. -/
theorem creds (c : Dev nD) :
    (Pipeline.launchCred O₀ c : sProp 𝕄) ⊢ iprop(cred (tallyAt (cell c .bar) () 2)
      ∗ (bigSep Finset.univ fun k : Fin 32 => cred (tallyAt (cell c (.B k)) () N))
      ∗ (bigSep Finset.univ fun k : Fin 32 => cred (tallyAt (cell c (.D k)) () N))) := by
  have e0 : (Pipeline.launchCred O₀ c : sProp 𝕄)
      = iprop(Pipeline.launchCred O₁ c ∗ Pipeline.launchCred (fun d => tallyAt (cell (xn d) .bar) () 1) c) :=
    Pipeline.launchCred_add O₁ (fun d => tallyAt (cell (xn d) .bar) () 1) c
  have e1 : (Pipeline.launchCred O₁ c : sProp 𝕄)
      = iprop(Pipeline.launchCred O₂ c ∗ Pipeline.launchCred (fun d => tallyAt (cell (yn d) .bar) () 1) c) :=
    Pipeline.launchCred_add O₂ (fun d => tallyAt (cell (yn d) .bar) () 1) c
  have e2 : (Pipeline.launchCred O₂ c : sProp 𝕄)
      = iprop(Pipeline.launchCred (fun d => oweD d 0) c ∗ Pipeline.launchCred (fun d => oweB d 0) c) :=
    Pipeline.launchCred_add (fun d => oweD d 0) (fun d => oweB d 0) c
  have eD : (Pipeline.launchCred (fun d => oweD d 0) c : sProp 𝕄)
      = bigSep Finset.univ fun k : Fin 32 => Pipeline.launchCred (fun d => tallyAt (cell (yn d) (.D k)) () N) c := by
    have h := Pipeline.launchCred_sum (Val := Elt F) (Name := ℕ) (U := UU) (Lvl := ℕ) (Sfrom 0)
      (fun (k : Fin 32) (d : Dev nD) => (tallyAt (cell (yn d) (.D k)) () N : CellTallies nD τ sig Unit)) c
    rw [Sfrom_zero] at h; exact h
  have eB : (Pipeline.launchCred (fun d => oweB d 0) c : sProp 𝕄)
      = bigSep Finset.univ fun k : Fin 32 => Pipeline.launchCred (fun d => tallyAt (cell (xn d) (.B k)) () N) c := by
    have h := Pipeline.launchCred_sum (Val := Elt F) (Name := ℕ) (U := UU) (Lvl := ℕ) (Sfrom 0)
      (fun (k : Fin 32) (d : Dev nD) => (tallyAt (cell (xn d) (.B k)) () N : CellTallies nD τ sig Unit)) c
    rw [Sfrom_zero] at h; exact h
  have hD : (bigSep Finset.univ fun k : Fin 32 => (Pipeline.launchCred (fun d => tallyAt (cell (yn d) (.D k)) () N) c : sProp 𝕄))
      ⊢ bigSep Finset.univ fun k : Fin 32 => cred (tallyAt (cell c (.D k)) () N) :=
    bigSep_mono fun k _ => Pipeline.launchCred_tallyAt (semOf (.D k)) yn yn yn_yn yn_yn () N c
  have hB : (bigSep Finset.univ fun k : Fin 32 => (Pipeline.launchCred (fun d => tallyAt (cell (xn d) (.B k)) () N) c : sProp 𝕄))
      ⊢ bigSep Finset.univ fun k : Fin 32 => cred (tallyAt (cell c (.B k)) () N) :=
    bigSep_mono fun k _ => Pipeline.launchCred_tallyAt (semOf (.B k)) xn xn xn_xn xn_xn () N c
  have hx : (Pipeline.launchCred (fun d => tallyAt (cell (xn d) .bar) () 1) c : sProp 𝕄) ⊢ cred (tallyAt (cell c .bar) () 1) :=
    Pipeline.launchCred_tallyAt (semOf .bar) xn xn xn_xn xn_xn () 1 c
  have hy : (Pipeline.launchCred (fun d => tallyAt (cell (yn d) .bar) () 1) c : sProp 𝕄) ⊢ cred (tallyAt (cell c .bar) () 1) :=
    Pipeline.launchCred_tallyAt (semOf .bar) yn yn yn_yn yn_yn () 1 c
  have h2 : (iprop(cred (tallyAt (cell c .bar) () 1) ∗ cred (tallyAt (cell c .bar) () 1)) : sProp 𝕄) ⊢ cred (tallyAt (cell c .bar) () 2) := by
    rw [← tallyAt_add (cell c .bar) () 1 1]; exact (cred_add _ _).2
  rw [e0, e1, e2, eD, eB]
  iintro ⟨⟨⟨HD, HB⟩, Hy⟩, Hx⟩
  isplitl [Hx Hy]
  · iapply h2
    isplitl [Hx]
    · iapply hx; iexact Hx
    · iapply hy; iexact Hy
  isplitl [HB]
  · iapply hB; iexact HB
  · iapply hD; iexact HD

end Cert.Kernel.AG

end
-- ==== Proof.BgGhost.lean ====
/-
  What a device holds as the kernel begins and ends: the cells' invariants and that every cell is at its round 0
  (shared, persistent); its own positions; the tokens of the duties it pays — its two barrier signals, each chunk's
  direct transfer and relay on both ends, the local copy —; the credit of its barrier and arrival cells; the two arrays.
-/
import proofs.«900087_g7700000000000088_dist_ag_v7x_xy2x2_x_m4096_n1024_f32_1_alg».proof.Proof.BgOwe

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

abbrev 𝒱₀ : Variants := Variants.none

def recI : sProp 𝕄 := bigSep Finset.univ fun ck : Dev nD × CK => cellInv ER (sched m) (K ck) (cell ck.1 ck.2)
def recR : sProp 𝕄 := bigSep Finset.univ fun ck : Dev nD × CK => reached ER (cell ck.1 ck.2) 0

instance recI_persistent : BI.Persistent (recI m K) := by unfold recI; infer_instance
instance recR_persistent : BI.Persistent (recR (F := F)) := by unfold recR; infer_instance

omit [FloatOps F] in
theorem inv_at (c : Dev nD) (k : CK) : recI m K ⊢ cellInv ER (sched m) (K (c, k)) (cell c k) :=
  bigSep_elim (Finset.mem_univ ((c, k) : Dev nD × CK))
omit [FloatOps F] in
theorem reached_at (c : Dev nD) (k : CK) : (recR : sProp 𝕄) ⊢ reached ER (cell c k) 0 :=
  bigSep_elim (Finset.mem_univ ((c, k) : Dev nD × CK))

/-- What a device still owes, under whatever waits it has recorded. -/
def ow (c : Dev nD) (O : CellTallies nD τ sig Unit) : sProp 𝕄 := iprop(∃ W : Waits sig Unit, owes (c : Thread nD τ) O W)

def positions (c : Dev nD) : sProp 𝕄 := bigSep Finset.univ fun k : CK => atPos ER (cell c k) 0 ∅ 0

def payToks (c : Dev nD) : sProp 𝕄 :=
  iprop(dutyTok ER (cell (xn c) .bar) 0 false ∗ dutyTok ER (cell (yn c) .bar) 0 true ∗ dutyTok ER (cell c .E) 0 false
    ∗ (bigSep Finset.univ fun k : Fin 32 => dutyTok ER (cell c (.A k)) 0 false)
    ∗ (bigSep Finset.univ fun k : Fin 32 => dutyTok ER (cell (xn c) (.B k)) 0 false)
    ∗ (bigSep Finset.univ fun k : Fin 32 => dutyTok ER (cell c (.C k)) 0 false)
    ∗ (bigSep Finset.univ fun k : Fin 32 => dutyTok ER (cell (yn c) (.D k)) 0 false))

def ghost (c : Dev nD) : sProp 𝕄 := iprop(recI m K ∗ recR ∗ positions c ∗ payToks c)

def launchCreds (c : Dev nD) : sProp 𝕄 :=
  iprop(cred (tallyAt (cell c .bar) () 2) ∗ (bigSep Finset.univ fun k : Fin 32 => cred (tallyAt (cell c (.B k)) () N))
    ∗ (bigSep Finset.univ fun k : Fin 32 => cred (tallyAt (cell c (.D k)) () N)))

def bufs0 (c : Dev nD) : sProp 𝕄 :=
  iprop((((c : Thread nD τ).loc main_arg0) ↦{fullShare} X m c) ∗ (((c : Thread nD τ).loc main_v1) ↦{fullShare} V0 m c))

def start (c : Dev nD) : sProp 𝕄 := iprop((∃ K, ghost m K c) ∗ launchCreds c ∗ levAts L lv ∗ bufs0 m c)

/-- The device's own transfer semaphores, every one back at zero and closed. -/
def ownZeros (c : Dev nD) : sProp 𝕄 :=
  iprop((bigSep Finset.univ fun k : Fin 32 => semVal (cell c (.A k)) 0) ∗ (bigSep Finset.univ fun k : Fin 32 => semVal (cell c (.B k)) 0)
    ∗ (bigSep Finset.univ fun k : Fin 32 => semVal (cell c (.C k)) 0) ∗ (bigSep Finset.univ fun k : Fin 32 => semVal (cell c (.D k)) 0)
    ∗ semVal (cell c .E) 0)

def Φ₀ (c : Dev nD) : sProp 𝕄 := start m c
def Φ₁ (c : Dev nD) : sProp 𝕄 :=
  iprop((∃ g, ⌜OutSpec m c g⌝ ∗ (((c : Thread nD τ).loc main_v1) ↦{fullShare} g)) ∗ (((c : Thread nD τ).loc main_arg0) ↦{fullShare} X m c) ∗ ownZeros c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.AG

end
-- ==== Proof.BgRegions.lean ====
/-
  The pieces of the arrays the copies of the all-gather read and write are bands of rows. This module turns
  membership in a piece into inequalities on the row coordinate, and derives from them: the relayed chunk is
  the chunk that arrived; chunks of one family are pairwise disjoint; the three families written on one result
  array are disjoint from each other; and together they cover the array.
-/
import proofs.«900087_g7700000000000088_dist_ag_v7x_xy2x2_x_m4096_n1024_f32_1_alg».proof.Proof.BgDefs

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Rows of the pieces

Every piece is a band of whole rows: membership is a condition on the row coordinate alone. With the device
at mesh position `(a, b)`, `c = 2a + b`: the own block sits on rows `4096a ..`, chunk `k` of the direct
half on rows `4096a + 2048b + 64k ..` (as sent by `c`), and the relayed chunk on rows
`4096(1-a) + 2048b + 64k ..`. -/

theorem xn_val (c : Dev nD) : (xn c).val = ((c.val % 2) + 2) - 2 * (c.val / 2) := rfl
theorem yn_val (c : Dev nD) : (yn c).val = (2 * (c.val / 2) + 1) - (c.val % 2) := rfl

theorem mem_o1 (c : Dev nD) (k : Fin 32) (i : S8192x1024.Idx) :
    i ∈ (o1 c k).view.set ↔ 4096 * (c.val / 2) + 2048 * (c.val % 2) + 64 * k.val ≤ (i 0).val
      ∧ (i 0).val < 4096 * (c.val / 2) + 2048 * (c.val % 2) + 64 * k.val + 64 := by
  have hs : (o1 c k).view.set = (Rect.unit (s := S8192x1024) (k0_off1 c (BitVec.ofNat 32 (64 * k.val))) S64x1024.size (Gen.k0_off1_inb c k)).set :=
    View.set_slice_whole main_v1 _
  rw [hs, Rect.mem_set_unit, Gen.k0_off1_eq, Fin.forall_fin_two]
  have h1 : (i 1).val < 1024 := (i 1).isLt
  simp only [Matrix.cons_val_zero, Matrix.cons_val_one]
  omega

theorem mem_o4 (c : Dev nD) (k : Fin 32) (i : S8192x1024.Idx) :
    i ∈ (o4 c k).view.set ↔ (2048 * (c.val % 2) + 64 * k.val + 4096) - 4096 * (c.val / 2) ≤ (i 0).val
      ∧ (i 0).val < (2048 * (c.val % 2) + 64 * k.val + 4096) - 4096 * (c.val / 2) + 64 := by
  have hs : (o4 c k).view.set = (Rect.unit (s := S8192x1024) (k0_off4 c (BitVec.ofNat 32 (64 * k.val))) S64x1024.size (Gen.k0_off4_inb c k)).set :=
    View.set_slice_whole main_v1 _
  rw [hs, Rect.mem_set_unit, Gen.k0_off4_eq, Fin.forall_fin_two]
  have h1 : (i 1).val < 1024 := (i 1).isLt
  simp only [Matrix.cons_val_zero, Matrix.cons_val_one]
  omega

theorem mem_o3 (c : Dev nD) (i : S8192x1024.Idx) :
    i ∈ (o3 c).view.set ↔ 4096 * (c.val / 2) ≤ (i 0).val ∧ (i 0).val < 4096 * (c.val / 2) + 4096 := by
  have hs : (o3 c).view.set = (Rect.unit (s := S8192x1024) (k0_off3 c) S4096x1024.size (Gen.k0_off3_inb c)).set :=
    View.set_slice_whole main_v1 _
  rw [hs, Rect.mem_set_unit, Gen.k0_off3_eq, Fin.forall_fin_two]
  have h1 : (i 1).val < 1024 := (i 1).isLt
  simp only [Matrix.cons_val_zero, Matrix.cons_val_one]
  omega

theorem mem_xSl (c : Dev nD) (k : Fin 32) (i : S4096x1024.Idx) :
    i ∈ (xSl c k).view.set ↔ 2048 * (c.val % 2) + 64 * k.val ≤ (i 0).val
      ∧ (i 0).val < 2048 * (c.val % 2) + 64 * k.val + 64 := by
  have hs : (xSl c k).view.set = (Rect.unit (s := S4096x1024) (k0_off2 c (BitVec.ofNat 32 (64 * k.val))) S64x1024.size (Gen.k0_off2_inb c k)).set :=
    View.set_slice_whole main_arg0 _
  rw [hs, Rect.mem_set_unit, Gen.k0_off2_eq, Fin.forall_fin_two]
  have h1 : (i 1).val < 1024 := (i 1).isLt
  simp only [Matrix.cons_val_zero, Matrix.cons_val_one]
  omega

/-! ## The relayed chunk is the chunk that arrived -/

theorem slice_unit_congr {s : Shape} (m : Memref sig .tc .hbm s .f32) {off off' size : Fin s.rank → Nat} (h : off = off')
    (p : ∀ a, off a + size a ≤ s.size a) (p' : ∀ a, off' a + size a ≤ s.size a) :
    m.slice (Rect.unit off size p) (fun _ => rfl) = m.slice (Rect.unit off' size p') (fun _ => rfl) := by
  subst h; rfl

theorem off4_eq_off1 (c : Dev nD) (k : Fin 32) :
    k0_off4 c (BitVec.ofNat 32 (64 * k.val)) = k0_off1 (xn c) (BitVec.ofNat 32 (64 * k.val)) := by
  rw [Gen.k0_off4_eq, Gen.k0_off1_eq, xn_val]
  have hc : c.val < 4 := c.isLt
  have : (2048 * (c.val % 2) + 64 * k.val + 4096) - 4096 * (c.val / 2)
      = 4096 * ((((c.val % 2) + 2) - 2 * (c.val / 2)) / 2) + 2048 * ((((c.val % 2) + 2) - 2 * (c.val / 2)) % 2) + 64 * k.val := by omega
  rw [this]

/-- The rows device `c` relays are the rows its chunk from the first-axis neighbour arrived on. -/
theorem o4_eq (c : Dev nD) (k : Fin 32) : o4 c k = o1 (xn c) k :=
  slice_unit_congr oM (off4_eq_off1 c k) _ _

/-! ## Chunks of one family are disjoint -/

theorem o1_disjoint (c : Dev nD) {k j : Fin 32} (h : k ≠ j) : Disjoint (o1 c k).view.set (o1 c j).view.set := by
  have hv : k.val ≠ j.val := fun e => h (Fin.ext e)
  rw [Finset.disjoint_left]; intro i hk hj
  rw [mem_o1] at hk hj; omega

theorem o4_disjoint (c : Dev nD) {k j : Fin 32} (h : k ≠ j) : Disjoint (o4 c k).view.set (o4 c j).view.set := by
  have hv : k.val ≠ j.val := fun e => h (Fin.ext e)
  have hc : c.val < 4 := c.isLt
  rw [Finset.disjoint_left]; intro i hk hj
  rw [mem_o4] at hk hj; omega

theorem xSl_disjoint (c : Dev nD) {k j : Fin 32} (h : k ≠ j) : Disjoint (xSl c k).view.set (xSl c j).view.set := by
  have hv : k.val ≠ j.val := fun e => h (Fin.ext e)
  rw [Finset.disjoint_left]; intro i hk hj
  rw [mem_xSl] at hk hj; omega

/-! ## The three families on one result array do not meet -/

theorem o3_disjoint_o1 (c : Dev nD) (k : Fin 32) : Disjoint (o3 c).view.set (o1 (xn c) k).view.set := by
  have hc : c.val < 4 := c.isLt
  have hk : k.val < 32 := k.isLt
  rw [Finset.disjoint_left]; intro i h3 h1
  rw [mem_o3] at h3; rw [mem_o1, xn_val] at h1; omega

theorem o3_disjoint_o4 (c : Dev nD) (k : Fin 32) : Disjoint (o3 c).view.set (o4 (yn c) k).view.set := by
  have hc : c.val < 4 := c.isLt
  have hk : k.val < 32 := k.isLt
  rw [Finset.disjoint_left]; intro i h3 h4
  rw [mem_o3] at h3; rw [mem_o4, yn_val] at h4; omega

theorem o1_disjoint_o4 (c : Dev nD) (k j : Fin 32) : Disjoint (o1 (xn c) k).view.set (o4 (yn c) j).view.set := by
  have hc : c.val < 4 := c.isLt
  have hk : k.val < 32 := k.isLt
  have hj : j.val < 32 := j.isLt
  rw [Finset.disjoint_left]; intro i h1 h4
  rw [mem_o1, xn_val] at h1; rw [mem_o4, yn_val] at h4; omega

/-! ## Together they are the whole array -/

theorem cover' (c : Dev nD) (i : S8192x1024.Idx) :
    i ∈ (o3 c).view.set ∨ (∃ k, i ∈ (o1 (xn c) k).view.set) ∨ (∃ k, i ∈ (o4 (yn c) k).view.set) := by
  have hc : c.val < 4 := c.isLt
  have hi : (i 0).val < 8192 := (i 0).isLt
  have hk : ((i 0).val % 2048) / 64 < 32 := by omega
  by_cases h3 : 4096 * (c.val / 2) ≤ (i 0).val ∧ (i 0).val < 4096 * (c.val / 2) + 4096
  · exact Or.inl ((mem_o3 c i).mpr h3)
  · by_cases hb : ((i 0).val % 4096) / 2048 = c.val % 2
    · refine Or.inr (Or.inl ⟨⟨((i 0).val % 2048) / 64, hk⟩, ?_⟩)
      rw [mem_o1, xn_val]; simp only []; omega
    · refine Or.inr (Or.inr ⟨⟨((i 0).val % 2048) / 64, hk⟩, ?_⟩)
      rw [mem_o4, yn_val]; simp only []; omega

/-- Every element of a device's result array lies in its own block, in a chunk from the first-axis neighbour,
    or in a chunk relayed by the second-axis neighbour (chunk `(row mod 2048) / 64`). -/
theorem cover (c : Dev nD) (i : Idx ((c : Thread nD τ).loc main_v1)) :
    i ∈ (o3 c).view.set ∨ (∃ k, i ∈ (o1 (xn c) k).view.set) ∨ (∃ k, i ∈ (o4 (yn c) k).view.set) :=
  cover' c i

end Cert.Kernel.AG

end
-- ==== Proof.BgSteps.lean ====
/-
  One device's moves, each as a rule of the program logic: the direct transfer of a chunk, the wait for a chunk's
  arrival, its relay, and the three closing waits of a chunk.  Stated once for a symbolic device and chunk.
-/
import proofs.«900087_g7700000000000088_dist_ag_v7x_xy2x2_x_m4096_n1024_f32_1_alg».proof.Proof.BgGhost
import proofs.«900087_g7700000000000088_dist_ag_v7x_xy2x2_x_m4096_n1024_f32_1_alg».proof.Proof.BgRegions

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- The whole of an own transfer cell's one round waited for, and the cell closed: its payload, its counter at zero. -/
theorem wait_cell (c : Dev nD) (k : CK) (hb : k ≠ .bar) (s : DmaSem sig) (hs : semOf k = .dma s) (n : ℕ)
    (hn : (sched (F := F) m).expect (cell c k) 0 = n) (O : CellTallies nD τ sig Unit)
    {sp sp' : Space} {sh sh' : Shape} {e e' : EltTy} {src : Memref sig .tc sp' sh' e'} {dst : Memref sig .tc sp sh e}
    (hd : dst.view.dmaCredit = n) {hsrc : src.view.WordExact} {hdst : dst.view.WordExact}
    {α : Type} {Q : α → sProp 𝕄} {kk : PUnit → Prog (TpuEff nD τ sig (Elt F) Λ₀ .tc) α} :
    iprop(recI m K ∗ atPos ER (cell c k) 0 ∅ 0 ∗ cred (tallyAt (cell c k) () n) ∗ ow c O ∗ MayWait (c : Thread nD τ) (semOf k) () O)
      ⊢ iprop(((semVal (cell c k) 0 ∗ (sched m).payload (cell c k) 0 false ∗ ow c O)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 s src dst hsrc hdst) kk) Q) := by
  subst hd
  have hcell : cell c k = ((c : Thread nD τ), SemLoc.dma s) := by show ((c : Thread nD τ), semOf k) = _; rw [hs]
  have hinv : recI m K ⊢ cellInv ER (sched m) (K (c, k)) ((c : Thread nD τ), SemLoc.dma s) := hcell ▸ inv_at m K c k
  have hrest := rest_dma m c k hb
  have hexp := hn
  rw [hcell] at hrest hexp
  rw [hcell, hs]
  unfold ow
  iintro ⟨#HI, Hat, Hc, ⟨%W, HO⟩, Hmay⟩ Hk
  ihave #Hinv := hinv $$ HI
  iapply (Rounds.wp_wait_rest_token 𝒱₀ ER (sched m) (c : Thread nD τ) none (κ := K (c, k))
      (wpE_waitDma2_eq 𝒱₀ (c : Thread nD τ) none Set.univ) (Set.mem_univ _) () (O := O) (W := W) (R := 0) (m := 0) (T := ∅)
      (by rw [Nat.zero_add, hexp])) $$ [Hc HO Hat Hmay]
  · isplitr; · iexact Hinv
    isplitl [Hc]; · iexact Hc
    isplitl [HO]; · iexact HO
    isplitl [Hmay]; · iexact Hmay
    iexact Hat
  iintro ⟨HO, Hat, -, Hpay⟩
  ihave Hp := (Entails.of_eq hrest) $$ Hpay
  imod (Rounds.cell_close ER (sched m) (Set.mem_univ (K (c, k))) (fun h => h) (R := 0 + 1) (duties_later m _)) $$ [Hat] with Hz
  · isplitr; · iexact Hinv
    iexact Hat
  iapply Hk
  isplitl [Hz]; · iexact Hz
  isplitl [Hp]; · iexact Hp
  iexists _; iexact HO

/-! ## The direct transfers -/

/-- What the direct transfer of chunk `k` takes: its rows of the own block, the rows they land in, its two tokens. -/
def R1 (c : Dev nD) (k : Fin 32) : sProp 𝕄 :=
  iprop(payA m c k ∗ ((o1 c k).view.loc (xn c : Thread nD τ) ↦[(o1 c k).view.set]{fullShare} V0 m (xn c))
    ∗ dutyTok ER (cell c (.A k)) 0 false ∗ dutyTok ER (cell (xn c) (.B k)) 0 false)
/-- What it leaves: the credit of its departure cell. -/
def R1' (c : Dev nD) (k : Fin 32) : sProp 𝕄 := cred (tallyAt (cell c (.A k)) () N)
/-- After `n` direct transfers. -/
def S1 (c : Dev nD) (n : ℕ) (O : CellTallies nD τ sig Unit) : sProp 𝕄 :=
  iprop(bigSep (Sfrom n) (R1 m c) ∗ bigSep (Tbelow n) (R1' (F := F) c) ∗ ow c (O + oweB c n))

theorem step_p1 (c n' : Dev nD) (hn' : n' = xn c) (n : ℕ) (hn : n < 32) (O : CellTallies nD τ sig Unit)
    {hsc : ((o1 c ⟨n, hn⟩ : Memref sig (Dev.tc n' : Thread nD τ).2.kind .hbm S64x1024 .f32)).view.ref.isScScratch = false}
    {hsrc : (xSl c ⟨n, hn⟩).view.WordExact} {hdst : (o1 c ⟨n, hn⟩).view.WordExact}
    {hsem : DmaTarget.Typed .hbm (semOf (.B ⟨n, hn⟩)) (.remote (Dev.tc n' : Thread nD τ) (o1 c ⟨n, hn⟩) (semOf (.A ⟨n, hn⟩)) hsc)}
    {α : Type} {Q : α → sProp 𝕄} {kk : PUnit → Prog (TpuEff nD τ sig (Elt F) Λ₀ .tc) α} :
    iprop(recI m K ∗ recR ∗ S1 m c n O)
      ⊢ iprop((S1 m c (n + 1) O -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (xSl c ⟨n, hn⟩) (.remote (Dev.tc n' : Thread nD τ) (o1 c ⟨n, hn⟩) (semOf (.A ⟨n, hn⟩)) hsc) (semOf (.B ⟨n, hn⟩)) hsrc hdst hsem) kk) Q) := by
  subst hn'
  unfold S1
  rw [bigSep_Sfrom_peel hn, bigSep_Tbelow_succ hn, oweB_peel c hn, ← add_assoc]
  unfold R1 R1' ow payA
  iintro ⟨#HI, #HR, ⟨⟨Hx, Hd, HtA, HtB⟩, HS⟩, HT, ⟨%W, HO⟩⟩ Hk
  iapply (Rounds.wp_send_pointsTo 𝒱₀ ER (sched m) (c : Thread nD τ) none (κ₁ := K (c, .A ⟨n, hn⟩)) (κ₂ := K (xn c, .B ⟨n, hn⟩))
      (r₁ := 0) (r₂ := 0) (d₁ := false) (d₂ := false) (fd := V0 m (xn c)) (src := xSl c ⟨n, hn⟩) (dst := o1 c ⟨n, hn⟩)
      (q := fullShare.right) (fs := X m c) (c' := (xn c : Thread nD τ))
      (by rw [duties_dma m c (.A ⟨n, hn⟩) (fun h => CK.noConfusion h)]; exact Finset.mem_singleton_self _)
      (by rw [duties_dma m (xn c) (.B ⟨n, hn⟩) (fun h => CK.noConfusion h)]; exact Finset.mem_singleton_self _)
      () () N rfl (amount_chunk m c (.A ⟨n, hn⟩) (fun h => CK.noConfusion h) (fun h => CK.noConfusion h) false)
      (amount_chunk m (xn c) (.B ⟨n, hn⟩) (fun h => CK.noConfusion h) (fun h => CK.noConfusion h) false) (O + oweB c (n + 1)) rfl (W := W)
      (by rw [payload_A]; unfold payA; exact BI.Entails.refl _)
      (by rw [payload_B, xn_xn]; unfold payB W1'; exact BI.Entails.refl _)) $$ [Hx Hd HO HtA HtB]
  · isplitr; · iapply (inv_at m K c (.A ⟨n, hn⟩)); iexact HI
    isplitr; · iapply (inv_at m K (xn c) (.B ⟨n, hn⟩)); iexact HI
    isplitl [Hx]; · iexact Hx
    isplitl [Hd]; · iexact Hd
    isplitl [HO]; · iexact HO
    isplitl [HtA]; · iexact HtA
    isplitr; · iapply (reached_at (F := F) c (.A ⟨n, hn⟩)); iexact HR
    isplitl [HtB]; · iexact HtB
    iapply (reached_at (F := F) (xn c) (.B ⟨n, hn⟩)); iexact HR
  iintro ⟨Hc, HO⟩
  iapply Hk
  isplitl [HS]; · iexact HS
  isplitl [Hc HT]
  · isplitl [Hc]; · iexact Hc
    iexact HT
  iexists W; iexact HO

/-! ## The relays -/

omit [FloatOps F] in
/-- A points-to through a 64-row slice of the result array depends on the slice's offsets only. -/
theorem pt_slice_congr (c : Dev nD) {off off' : Fin 2 → Nat} (h : off = off')
    (p : ∀ a, off a + S64x1024.size a ≤ S8192x1024.size a) (p' : ∀ a, off' a + S64x1024.size a ≤ S8192x1024.size a)
    (q : PosShare TreeShare) (f : Buf (Elt F) ((c : Thread nD τ).loc main_v1)) :
    (((oM.slice (Rect.unit (s := S8192x1024) off S64x1024.size p) (fun _ => rfl)).view.loc (c : Thread nD τ)
        ↦[(oM.slice (Rect.unit (s := S8192x1024) off S64x1024.size p) (fun _ => rfl)).view.set]{q} f : sProp 𝕄))
      = ((oM.slice (Rect.unit (s := S8192x1024) off' S64x1024.size p') (fun _ => rfl)).view.loc (c : Thread nD τ)
        ↦[(oM.slice (Rect.unit (s := S8192x1024) off' S64x1024.size p') (fun _ => rfl)).view.set]{q} f) := by
  subst h; rfl

omit [FloatOps F] in
/-- The rows a chunk arrived in are the rows relayed. -/
theorem payB_eq_payC (c : Dev nD) (k : Fin 32) : payB m c (xn c) k = payC m c k :=
  (pt_slice_congr c (off4_eq_off1 c k) _ _ fullShare (W1 m c k)).symm

def R2 (c : Dev nD) (k : Fin 32) : sProp 𝕄 :=
  iprop(((o4 c k).view.loc (yn c : Thread nD τ) ↦[(o4 c k).view.set]{fullShare} V0 m (yn c))
    ∗ dutyTok ER (cell c (.C k)) 0 false ∗ dutyTok ER (cell (yn c) (.D k)) 0 false)
def R2' (c : Dev nD) (k : Fin 32) : sProp 𝕄 := cred (tallyAt (cell c (.C k)) () N)
/-- After `n` relays. -/
def S2 (c : Dev nD) (n : ℕ) : sProp 𝕄 :=
  iprop(bigSep (Sfrom n) (R2 m c) ∗ bigSep (Tbelow n) (R2' (F := F) c) ∗ ow c (oweD c n))

theorem step_p2 (c n' : Dev nD) (hn' : n' = yn c) (n : ℕ) (hn : n < 32)
    {hsc : ((o4 c ⟨n, hn⟩ : Memref sig (Dev.tc n' : Thread nD τ).2.kind .hbm S64x1024 .f32)).view.ref.isScScratch = false}
    {hsrc : (o4 c ⟨n, hn⟩).view.WordExact} {hdst : (o4 c ⟨n, hn⟩).view.WordExact}
    {hsem : DmaTarget.Typed .hbm (semOf (.D ⟨n, hn⟩)) (.remote (Dev.tc n' : Thread nD τ) (o4 c ⟨n, hn⟩) (semOf (.C ⟨n, hn⟩)) hsc)}
    {α : Type} {Q : α → sProp 𝕄} {kk : PUnit → Prog (TpuEff nD τ sig (Elt F) Λ₀ .tc) α} :
    iprop(recI m K ∗ recR ∗ payB m c (xn c) ⟨n, hn⟩ ∗ S2 m c n)
      ⊢ iprop((S2 m c (n + 1) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (o4 c ⟨n, hn⟩) (.remote (Dev.tc n' : Thread nD τ) (o4 c ⟨n, hn⟩) (semOf (.C ⟨n, hn⟩)) hsc) (semOf (.D ⟨n, hn⟩)) hsrc hdst hsem) kk) Q) := by
  subst hn'
  unfold S2
  rw [bigSep_Sfrom_peel hn, bigSep_Tbelow_succ hn, oweD_peel c hn, payB_eq_payC]
  unfold R2 R2' ow payC
  iintro ⟨#HI, #HR, Hx, ⟨⟨Hd, HtC, HtD⟩, HS⟩, HT, ⟨%W, HO⟩⟩ Hk
  iapply (Rounds.wp_send_pointsTo 𝒱₀ ER (sched m) (c : Thread nD τ) none (κ₁ := K (c, .C ⟨n, hn⟩)) (κ₂ := K (yn c, .D ⟨n, hn⟩))
      (r₁ := 0) (r₂ := 0) (d₁ := false) (d₂ := false) (fd := V0 m (yn c)) (src := o4 c ⟨n, hn⟩) (dst := o4 c ⟨n, hn⟩)
      (q := fullShare) (fs := W1 m c ⟨n, hn⟩) (c' := (yn c : Thread nD τ))
      (by rw [duties_dma m c (.C ⟨n, hn⟩) (fun h => CK.noConfusion h)]; exact Finset.mem_singleton_self _)
      (by rw [duties_dma m (yn c) (.D ⟨n, hn⟩) (fun h => CK.noConfusion h)]; exact Finset.mem_singleton_self _)
      () () N rfl (amount_chunk m c (.C ⟨n, hn⟩) (fun h => CK.noConfusion h) (fun h => CK.noConfusion h) false)
      (amount_chunk m (yn c) (.D ⟨n, hn⟩) (fun h => CK.noConfusion h) (fun h => CK.noConfusion h) false) (oweD c (n + 1)) rfl (W := W)
      (by rw [payload_C]; unfold payC; exact BI.Entails.refl _)
      (by rw [payload_D, yn_yn]; unfold payD W4'; exact BI.Entails.refl _)) $$ [Hx Hd HO HtC HtD]
  · isplitr; · iapply (inv_at m K c (.C ⟨n, hn⟩)); iexact HI
    isplitr; · iapply (inv_at m K (yn c) (.D ⟨n, hn⟩)); iexact HI
    isplitl [Hx]; · iexact Hx
    isplitl [Hd]; · iexact Hd
    isplitl [HO]; · iexact HO
    isplitl [HtC]; · iexact HtC
    isplitr; · iapply (reached_at (F := F) c (.C ⟨n, hn⟩)); iexact HR
    isplitl [HtD]; · iexact HtD
    iapply (reached_at (F := F) (yn c) (.D ⟨n, hn⟩)); iexact HR
  iintro ⟨Hc, HO⟩
  iapply Hk
  isplitl [HS]; · iexact HS
  isplitl [Hc HT]
  · isplitl [Hc]; · iexact Hc
    iexact HT
  iexists W; iexact HO

/-! ## The waits, chunk after chunk -/

/-- The cells of one kind, chunks `n` on still to wait for; the chunks before `n` waited for and closed. -/
def WG (kf : Fin 32 → CK) (c : Dev nD) (n : ℕ) : sProp 𝕄 :=
  iprop(bigSep (Sfrom n) (fun k => iprop(atPos ER (cell c (kf k)) 0 ∅ 0 ∗ cred (tallyAt (cell c (kf k)) () N)))
    ∗ bigSep (Tbelow n) (fun k => semVal (cell c (kf k)) 0))

theorem step_waitG (kf : Fin 32 → CK) (hkb : ∀ k, kf k ≠ .bar) (hke : ∀ k, kf k ≠ .E) (base : ℕ) (hbase : base + 32 ≤ sig.nDmaSem)
    (hs : ∀ k, semOf (kf k) = .dma (dsem base hbase k)) (c : Dev nD) (n : ℕ) (hn : n < 32) (O : CellTallies nD τ sig Unit)
    {sp sp' : Space} {sh' : Shape} {e' : EltTy} {src : Memref sig .tc sp' sh' e'} {dst : Memref sig .tc sp S64x1024 .f32}
    {hsrc : src.view.WordExact} {hdst : dst.view.WordExact}
    {α : Type} {Q : α → sProp 𝕄} {kk : PUnit → Prog (TpuEff nD τ sig (Elt F) Λ₀ .tc) α} :
    iprop(recI m K ∗ WG kf c n ∗ ow c O ∗ MayWait (c : Thread nD τ) (semOf (kf ⟨n, hn⟩)) () O)
      ⊢ iprop(((WG kf c (n + 1) ∗ (sched m).payload (cell c (kf ⟨n, hn⟩)) 0 false ∗ ow c O)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem base hbase ⟨n, hn⟩) src dst hsrc hdst) kk) Q) := by
  unfold WG
  rw [bigSep_Sfrom_peel hn, bigSep_Tbelow_succ hn]
  iintro ⟨#HI, ⟨⟨⟨Hat, Hc⟩, HS⟩, HT⟩, HO, Hmay⟩ Hk
  iapply (wait_cell m K c (kf ⟨n, hn⟩) (hkb _) (dsem base hbase ⟨n, hn⟩) (hs _) N (expect_chunk m c _ (hkb _) (hke _)) O (dst := dst) rfl) $$ [Hat Hc HO Hmay]
  · isplitr; · iexact HI
    isplitl [Hat]; · iexact Hat
    isplitl [Hc]; · iexact Hc
    isplitl [HO]; · iexact HO
    iexact Hmay
  iintro ⟨Hz, Hp, HO⟩
  iapply Hk
  isplitl [HS Hz HT]
  · isplitl [HS]; · iexact HS
    isplitl [Hz]; · iexact Hz
    iexact HT
  isplitl [Hp]; · iexact Hp
  iexact HO

/-- The same with what has arrived kept beside the closed cells. -/
def WS (kf : Fin 32 → CK) (c : Dev nD) (n : ℕ) : sProp 𝕄 :=
  iprop(WG (F := F) kf c n ∗ bigSep (Tbelow n) (fun k => (sched m).payload (cell c (kf k)) 0 false))

theorem step_waitS (kf : Fin 32 → CK) (hkb : ∀ k, kf k ≠ .bar) (hke : ∀ k, kf k ≠ .E) (base : ℕ) (hbase : base + 32 ≤ sig.nDmaSem)
    (hs : ∀ k, semOf (kf k) = .dma (dsem base hbase k)) (c : Dev nD) (n : ℕ) (hn : n < 32)
    {sp sp' : Space} {sh' : Shape} {e' : EltTy} {src : Memref sig .tc sp' sh' e'} {dst : Memref sig .tc sp S64x1024 .f32}
    {hsrc : src.view.WordExact} {hdst : dst.view.WordExact}
    {α : Type} {Q : α → sProp 𝕄} {kk : PUnit → Prog (TpuEff nD τ sig (Elt F) Λ₀ .tc) α} :
    iprop(recI m K ∗ WS m kf c n ∗ ow c 0)
      ⊢ iprop(((WS m kf c (n + 1) ∗ ow c 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem base hbase ⟨n, hn⟩) src dst hsrc hdst) kk) Q) := by
  unfold WS
  rw [bigSep_Tbelow_succ hn (fun k => (sched m).payload (cell c (kf k)) 0 false)]
  iintro ⟨#HI, ⟨HG, HP⟩, HO⟩ Hk
  iapply (step_waitG m K kf hkb hke base hbase hs c n hn 0 (dst := dst)) $$ [HG HO]
  · isplitr; · iexact HI
    isplitl [HG]; · iexact HG
    isplitl [HO]; · iexact HO
    rw [MayWait_zero]; iempintro
  iintro ⟨HG, Hp, HO⟩
  iapply Hk
  isplitr [HO]
  · isplitl [HG]; · iexact HG
    isplitl [Hp]; · iexact Hp
    iexact HP
  iexact HO

/-- The wait for chunk `n`'s arrival, the relays from `n` on still owed. -/
theorem step_waitB (c : Dev nD) (n : ℕ) (hn : n < 32)
    {sp sp' : Space} {sh' : Shape} {e' : EltTy} {src : Memref sig .tc sp' sh' e'} {dst : Memref sig .tc sp S64x1024 .f32}
    {hsrc : src.view.WordExact} {hdst : dst.view.WordExact}
    {α : Type} {Q : α → sProp 𝕄} {kk : PUnit → Prog (TpuEff nD τ sig (Elt F) Λ₀ .tc) α} :
    iprop(recI m K ∗ levAts L lv ∗ WG (F := F) CK.B c n ∗ S2 m c n)
      ⊢ iprop(((WG (F := F) CK.B c (n + 1) ∗ payB m c (xn c) ⟨n, hn⟩ ∗ S2 m c n)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsem 32 (by decide) ⟨n, hn⟩) src dst hsrc hdst) kk) Q) := by
  unfold S2
  iintro ⟨#HI, #Hlev, HG, HS, HT, HO⟩ Hk
  iapply (step_waitG m K CK.B (fun _ h => CK.noConfusion h) (fun _ h => CK.noConfusion h) 32 _ (fun _ => rfl) c n hn (oweD c n) (dst := dst)) $$ [HG HO]
  · isplitr; · iexact HI
    isplitl [HG]; · iexact HG
    isplitl [HO]; · iexact HO
    iapply (mayWait_B (F := F) c n ⟨n, hn⟩); iexact Hlev
  iintro ⟨HG, Hp, HO⟩
  iapply Hk
  isplitl [HG]; · iexact HG
  isplitl [Hp]
  · ihave Hp' := (Entails.of_eq (payload_B m c ⟨n, hn⟩ false)) $$ Hp
    iexact Hp'
  isplitl [HS]; · iexact HS
  isplitl [HT]; · iexact HT
  iexact HO

/-- The wait for the local copy: the own rows filled, the lent share back, the cell closed. -/
theorem wait_E (c : Dev nD)
    {sp sp' : Space} {sh' : Shape} {e' : EltTy} {src : Memref sig .tc sp' sh' e'} {dst : Memref sig .tc sp S4096x1024 .f32}
    {hsrc : src.view.WordExact} {hdst : dst.view.WordExact}
    {α : Type} {Q : α → sProp 𝕄} {kk : PUnit → Prog (TpuEff nD τ sig (Elt F) Λ₀ .tc) α} :
    iprop(recI m K ∗ atPos ER (cell c .E) 0 ∅ 0 ∗ cred (tallyAt (cell c .E) () NE) ∗ ow c 0)
      ⊢ iprop(((semVal (cell c .E) 0 ∗ payE m c ∗ ow c 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (⟨128, by decide⟩ : DmaSem sig) src dst hsrc hdst) kk) Q) := by
  iintro ⟨#HI, Hat, Hc, HO⟩ Hk
  iapply (wait_cell m K c .E (fun h => CK.noConfusion h) _ rfl NE (expect_E m c) 0 (dst := dst) rfl) $$ [Hat Hc HO]
  · isplitr; · iexact HI
    isplitl [Hat]; · iexact Hat
    isplitl [Hc]; · iexact Hc
    isplitl [HO]; · iexact HO
    rw [MayWait_zero]; iempintro
  iintro ⟨Hz, Hp, HO⟩
  ihave Hp' := (Entails.of_eq (payload_E m c false)) $$ Hp
  iapply Hk
  isplitl [Hz]; · iexact Hz
  isplitl [Hp']; · iexact Hp'
  iexact HO

end Cert.Kernel.AG

end
-- ==== Proof.BgState.lean ====
/-
  What a device holds between the setting apart of its arrays' pieces and their joining at the end.
-/
import proofs.«900087_g7700000000000088_dist_ag_v7x_xy2x2_x_m4096_n1024_f32_1_alg».proof.Proof.BgSteps

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-- What a device holds once the pieces of its arrays are set apart. -/
def Prep (c : Dev nD) : sProp 𝕄 :=
  iprop(recI m K ∗ recR ∗ levAts L lv
    ∗ (atPos ER (cell c .bar) 0 ∅ 0 ∗ cred (tallyAt (cell c .bar) () 2) ∗ dutyTok ER (cell (xn c) .bar) 0 false ∗ dutyTok ER (cell (yn c) .bar) 0 true
        ∗ barPayX m (xn c) c ∗ barPayY m (yn c) c)
    ∗ ((bigSep Finset.univ fun k : Fin 32 => payA m c k) ∗ (bigSep Finset.univ fun k : Fin 32 => dutyTok ER (cell c (.A k)) 0 false)
        ∗ (bigSep Finset.univ fun k : Fin 32 => dutyTok ER (cell (xn c) (.B k)) 0 false))
    ∗ ((bigSep Finset.univ fun k : Fin 32 => dutyTok ER (cell c (.C k)) 0 false) ∗ (bigSep Finset.univ fun k : Fin 32 => dutyTok ER (cell (yn c) (.D k)) 0 false))
    ∗ (WG (F := F) CK.B c 0 ∗ WG (F := F) CK.D c 0 ∗ (bigSep Finset.univ fun k : Fin 32 => atPos ER (cell c (.A k)) 0 ∅ 0)
        ∗ (bigSep Finset.univ fun k : Fin 32 => atPos ER (cell c (.C k)) 0 ∅ 0))
    ∗ (atPos ER (cell c .E) 0 ∅ 0 ∗ dutyTok ER (cell c .E) 0 false
        ∗ ((xM : Memref sig .tc .hbm S4096x1024 .f32).view.loc (c : Thread nD τ) ↦[(xM : Memref sig .tc .hbm S4096x1024 .f32).view.set]{fullShare.left} X m c)
        ∗ ((o3 c).view.loc (c : Thread nD τ) ↦[(o3 c).view.set]{fullShare} V0 m c))
    ∗ ow c (O₀ c))

/-- What it holds at the end. -/
def Done (c : Dev nD) : sProp 𝕄 :=
  iprop(WS m CK.A c 32 ∗ WS m CK.C c 32 ∗ WS m CK.D c 32 ∗ WG (F := F) CK.B c 32 ∗ semVal (cell c .E) 0 ∗ payE m c ∗ ow c 0)

/-- The rows of the own block no direct transfer reads, at the share the transfers were lent from. -/
def xRest (c : Dev nD) : sProp 𝕄 :=
  ((c : Thread nD τ).loc main_arg0) ↦[Finset.univ \ (Finset.univ.biUnion fun k : Fin 32 => (xSl c k).view.set)]{fullShare.right} X m c
/-- The elements of the result array outside every piece (there are none; the protocol does not need to know). -/
def outRest (c : Dev nD) : sProp 𝕄 :=
  ((c : Thread nD τ).loc main_v1) ↦[((Finset.univ \ (o3 c).view.set) \ (Finset.univ.biUnion fun k : Fin 32 => (o1 (xn c) k).view.set))
      \ (Finset.univ.biUnion fun k : Fin 32 => (o4 (yn c) k).view.set)]{fullShare} V0 m c

end Cert.Kernel.AG

end
-- ==== Proof.BgBody.lean ====
/-
  One device's whole run: the handshake, the 32 direct transfers, the local copy, 32 times the wait for a chunk's
  arrival and its relay, the closing waits — from what the device holds when the pieces of its two arrays have been
  set apart, to every piece filled and every own semaphore closed.
-/
import proofs.«900087_g7700000000000088_dist_ag_v7x_xy2x2_x_m4096_n1024_f32_1_alg».proof.Proof.BgState
import proofs.«900087_g7700000000000088_dist_ag_v7x_xy2x2_x_m4096_n1024_f32_1_alg».proof.Proof.Gen.Kernel.Skeleton

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The devices the kernel addresses -/

omit [FloatOps F] in
theorem dev1_eq (c : Dev nD) : (⟨k0_dev1 c, Gen.k0_dev1_lt c⟩ : Dev nD) = xn c := Fin.ext (Gen.k0_dev1_eq c)
omit [FloatOps F] in
theorem dev2_eq (c : Dev nD) : (⟨k0_dev2 c, Gen.k0_dev2_lt c⟩ : Dev nD) = yn c := Fin.ext (Gen.k0_dev2_eq c)
omit [FloatOps F] in
theorem dev3_eq (c : Dev nD) : (⟨k0_dev3 c, Gen.k0_dev3_lt c⟩ : Dev nD) = xn c := Fin.ext (Gen.k0_dev3_eq c)
omit [FloatOps F] in
theorem dev4_eq (c : Dev nD) : (⟨k0_dev4 c, Gen.k0_dev4_lt c⟩ : Dev nD) = xn c := Fin.ext (Gen.k0_dev4_eq c)
omit [FloatOps F] in
theorem dev5_eq (c : Dev nD) : (⟨k0_dev5 c, Gen.k0_dev5_lt c⟩ : Dev nD) = xn c := Fin.ext (Gen.k0_dev5_eq c)
omit [FloatOps F] in
theorem dev6_eq (c : Dev nD) : (⟨k0_dev6 c, Gen.k0_dev6_lt c⟩ : Dev nD) = xn c := Fin.ext (Gen.k0_dev6_eq c)
omit [FloatOps F] in
theorem dev7_eq (c : Dev nD) : (⟨k0_dev7 c, Gen.k0_dev7_lt c⟩ : Dev nD) = xn c := Fin.ext (Gen.k0_dev7_eq c)
omit [FloatOps F] in
theorem dev8_eq (c : Dev nD) : (⟨k0_dev8 c, Gen.k0_dev8_lt c⟩ : Dev nD) = xn c := Fin.ext (Gen.k0_dev8_eq c)
omit [FloatOps F] in
theorem dev9_eq (c : Dev nD) : (⟨k0_dev9 c, Gen.k0_dev9_lt c⟩ : Dev nD) = xn c := Fin.ext (Gen.k0_dev9_eq c)
omit [FloatOps F] in
theorem dev10_eq (c : Dev nD) : (⟨k0_dev10 c, Gen.k0_dev10_lt c⟩ : Dev nD) = xn c := Fin.ext (Gen.k0_dev10_eq c)
omit [FloatOps F] in
theorem dev11_eq (c : Dev nD) : (⟨k0_dev11 c, Gen.k0_dev11_lt c⟩ : Dev nD) = xn c := Fin.ext (Gen.k0_dev11_eq c)
omit [FloatOps F] in
theorem dev12_eq (c : Dev nD) : (⟨k0_dev12 c, Gen.k0_dev12_lt c⟩ : Dev nD) = xn c := Fin.ext (Gen.k0_dev12_eq c)
omit [FloatOps F] in
theorem dev13_eq (c : Dev nD) : (⟨k0_dev13 c, Gen.k0_dev13_lt c⟩ : Dev nD) = xn c := Fin.ext (Gen.k0_dev13_eq c)
omit [FloatOps F] in
theorem dev14_eq (c : Dev nD) : (⟨k0_dev14 c, Gen.k0_dev14_lt c⟩ : Dev nD) = xn c := Fin.ext (Gen.k0_dev14_eq c)
omit [FloatOps F] in
theorem dev15_eq (c : Dev nD) : (⟨k0_dev15 c, Gen.k0_dev15_lt c⟩ : Dev nD) = xn c := Fin.ext (Gen.k0_dev15_eq c)
omit [FloatOps F] in
theorem dev16_eq (c : Dev nD) : (⟨k0_dev16 c, Gen.k0_dev16_lt c⟩ : Dev nD) = xn c := Fin.ext (Gen.k0_dev16_eq c)
omit [FloatOps F] in
theorem dev17_eq (c : Dev nD) : (⟨k0_dev17 c, Gen.k0_dev17_lt c⟩ : Dev nD) = xn c := Fin.ext (Gen.k0_dev17_eq c)
omit [FloatOps F] in
theorem dev18_eq (c : Dev nD) : (⟨k0_dev18 c, Gen.k0_dev18_lt c⟩ : Dev nD) = xn c := Fin.ext (Gen.k0_dev18_eq c)
omit [FloatOps F] in
theorem dev19_eq (c : Dev nD) : (⟨k0_dev19 c, Gen.k0_dev19_lt c⟩ : Dev nD) = xn c := Fin.ext (Gen.k0_dev19_eq c)
omit [FloatOps F] in
theorem dev20_eq (c : Dev nD) : (⟨k0_dev20 c, Gen.k0_dev20_lt c⟩ : Dev nD) = xn c := Fin.ext (Gen.k0_dev20_eq c)
omit [FloatOps F] in
theorem dev21_eq (c : Dev nD) : (⟨k0_dev21 c, Gen.k0_dev21_lt c⟩ : Dev nD) = xn c := Fin.ext (Gen.k0_dev21_eq c)
omit [FloatOps F] in
theorem dev22_eq (c : Dev nD) : (⟨k0_dev22 c, Gen.k0_dev22_lt c⟩ : Dev nD) = xn c := Fin.ext (Gen.k0_dev22_eq c)
omit [FloatOps F] in
theorem dev23_eq (c : Dev nD) : (⟨k0_dev23 c, Gen.k0_dev23_lt c⟩ : Dev nD) = xn c := Fin.ext (Gen.k0_dev23_eq c)
omit [FloatOps F] in
theorem dev24_eq (c : Dev nD) : (⟨k0_dev24 c, Gen.k0_dev24_lt c⟩ : Dev nD) = xn c := Fin.ext (Gen.k0_dev24_eq c)
omit [FloatOps F] in
theorem dev25_eq (c : Dev nD) : (⟨k0_dev25 c, Gen.k0_dev25_lt c⟩ : Dev nD) = xn c := Fin.ext (Gen.k0_dev25_eq c)
omit [FloatOps F] in
theorem dev26_eq (c : Dev nD) : (⟨k0_dev26 c, Gen.k0_dev26_lt c⟩ : Dev nD) = xn c := Fin.ext (Gen.k0_dev26_eq c)
omit [FloatOps F] in
theorem dev27_eq (c : Dev nD) : (⟨k0_dev27 c, Gen.k0_dev27_lt c⟩ : Dev nD) = xn c := Fin.ext (Gen.k0_dev27_eq c)
omit [FloatOps F] in
theorem dev28_eq (c : Dev nD) : (⟨k0_dev28 c, Gen.k0_dev28_lt c⟩ : Dev nD) = xn c := Fin.ext (Gen.k0_dev28_eq c)
omit [FloatOps F] in
theorem dev29_eq (c : Dev nD) : (⟨k0_dev29 c, Gen.k0_dev29_lt c⟩ : Dev nD) = xn c := Fin.ext (Gen.k0_dev29_eq c)
omit [FloatOps F] in
theorem dev30_eq (c : Dev nD) : (⟨k0_dev30 c, Gen.k0_dev30_lt c⟩ : Dev nD) = xn c := Fin.ext (Gen.k0_dev30_eq c)
omit [FloatOps F] in
theorem dev31_eq (c : Dev nD) : (⟨k0_dev31 c, Gen.k0_dev31_lt c⟩ : Dev nD) = xn c := Fin.ext (Gen.k0_dev31_eq c)
omit [FloatOps F] in
theorem dev32_eq (c : Dev nD) : (⟨k0_dev32 c, Gen.k0_dev32_lt c⟩ : Dev nD) = xn c := Fin.ext (Gen.k0_dev32_eq c)
omit [FloatOps F] in
theorem dev33_eq (c : Dev nD) : (⟨k0_dev33 c, Gen.k0_dev33_lt c⟩ : Dev nD) = xn c := Fin.ext (Gen.k0_dev33_eq c)
omit [FloatOps F] in
theorem dev34_eq (c : Dev nD) : (⟨k0_dev34 c, Gen.k0_dev34_lt c⟩ : Dev nD) = xn c := Fin.ext (Gen.k0_dev34_eq c)
omit [FloatOps F] in
theorem dev35_eq (c : Dev nD) : (⟨k0_dev35 c, Gen.k0_dev35_lt c⟩ : Dev nD) = yn c := Fin.ext (Gen.k0_dev35_eq c)
omit [FloatOps F] in
theorem dev36_eq (c : Dev nD) : (⟨k0_dev36 c, Gen.k0_dev36_lt c⟩ : Dev nD) = yn c := Fin.ext (Gen.k0_dev36_eq c)
omit [FloatOps F] in
theorem dev37_eq (c : Dev nD) : (⟨k0_dev37 c, Gen.k0_dev37_lt c⟩ : Dev nD) = yn c := Fin.ext (Gen.k0_dev37_eq c)
omit [FloatOps F] in
theorem dev38_eq (c : Dev nD) : (⟨k0_dev38 c, Gen.k0_dev38_lt c⟩ : Dev nD) = yn c := Fin.ext (Gen.k0_dev38_eq c)
omit [FloatOps F] in
theorem dev39_eq (c : Dev nD) : (⟨k0_dev39 c, Gen.k0_dev39_lt c⟩ : Dev nD) = yn c := Fin.ext (Gen.k0_dev39_eq c)
omit [FloatOps F] in
theorem dev40_eq (c : Dev nD) : (⟨k0_dev40 c, Gen.k0_dev40_lt c⟩ : Dev nD) = yn c := Fin.ext (Gen.k0_dev40_eq c)
omit [FloatOps F] in
theorem dev41_eq (c : Dev nD) : (⟨k0_dev41 c, Gen.k0_dev41_lt c⟩ : Dev nD) = yn c := Fin.ext (Gen.k0_dev41_eq c)
omit [FloatOps F] in
theorem dev42_eq (c : Dev nD) : (⟨k0_dev42 c, Gen.k0_dev42_lt c⟩ : Dev nD) = yn c := Fin.ext (Gen.k0_dev42_eq c)
omit [FloatOps F] in
theorem dev43_eq (c : Dev nD) : (⟨k0_dev43 c, Gen.k0_dev43_lt c⟩ : Dev nD) = yn c := Fin.ext (Gen.k0_dev43_eq c)
omit [FloatOps F] in
theorem dev44_eq (c : Dev nD) : (⟨k0_dev44 c, Gen.k0_dev44_lt c⟩ : Dev nD) = yn c := Fin.ext (Gen.k0_dev44_eq c)
omit [FloatOps F] in
theorem dev45_eq (c : Dev nD) : (⟨k0_dev45 c, Gen.k0_dev45_lt c⟩ : Dev nD) = yn c := Fin.ext (Gen.k0_dev45_eq c)
omit [FloatOps F] in
theorem dev46_eq (c : Dev nD) : (⟨k0_dev46 c, Gen.k0_dev46_lt c⟩ : Dev nD) = yn c := Fin.ext (Gen.k0_dev46_eq c)
omit [FloatOps F] in
theorem dev47_eq (c : Dev nD) : (⟨k0_dev47 c, Gen.k0_dev47_lt c⟩ : Dev nD) = yn c := Fin.ext (Gen.k0_dev47_eq c)
omit [FloatOps F] in
theorem dev48_eq (c : Dev nD) : (⟨k0_dev48 c, Gen.k0_dev48_lt c⟩ : Dev nD) = yn c := Fin.ext (Gen.k0_dev48_eq c)
omit [FloatOps F] in
theorem dev49_eq (c : Dev nD) : (⟨k0_dev49 c, Gen.k0_dev49_lt c⟩ : Dev nD) = yn c := Fin.ext (Gen.k0_dev49_eq c)
omit [FloatOps F] in
theorem dev50_eq (c : Dev nD) : (⟨k0_dev50 c, Gen.k0_dev50_lt c⟩ : Dev nD) = yn c := Fin.ext (Gen.k0_dev50_eq c)
omit [FloatOps F] in
theorem dev51_eq (c : Dev nD) : (⟨k0_dev51 c, Gen.k0_dev51_lt c⟩ : Dev nD) = yn c := Fin.ext (Gen.k0_dev51_eq c)
omit [FloatOps F] in
theorem dev52_eq (c : Dev nD) : (⟨k0_dev52 c, Gen.k0_dev52_lt c⟩ : Dev nD) = yn c := Fin.ext (Gen.k0_dev52_eq c)
omit [FloatOps F] in
theorem dev53_eq (c : Dev nD) : (⟨k0_dev53 c, Gen.k0_dev53_lt c⟩ : Dev nD) = yn c := Fin.ext (Gen.k0_dev53_eq c)
omit [FloatOps F] in
theorem dev54_eq (c : Dev nD) : (⟨k0_dev54 c, Gen.k0_dev54_lt c⟩ : Dev nD) = yn c := Fin.ext (Gen.k0_dev54_eq c)
omit [FloatOps F] in
theorem dev55_eq (c : Dev nD) : (⟨k0_dev55 c, Gen.k0_dev55_lt c⟩ : Dev nD) = yn c := Fin.ext (Gen.k0_dev55_eq c)
omit [FloatOps F] in
theorem dev56_eq (c : Dev nD) : (⟨k0_dev56 c, Gen.k0_dev56_lt c⟩ : Dev nD) = yn c := Fin.ext (Gen.k0_dev56_eq c)
omit [FloatOps F] in
theorem dev57_eq (c : Dev nD) : (⟨k0_dev57 c, Gen.k0_dev57_lt c⟩ : Dev nD) = yn c := Fin.ext (Gen.k0_dev57_eq c)
omit [FloatOps F] in
theorem dev58_eq (c : Dev nD) : (⟨k0_dev58 c, Gen.k0_dev58_lt c⟩ : Dev nD) = yn c := Fin.ext (Gen.k0_dev58_eq c)
omit [FloatOps F] in
theorem dev59_eq (c : Dev nD) : (⟨k0_dev59 c, Gen.k0_dev59_lt c⟩ : Dev nD) = yn c := Fin.ext (Gen.k0_dev59_eq c)
omit [FloatOps F] in
theorem dev60_eq (c : Dev nD) : (⟨k0_dev60 c, Gen.k0_dev60_lt c⟩ : Dev nD) = yn c := Fin.ext (Gen.k0_dev60_eq c)
omit [FloatOps F] in
theorem dev61_eq (c : Dev nD) : (⟨k0_dev61 c, Gen.k0_dev61_lt c⟩ : Dev nD) = yn c := Fin.ext (Gen.k0_dev61_eq c)
omit [FloatOps F] in
theorem dev62_eq (c : Dev nD) : (⟨k0_dev62 c, Gen.k0_dev62_lt c⟩ : Dev nD) = yn c := Fin.ext (Gen.k0_dev62_eq c)
omit [FloatOps F] in
theorem dev63_eq (c : Dev nD) : (⟨k0_dev63 c, Gen.k0_dev63_lt c⟩ : Dev nD) = yn c := Fin.ext (Gen.k0_dev63_eq c)
omit [FloatOps F] in
theorem dev64_eq (c : Dev nD) : (⟨k0_dev64 c, Gen.k0_dev64_lt c⟩ : Dev nD) = yn c := Fin.ext (Gen.k0_dev64_eq c)
omit [FloatOps F] in
theorem dev65_eq (c : Dev nD) : (⟨k0_dev65 c, Gen.k0_dev65_lt c⟩ : Dev nD) = yn c := Fin.ext (Gen.k0_dev65_eq c)
omit [FloatOps F] in
theorem dev66_eq (c : Dev nD) : (⟨k0_dev66 c, Gen.k0_dev66_lt c⟩ : Dev nD) = yn c := Fin.ext (Gen.k0_dev66_eq c)

variable (m : (ℓ : Loc nD τ sig) → Buf (Elt F) ℓ) (K : Dev nD × CK → ℕ)

omit [FloatOps F] in
theorem S1_intro (c : Dev nD) :
    iprop((bigSep Finset.univ fun k : Fin 32 => payA m c k) ∗ barPayX m c (xn c) ∗ (bigSep Finset.univ fun k : Fin 32 => dutyTok ER (cell c (.A k)) 0 false)
        ∗ (bigSep Finset.univ fun k : Fin 32 => dutyTok ER (cell (xn c) (.B k)) 0 false) ∗ ow c (O₂ c))
      ⊢ S1 m c 0 (oweD c 0) := by
  unfold S1 R1 R1' barPayX O₂
  rw [Sfrom_zero, Tbelow_zero, bigSep_empty, bigSep_sep', bigSep_sep', bigSep_sep']
  iintro ⟨H1, H2, H3, H4, HO⟩
  isplitl [H1 H2 H3 H4]
  · isplitl [H1]; · iexact H1
    isplitl [H2]; · iexact H2
    isplitl [H3]; · iexact H3
    iexact H4
  isplitr; · iempintro
  iexact HO

omit [FloatOps F] in
theorem S1_elim (c : Dev nD) (O : CellTallies nD τ sig Unit) :
    S1 m c 32 O ⊢ iprop((bigSep Finset.univ fun k : Fin 32 => cred (tallyAt (cell c (.A k)) () N)) ∗ ow c O) := by
  unfold S1 R1'
  rw [Sfrom_32, Tbelow_32, bigSep_empty, oweB_32, add_zero]
  iintro ⟨-, HT, HO⟩
  isplitl [HT]; · iexact HT
  iexact HO

omit [FloatOps F] in
theorem S2_intro (c : Dev nD) :
    iprop(barPayY m c (yn c) ∗ (bigSep Finset.univ fun k : Fin 32 => dutyTok ER (cell c (.C k)) 0 false)
        ∗ (bigSep Finset.univ fun k : Fin 32 => dutyTok ER (cell (yn c) (.D k)) 0 false) ∗ ow c (oweD c 0))
      ⊢ S2 m c 0 := by
  unfold S2 R2 R2' barPayY
  rw [Sfrom_zero, Tbelow_zero, bigSep_empty, bigSep_sep', bigSep_sep']
  iintro ⟨H1, H2, H3, HO⟩
  isplitl [H1 H2 H3]
  · isplitl [H1]; · iexact H1
    isplitl [H2]; · iexact H2
    iexact H3
  isplitr; · iempintro
  iexact HO

omit [FloatOps F] in
theorem S2_elim (c : Dev nD) :
    S2 m c 32 ⊢ iprop((bigSep Finset.univ fun k : Fin 32 => cred (tallyAt (cell c (.C k)) () N)) ∗ ow c 0) := by
  unfold S2 R2'
  rw [Sfrom_32, Tbelow_32, bigSep_empty, oweD_32]
  iintro ⟨-, HT, HO⟩
  isplitl [HT]; · iexact HT
  iexact HO

omit [FloatOps F] in
/-- Positions and credits of one kind of cell, none waited for yet. -/
theorem WS_intro (kf : Fin 32 → CK) (c : Dev nD) :
    iprop((bigSep Finset.univ fun k : Fin 32 => atPos ER (cell c (kf k)) 0 ∅ 0) ∗ (bigSep Finset.univ fun k : Fin 32 => cred (tallyAt (cell c (kf k)) () N)))
      ⊢ WS m kf c 0 := by
  unfold WS WG
  rw [Sfrom_zero, Tbelow_zero, bigSep_empty, bigSep_empty, bigSep_sep']
  iintro ⟨H1, H2⟩
  isplitl [H1 H2]
  · isplitl [H1 H2]
    · isplitl [H1]; · iexact H1
      iexact H2
    iempintro
  iempintro

omit [FloatOps F] in
theorem WS_of_WG (kf : Fin 32 → CK) (c : Dev nD) : WG (F := F) kf c 0 ⊢ WS m kf c 0 := by
  unfold WS
  rw [Tbelow_zero, bigSep_empty]
  iintro H
  isplitl [H]; · iexact H
  iempintro

/-! ## The handshake -/

/-- One barrier signal: the duty `d` of the neighbour `dst`'s barrier cell paid, with its payload. -/
theorem signal_bar (c dst : Dev nD) (d : Bool) (s : Sem sig) (hs : semOf .bar = .reg s) (n1 : ℕ) (h1 : n1 = 1) (O : CellTallies nD τ sig Unit)
    {α : Type} {Q : α → sProp 𝕄} {kk : PUnit → Prog (TpuEff nD τ sig (Elt F) Λ₀ .tc) α} :
    iprop(recI m K ∗ recR ∗ dutyTok ER (cell dst .bar) 0 d ∗ (sched m).payload (cell dst .bar) 0 d ∗ ow c (O + tallyAt (cell dst .bar) () 1))
      ⊢ iprop((ow c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (dst : Thread nD τ) s n1) kk) Q) := by
  subst h1
  have hcell : cell dst .bar = ((dst : Thread nD τ), SemLoc.reg s) := by show ((dst : Thread nD τ), semOf .bar) = _; rw [hs]
  have hinv : recI m K ⊢ cellInv ER (sched m) (K (dst, .bar)) ((dst : Thread nD τ), SemLoc.reg s) := hcell ▸ inv_at m K dst .bar
  have hreach : (recR : sProp 𝕄) ⊢ reached ER ((dst : Thread nD τ), SemLoc.reg s) 0 := hcell ▸ reached_at (F := F) dst .bar
  have hdut : d ∈ (sched m).duties ((dst : Thread nD τ), SemLoc.reg s) 0 := by rw [← hcell, duties_bar]; exact Finset.mem_univ _
  have hamt : (sched m).amount ((dst : Thread nD τ), SemLoc.reg s) 0 d = 1 := by rw [← hcell]; exact amount_bar m dst d
  rw [hcell]
  unfold ow
  iintro ⟨#HI, #HR, Ht, Hp, ⟨%W, HO⟩⟩ Hk
  iapply (Rounds.wp_signal 𝒱₀ ER (sched m) (c : Thread nD τ) none (dst := (dst : Thread nD τ)) (κ := K (dst, .bar))
      (d := d) hdut hamt () O rfl) $$ [HO Ht Hp]
  · isplitr; · iapply hinv; iexact HI
    isplitl [HO]; · iexact HO
    isplitl [Ht]; · iexact Ht
    isplitl [Hp]; · iexact Hp
    iapply hreach; iexact HR
  iintro HO
  iapply Hk
  iexists W; iexact HO

/-- The wait for both neighbours' signals: what they hand over. -/
theorem wait_bar (c : Dev nD) (s : Sem sig) (hs : semOf .bar = .reg s) (n2 : ℕ) (h2 : n2 = 2) (O : CellTallies nD τ sig Unit)
    {α : Type} {Q : α → sProp 𝕄} {kk : PUnit → Prog (TpuEff nD τ sig (Elt F) Λ₀ .tc) α} :
    iprop(recI m K ∗ atPos ER (cell c .bar) 0 ∅ 0 ∗ cred (tallyAt (cell c .bar) () 2) ∗ ow c O ∗ MayWait (c : Thread nD τ) (semOf .bar) () O)
      ⊢ iprop(((barPayX m c (xn c) ∗ barPayY m c (yn c) ∗ ow c O)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait s n2) kk) Q) := by
  subst h2
  have hcell : cell c .bar = ((c : Thread nD τ), SemLoc.reg s) := by show ((c : Thread nD τ), semOf .bar) = _; rw [hs]
  have hinv : recI m K ⊢ cellInv ER (sched m) (K (c, .bar)) ((c : Thread nD τ), SemLoc.reg s) := hcell ▸ inv_at m K c .bar
  have hrest := rest_bar m c
  have hexp := expect_bar m c
  rw [hcell] at hrest hexp
  rw [hcell, hs]
  unfold ow
  iintro ⟨#HI, Hat, Hc, ⟨%W, HO⟩, Hmay⟩ Hk
  iapply (Rounds.wp_wait_rest_token 𝒱₀ ER (sched m) (c : Thread nD τ) none (κ := K (c, .bar))
      (wpE_semWait_eq 𝒱₀ (c : Thread nD τ) none Set.univ) (Set.mem_univ _) () (O := O) (W := W) (R := 0) (m := 0) (T := ∅)
      (by rw [hexp])) $$ [Hc HO Hat Hmay]
  · isplitr; · iapply hinv; iexact HI
    isplitl [Hc]; · iexact Hc
    isplitl [HO]; · iexact HO
    isplitl [Hmay]; · iexact Hmay
    iexact Hat
  iintro ⟨HO, -, -, Hpay⟩
  ihave Hp := (Entails.of_eq hrest) $$ Hpay
  icases Hp with ⟨Hd1, Hd2⟩
  iapply Hk
  isplitl [Hd1]; · iexact Hd1
  isplitl [Hd2]; · iexact Hd2
  iexists _; iexact HO

set_option hygiene false in
local macro "p1step " n:num e:ident : tactic =>
  `(tactic| (iapply (step_p1 m K c _ ($e c) $n (by decide) (oweD c 0)) $$ [H1]
             · (isplitr; · iexact HI); (isplitr; · iexact HR); iexact H1
             iintro H1))
set_option hygiene false in
local macro "p2step " n:num e:ident : tactic =>
  `(tactic| (iapply (step_waitB m K c $n (by decide)) $$ [HB H2]
             · (isplitr; · iexact HI); (isplitr; · iexact Hlev); (isplitl [HB]; · iexact HB); iexact H2
             iintro ⟨HB, Hp, H2⟩
             iapply (step_p2 m K c _ ($e c) $n (by decide)) $$ [Hp H2]
             · (isplitr; · iexact HI); (isplitr; · iexact HR); (isplitl [Hp]; · iexact Hp); iexact H2
             iintro H2))
set_option hygiene false in
local macro "p3step " n:num : tactic =>
  `(tactic| (iapply (step_waitS m K CK.A (fun _ h => CK.noConfusion h) (fun _ h => CK.noConfusion h) 0 _ (fun _ => rfl) c $n (by decide)) $$ [HA HO]
             · (isplitr; · iexact HI); (isplitl [HA]; · iexact HA); iexact HO
             iintro ⟨HA, HO⟩
             iapply (step_waitS m K CK.C (fun _ h => CK.noConfusion h) (fun _ h => CK.noConfusion h) 64 _ (fun _ => rfl) c $n (by decide)) $$ [HC HO]
             · (isplitr; · iexact HI); (isplitl [HC]; · iexact HC); iexact HO
             iintro ⟨HC, HO⟩
             iapply (step_waitS m K CK.D (fun _ h => CK.noConfusion h) (fun _ h => CK.noConfusion h) 96 _ (fun _ => rfl) c $n (by decide)) $$ [HD HO]
             · (isplitr; · iexact HI); (isplitl [HD]; · iexact HD); iexact HO
             iintro ⟨HD, HO⟩))

set_option maxHeartbeats 3000000 in
/-- The body, one rule per operation in program order. -/
theorem body_steps (c : Dev nD) (Kt : PUnit → sProp 𝕄) :
    iprop(Prep m K c ∗ (Done m c -∗ Kt ⟨⟩))
      ⊢ wp frame (wpE (defs₀ (F := F)) 𝒱₀ (c : Thread nD τ) none) Set.univ
          (cc0_body (Memref.whole main_arg0) (Memref.isWhole_whole _) (Memref.whole main_v1) (Memref.isWhole_whole _)
            cc0_scratch0 cc0_scratch1 cc0_scratch2 cc0_scratch3 cc0_scratch4) Kt := by
  simp only [cc0_body_eq_skeleton]; unfold cc0_body_skel
  simp only [k0_part57_eq_skeleton]; unfold k0_part57_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel
  simp only [semSignalWord, semWaitWord, Prog.lift, Prog.bind_op, Prog.bind_ret, Prog.pure_eq_ret, wp_deviceId]
  simp only [dev1_eq c, dev2_eq c]
  unfold Prep
  iintro ⟨⟨#HI, #HR, #Hlev, ⟨HatBar, HcBar, HtBX, HtBY, HoutX, HoutY⟩, ⟨HpA, HtA, HtB⟩, ⟨HtC, HtD⟩, ⟨HB, HD0, HatA, HatC⟩, ⟨HatE, HtE, HxL, Ho3⟩, HO⟩, Hk⟩
  -- the first signal, to the neighbour along the first axis: with it the rows of the own result array that neighbour fills
  iapply (signal_bar m K c (xn c) false _ rfl _ rfl (O₁ c)) $$ [HO HtBX HoutX]
  · isplitr; · iexact HI
    isplitr; · iexact HR
    isplitl [HtBX]; · iexact HtBX
    isplitl [HoutX]
    · ihave Hx := (Entails.of_eq (show barPayX m (xn c) c = (sched m).payload (cell (xn c) .bar) 0 false from by rw [payload_bar_false, xn_xn])) $$ HoutX
      iexact Hx
    iexact HO
  iintro HO
  -- the second, to the neighbour along the second axis
  iapply (signal_bar m K c (yn c) true _ rfl _ rfl (O₂ c)) $$ [HO HtBY HoutY]
  · isplitr; · iexact HI
    isplitr; · iexact HR
    isplitl [HtBY]; · iexact HtBY
    isplitl [HoutY]
    · ihave Hy := (Entails.of_eq (show barPayY m (yn c) c = (sched m).payload (cell (yn c) .bar) 0 true from by rw [payload_bar_true, yn_yn])) $$ HoutY
      iexact Hy
    iexact HO
  iintro HO
  -- the wait for both neighbours' signals: the rows of their result arrays this device fills
  iapply (wait_bar m K c _ rfl _ rfl (O₂ c)) $$ [HcBar HO HatBar]
  · isplitr; · iexact HI
    isplitl [HatBar]; · iexact HatBar
    isplitl [HcBar]; · iexact HcBar
    isplitl [HO]; · iexact HO
    iapply (mayWait_bar (F := F) c); iexact Hlev
  iintro ⟨Hd1, Hd2, HO⟩
  ihave H1 := (S1_intro m c) $$ [HpA Hd1 HtA HtB HO]
  · isplitl [HpA]; · iexact HpA
    isplitl [Hd1]; · iexact Hd1
    isplitl [HtA]; · iexact HtA
    isplitl [HtB]; · iexact HtB
    iexact HO
  -- the 32 direct transfers
  p1step 0 dev3_eq
  p1step 1 dev4_eq
  p1step 2 dev5_eq
  p1step 3 dev6_eq
  p1step 4 dev7_eq
  p1step 5 dev8_eq
  p1step 6 dev9_eq
  p1step 7 dev10_eq
  p1step 8 dev11_eq
  p1step 9 dev12_eq
  p1step 10 dev13_eq
  p1step 11 dev14_eq
  p1step 12 dev15_eq
  p1step 13 dev16_eq
  p1step 14 dev17_eq
  p1step 15 dev18_eq
  p1step 16 dev19_eq
  p1step 17 dev20_eq
  p1step 18 dev21_eq
  p1step 19 dev22_eq
  p1step 20 dev23_eq
  p1step 21 dev24_eq
  p1step 22 dev25_eq
  p1step 23 dev26_eq
  p1step 24 dev27_eq
  p1step 25 dev28_eq
  p1step 26 dev29_eq
  p1step 27 dev30_eq
  p1step 28 dev31_eq
  p1step 29 dev32_eq
  p1step 30 dev33_eq
  p1step 31 dev34_eq
  ihave H1' := (S1_elim m c (oweD c 0)) $$ H1
  icases H1' with ⟨HcA, HO⟩
  -- the local copy of the own block
  iapply (Rounds.wp_copy_pointsTo 𝒱₀ ER (sched m) (c : Thread nD τ) none (κ := K (c, .E)) (r := 0) (d := false)
      (src := xM) (dst := o3 c) (q := fullShare.left) (fs := X m c) (fd := V0 m c)
      (by rw [duties_dma m c .E (fun h => CK.noConfusion h)]; exact Finset.mem_singleton_self _) () NE rfl (amount_E m c false)
      (by rw [payload_E]; unfold payE W3; exact BI.Entails.refl _)) $$ [HxL Ho3 HtE]
  · isplitr; · iapply (inv_at m K c .E); iexact HI
    isplitl [HxL]; · iexact HxL
    isplitl [Ho3]; · iexact Ho3
    isplitl [HtE]; · iexact HtE
    iapply (reached_at (F := F) c .E); iexact HR
  iintro HcE
  ihave H2 := (S2_intro m c) $$ [Hd2 HtC HtD HO]
  · isplitl [Hd2]; · iexact Hd2
    isplitl [HtC]; · iexact HtC
    isplitl [HtD]; · iexact HtD
    iexact HO
  -- 32 times: the wait for a chunk's arrival, then its relay
  p2step 0 dev35_eq
  p2step 1 dev36_eq
  p2step 2 dev37_eq
  p2step 3 dev38_eq
  p2step 4 dev39_eq
  p2step 5 dev40_eq
  p2step 6 dev41_eq
  p2step 7 dev42_eq
  p2step 8 dev43_eq
  p2step 9 dev44_eq
  p2step 10 dev45_eq
  p2step 11 dev46_eq
  p2step 12 dev47_eq
  p2step 13 dev48_eq
  p2step 14 dev49_eq
  p2step 15 dev50_eq
  p2step 16 dev51_eq
  p2step 17 dev52_eq
  p2step 18 dev53_eq
  p2step 19 dev54_eq
  p2step 20 dev55_eq
  p2step 21 dev56_eq
  p2step 22 dev57_eq
  p2step 23 dev58_eq
  p2step 24 dev59_eq
  p2step 25 dev60_eq
  p2step 26 dev61_eq
  p2step 27 dev62_eq
  p2step 28 dev63_eq
  p2step 29 dev64_eq
  p2step 30 dev65_eq
  p2step 31 dev66_eq
  ihave H2' := (S2_elim m c) $$ H2
  icases H2' with ⟨HcC, HO⟩
  ihave HA := (WS_intro m CK.A c) $$ [HatA HcA]
  · isplitl [HatA]; · iexact HatA
    iexact HcA
  ihave HC := (WS_intro m CK.C c) $$ [HatC HcC]
  · isplitl [HatC]; · iexact HatC
    iexact HcC
  ihave HD := (WS_of_WG m CK.D c) $$ HD0
  -- the closing waits, chunk by chunk: the direct transfer gone, the relay gone, the relayed chunk arrived
  p3step 0
  p3step 1
  p3step 2
  p3step 3
  p3step 4
  p3step 5
  p3step 6
  p3step 7
  p3step 8
  p3step 9
  p3step 10
  p3step 11
  p3step 12
  p3step 13
  p3step 14
  p3step 15
  p3step 16
  p3step 17
  p3step 18
  p3step 19
  p3step 20
  p3step 21
  p3step 22
  p3step 23
  p3step 24
  p3step 25
  p3step 26
  p3step 27
  p3step 28
  p3step 29
  p3step 30
  p3step 31
  -- the local copy done
  iapply (wait_E m K c) $$ [HatE HcE HO]
  · isplitr; · iexact HI
    isplitl [HatE]; · iexact HatE
    isplitl [HcE]; · iexact HcE
    iexact HO
  iintro ⟨HzE, HpE', HO⟩
  rw [wp_ret]; imodintro
  iapply Hk
  unfold Done
  isplitl [HA]; · iexact HA
  isplitl [HC]; · iexact HC
  isplitl [HD]; · iexact HD
  isplitl [HB]; · iexact HB
  isplitl [HzE]; · iexact HzE
  isplitl [HpE']; · iexact HpE'
  iexact HO

end Cert.Kernel.AG

end
-- ==== Proof.BgCK.lean ====
/-
  The cells of one device, listed: the barrier, then the transfer cells A, B, C, D chunk by chunk, then E. A
  separating conjunction over all cells is the conjunction of the barrier's part, one per family of chunks, and E's.
-/
import proofs.«900087_g7700000000000088_dist_ag_v7x_xy2x2_x_m4096_n1024_f32_1_alg».proof.Proof.BgProto

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The transfer cells: A, B, C, D by chunk, then E. -/
abbrev DK : Type := Fin 32 ⊕ Fin 32 ⊕ Fin 32 ⊕ Fin 32 ⊕ Unit

def dkCK : DK → CK
  | .inl k => .A k
  | .inr (.inl k) => .B k
  | .inr (.inr (.inl k)) => .C k
  | .inr (.inr (.inr (.inl k))) => .D k
  | .inr (.inr (.inr (.inr _))) => .E

/-- Every cell is the barrier or a transfer cell. -/
def ckSum : Unit ⊕ DK ≃ CK where
  toFun | .inl _ => .bar | .inr d => dkCK d
  invFun
    | .bar => .inl ()
    | .A k => .inr (.inl k)
    | .B k => .inr (.inr (.inl k))
    | .C k => .inr (.inr (.inr (.inl k)))
    | .D k => .inr (.inr (.inr (.inr (.inl k))))
    | .E => .inr (.inr (.inr (.inr (.inr ()))))
  left_inv := by rintro (_ | _ | _ | _ | _ | _) <;> rfl
  right_inv := by intro k; cases k <;> rfl

theorem dkCK_injective : Function.Injective dkCK := fun a b h =>
  Sum.inr.inj (ckSum.injective (show ckSum (.inr a) = ckSum (.inr b) from h))

omit [FloatOps F] in
theorem bigSep_DK (Φ : DK → sProp 𝕄) : bigSep Finset.univ Φ
    = iprop((bigSep Finset.univ fun k : Fin 32 => Φ (.inl k)) ∗ (bigSep Finset.univ fun k : Fin 32 => Φ (.inr (.inl k)))
      ∗ (bigSep Finset.univ fun k : Fin 32 => Φ (.inr (.inr (.inl k)))) ∗ (bigSep Finset.univ fun k : Fin 32 => Φ (.inr (.inr (.inr (.inl k)))))
      ∗ Φ (.inr (.inr (.inr (.inr ()))))) := by
  rw [bigSep_univ_sum, bigSep_univ_sum, bigSep_univ_sum, bigSep_univ_sum, bigSep_univ_of_subsingleton ()]; rfl

omit [FloatOps F] in
theorem bigSep_CK_DK (Φ : CK → sProp 𝕄) : bigSep Finset.univ Φ = iprop(Φ .bar ∗ bigSep Finset.univ fun d : DK => Φ (dkCK d)) := by
  rw [bigSep_univ_equiv ckSum Φ, bigSep_univ_sum, bigSep_univ_of_subsingleton ()]; rfl

omit [FloatOps F] in
/-- A conjunction over all cells, family by family. -/
theorem bigSep_CK (Φ : CK → sProp 𝕄) : bigSep Finset.univ Φ
    = iprop(Φ .bar ∗ (bigSep Finset.univ fun k : Fin 32 => Φ (.A k)) ∗ (bigSep Finset.univ fun k : Fin 32 => Φ (.B k))
      ∗ (bigSep Finset.univ fun k : Fin 32 => Φ (.C k)) ∗ (bigSep Finset.univ fun k : Fin 32 => Φ (.D k)) ∗ Φ .E) := by
  rw [bigSep_CK_DK, bigSep_DK]; rfl

end Cert.Kernel.AG

end
-- ==== Proof.BgPrep.lean ====
/-
  Setting a device's two arrays apart into the pieces its copies read and write, at the start, and joining the
  pieces at the end: the block of the input by share and by chunk, the result array into the own block's rows, the
  chunks arriving directly, the chunks arriving relayed, and what is left.
-/
import proofs.«900087_g7700000000000088_dist_ag_v7x_xy2x2_x_m4096_n1024_f32_1_alg».proof.Proof.BgState
import proofs.«900087_g7700000000000088_dist_ag_v7x_xy2x2_x_m4096_n1024_f32_1_alg».proof.Proof.BgCK
import proofs.«900087_g7700000000000088_dist_ag_v7x_xy2x2_x_m4096_n1024_f32_1_alg».proof.Proof.BgRegions

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## The input block, by share and by chunk -/

omit [FloatOps F] in
theorem x_pieces (c : Dev nD) :
    ((((c : Thread nD τ).loc main_arg0) ↦{fullShare} X m c : sProp 𝕄))
      ⊣⊢ iprop(((xM : Memref sig .tc .hbm S4096x1024 .f32).view.loc (c : Thread nD τ) ↦[(xM : Memref sig .tc .hbm S4096x1024 .f32).view.set]{fullShare.left} X m c)
          ∗ (bigSep Finset.univ fun k : Fin 32 => payA m c k) ∗ xRest m c) := by
  have hset : (xM : Memref sig .tc .hbm S4096x1024 .f32).view.set = Finset.univ := View.set_whole _
  have hbi : (((c : Thread nD τ).loc main_arg0) ↦[Finset.univ.biUnion fun k : Fin 32 => (xSl c k).view.set]{fullShare.right} X m c : sProp 𝕄)
      = bigSep Finset.univ fun k : Fin 32 => payA m c k :=
    pointsTo_biUnion (ℓ := (c : Thread nD τ).loc main_arg0) Finset.univ (fun k : Fin 32 => (xSl c k).view.set) fun k _ j _ h => xSl_disjoint c h
  have h1 : ((((c : Thread nD τ).loc main_arg0) ↦{fullShare} X m c : sProp 𝕄))
      ⊣⊢ iprop((((c : Thread nD τ).loc main_arg0) ↦{fullShare.left} X m c) ∗ (((c : Thread nD τ).loc main_arg0) ↦{fullShare.right} X m c)) :=
    pointsTo_share (PosShare.mem_left_op_right fullShare)
  have h2 : ((((c : Thread nD τ).loc main_arg0) ↦{fullShare.right} X m c : sProp 𝕄))
      ⊣⊢ iprop((((c : Thread nD τ).loc main_arg0) ↦[Finset.univ.biUnion fun k : Fin 32 => (xSl c k).view.set]{fullShare.right} X m c)
          ∗ (((c : Thread nD τ).loc main_arg0) ↦[Finset.univ \ (Finset.univ.biUnion fun k : Fin 32 => (xSl c k).view.set)]{fullShare.right} X m c)) :=
    pointsTo_split_subset (Finset.subset_univ _)
  unfold xRest
  rw [hset, ← hbi]
  constructor
  · iintro H
    ihave H' := h1.1 $$ H
    icases H' with ⟨HL, HR⟩
    ihave HR' := h2.1 $$ HR
    icases HR' with ⟨HA, HX⟩
    isplitl [HL]; · iexact HL
    isplitl [HA]; · iexact HA
    iexact HX
  · iintro ⟨HL, HA, HX⟩
    iapply h1.2
    isplitl [HL]; · iexact HL
    iapply h2.2
    isplitl [HA]; · iexact HA
    iexact HX

/-! ## The result array, by piece -/

/-- The rows of the own block; the rows of the chunks arriving directly; the rows of the chunks arriving relayed. -/
abbrev S3 (c : Dev nD) : Finset (Idx ((c : Thread nD τ).loc main_v1)) := (o3 c).view.set
abbrev U1 (c : Dev nD) : Finset (Idx ((c : Thread nD τ).loc main_v1)) := Finset.univ.biUnion fun k : Fin 32 => (o1 (xn c) k).view.set
abbrev U4 (c : Dev nD) : Finset (Idx ((c : Thread nD τ).loc main_v1)) := Finset.univ.biUnion fun k : Fin 32 => (o4 (yn c) k).view.set

theorem U1_sub (c : Dev nD) : U1 c ⊆ Finset.univ \ S3 c := fun i hi => by
  obtain ⟨k, -, hk⟩ := Finset.mem_biUnion.mp hi
  exact Finset.mem_sdiff.mpr ⟨Finset.mem_univ _, fun h3 => Finset.disjoint_left.mp (o3_disjoint_o1 c k) h3 hk⟩

theorem U4_sub (c : Dev nD) : U4 c ⊆ (Finset.univ \ S3 c) \ U1 c := fun i hi => by
  obtain ⟨j, -, hj⟩ := Finset.mem_biUnion.mp hi
  refine Finset.mem_sdiff.mpr ⟨Finset.mem_sdiff.mpr ⟨Finset.mem_univ _, fun h3 => Finset.disjoint_left.mp (o3_disjoint_o4 c j) h3 hj⟩, fun h1 => ?_⟩
  obtain ⟨k, -, hk⟩ := Finset.mem_biUnion.mp h1
  exact Finset.disjoint_left.mp (o1_disjoint_o4 c k j) hk hj

omit [FloatOps F] in
theorem out_pieces (c : Dev nD) :
    ((((c : Thread nD τ).loc main_v1) ↦{fullShare} V0 m c : sProp 𝕄))
      ⊢ iprop(((o3 c).view.loc (c : Thread nD τ) ↦[(o3 c).view.set]{fullShare} V0 m c) ∗ barPayX m (xn c) c ∗ barPayY m (yn c) c ∗ outRest m c) := by
  have hb1 : (((c : Thread nD τ).loc main_v1) ↦[U1 c]{fullShare} V0 m c : sProp 𝕄) = barPayX m (xn c) c :=
    pointsTo_biUnion (ℓ := (c : Thread nD τ).loc main_v1) Finset.univ (fun k : Fin 32 => (o1 (xn c) k).view.set) fun k _ j _ h => o1_disjoint (xn c) h
  have hb4 : (((c : Thread nD τ).loc main_v1) ↦[U4 c]{fullShare} V0 m c : sProp 𝕄) = barPayY m (yn c) c :=
    pointsTo_biUnion (ℓ := (c : Thread nD τ).loc main_v1) Finset.univ (fun k : Fin 32 => (o4 (yn c) k).view.set) fun k _ j _ h => o4_disjoint (yn c) h
  have h3 : ((((c : Thread nD τ).loc main_v1) ↦{fullShare} V0 m c : sProp 𝕄))
      ⊣⊢ iprop((((c : Thread nD τ).loc main_v1) ↦[S3 c]{fullShare} V0 m c) ∗ (((c : Thread nD τ).loc main_v1) ↦[Finset.univ \ S3 c]{fullShare} V0 m c)) :=
    pointsTo_split_subset (Finset.subset_univ _)
  have h1 : ((((c : Thread nD τ).loc main_v1) ↦[Finset.univ \ S3 c]{fullShare} V0 m c : sProp 𝕄))
      ⊣⊢ iprop((((c : Thread nD τ).loc main_v1) ↦[U1 c]{fullShare} V0 m c) ∗ (((c : Thread nD τ).loc main_v1) ↦[(Finset.univ \ S3 c) \ U1 c]{fullShare} V0 m c)) :=
    pointsTo_split_subset (U1_sub c)
  have h4 : ((((c : Thread nD τ).loc main_v1) ↦[(Finset.univ \ S3 c) \ U1 c]{fullShare} V0 m c : sProp 𝕄))
      ⊣⊢ iprop((((c : Thread nD τ).loc main_v1) ↦[U4 c]{fullShare} V0 m c) ∗ (((c : Thread nD τ).loc main_v1) ↦[((Finset.univ \ S3 c) \ U1 c) \ U4 c]{fullShare} V0 m c)) :=
    pointsTo_split_subset (U4_sub c)
  rw [← hb1, ← hb4]
  unfold outRest
  iintro H
  ihave H' := h3.1 $$ H
  icases H' with ⟨H3, HR⟩
  ihave HR' := h1.1 $$ HR
  icases HR' with ⟨H1, HR⟩
  ihave HR'' := h4.1 $$ HR
  icases HR'' with ⟨H4, HR⟩
  isplitl [H3]; · iexact H3
  isplitl [H1]; · iexact H1
  isplitl [H4]; · iexact H4
  iexact HR

omit [FloatOps F] in
/-- The pieces of the result array, filled, are the array at contents that meet the specification piece by piece. -/
theorem out_join (c : Dev nD) :
    iprop(((o3 c).view.loc (c : Thread nD τ) ↦[(o3 c).view.set]{fullShare} W3 m c)
        ∗ (bigSep Finset.univ fun k : Fin 32 => payC m c k) ∗ (bigSep Finset.univ fun k : Fin 32 => payD m c (yn c) k) ∗ outRest m c)
      ⊢ (iprop(∃ g, ⌜OutSpec m c g⌝ ∗ (((c : Thread nD τ).loc main_v1) ↦{fullShare} g)) : sProp 𝕄) := by
  have hC : (bigSep Finset.univ fun k : Fin 32 => (payC m c k : sProp 𝕄))
      = bigSep Finset.univ fun k : Fin 32 => (((c : Thread nD τ).loc main_v1) ↦[(o1 (xn c) k).view.set]{fullShare} W1 m c k) :=
    bigSep_congr fun k _ => by rw [← payB_eq_payC]; rfl
  have hD : (bigSep Finset.univ fun k : Fin 32 => (payD m c (yn c) k : sProp 𝕄))
      = bigSep Finset.univ fun k : Fin 32 => (((c : Thread nD τ).loc main_v1) ↦[(o4 (yn c) k).view.set]{fullShare} W4 m c k) :=
    bigSep_congr fun k _ => rfl
  have j1 : (bigSep Finset.univ fun k : Fin 32 => (((c : Thread nD τ).loc main_v1) ↦[(o1 (xn c) k).view.set]{fullShare} W1 m c k) : sProp 𝕄)
      ⊢ iprop(∃ g, ⌜∀ k ∈ (Finset.univ : Finset (Fin 32)), ∀ i ∈ (o1 (xn c) k).view.set, g i = W1 m c k i⌝ ∗ (((c : Thread nD τ).loc main_v1) ↦[U1 c]{fullShare} g)) :=
    pointsTo_biUnion_join (ℓ := (c : Thread nD τ).loc main_v1) Finset.univ (fun k : Fin 32 => (o1 (xn c) k).view.set) (fun k => W1 m c k) (V0 m c)
      (fun k _ j _ h => o1_disjoint (xn c) h)
  have j4 : (bigSep Finset.univ fun k : Fin 32 => (((c : Thread nD τ).loc main_v1) ↦[(o4 (yn c) k).view.set]{fullShare} W4 m c k) : sProp 𝕄)
      ⊢ iprop(∃ g, ⌜∀ k ∈ (Finset.univ : Finset (Fin 32)), ∀ i ∈ (o4 (yn c) k).view.set, g i = W4 m c k i⌝ ∗ (((c : Thread nD τ).loc main_v1) ↦[U4 c]{fullShare} g)) :=
    pointsTo_biUnion_join (ℓ := (c : Thread nD τ).loc main_v1) Finset.univ (fun k : Fin 32 => (o4 (yn c) k).view.set) (fun k => W4 m c k) (V0 m c)
      (fun k _ j _ h => o4_disjoint (yn c) h)
  rw [hC, hD]
  unfold outRest
  iintro ⟨H3, HC, HD, HR⟩
  ihave G1 := j1 $$ HC
  icases G1 with ⟨%g₁, %hg₁, H1⟩
  ihave G4 := j4 $$ HD
  icases G4 with ⟨%g₄, %hg₄, H4⟩
  ihave Ha := (pointsTo_join_subset (ℓ := (c : Thread nD τ).loc main_v1) (q := fullShare) (g := g₄) (f := V0 m c) (U4_sub c)) $$ [H4 HR]
  · isplitl [H4]; · iexact H4
    iexact HR
  ihave Hb := (pointsTo_join_subset (ℓ := (c : Thread nD τ).loc main_v1) (q := fullShare) (g := g₁) (f := (U4 c).piecewise g₄ (V0 m c)) (U1_sub c)) $$ [H1 Ha]
  · isplitl [H1]; · iexact H1
    iexact Ha
  ihave Hc := (pointsTo_join_subset (ℓ := (c : Thread nD τ).loc main_v1) (q := fullShare) (g := W3 m c) (f := (U1 c).piecewise g₁ ((U4 c).piecewise g₄ (V0 m c)))
      (Finset.subset_univ (S3 c))) $$ [H3 Hb]
  · isplitl [H3]; · iexact H3
    iexact Hb
  iexists (S3 c).piecewise (W3 m c) ((U1 c).piecewise g₁ ((U4 c).piecewise g₄ (V0 m c)))
  isplitr
  · ipureintro
    refine ⟨fun i hi => Finset.piecewise_eq_of_mem _ _ _ hi, fun k i hi => ?_, fun k i hi => ?_⟩
    · have h3 : i ∉ S3 c := fun h => Finset.disjoint_left.mp (o3_disjoint_o1 c k) h hi
      have h1 : i ∈ U1 c := Finset.mem_biUnion.mpr ⟨k, Finset.mem_univ _, hi⟩
      rw [Finset.piecewise_eq_of_notMem _ _ _ h3, Finset.piecewise_eq_of_mem _ _ _ h1]
      exact hg₁ k (Finset.mem_univ _) i hi
    · have h3 : i ∉ S3 c := fun h => Finset.disjoint_left.mp (o3_disjoint_o4 c k) h hi
      have h1 : i ∉ U1 c := fun h => by
        obtain ⟨j, -, hj⟩ := Finset.mem_biUnion.mp h
        exact Finset.disjoint_left.mp (o1_disjoint_o4 c j k) hj hi
      have h4 : i ∈ U4 c := Finset.mem_biUnion.mpr ⟨k, Finset.mem_univ _, hi⟩
      rw [Finset.piecewise_eq_of_notMem _ _ _ h3, Finset.piecewise_eq_of_notMem _ _ _ h1, Finset.piecewise_eq_of_mem _ _ _ h4]
      exact hg₄ k (Finset.mem_univ _) i hi
  · iexact Hc

/-! ## Cells of one kind, none waited for yet; all waited for -/

omit [FloatOps F] in
theorem WG_zero_intro (kf : Fin 32 → CK) (c : Dev nD) :
    iprop((bigSep Finset.univ fun k : Fin 32 => atPos ER (cell c (kf k)) 0 ∅ 0) ∗ (bigSep Finset.univ fun k : Fin 32 => cred (tallyAt (cell c (kf k)) () N)))
      ⊢ (WG (F := F) kf c 0 : sProp 𝕄) := by
  unfold WG
  rw [Sfrom_zero, Tbelow_zero, bigSep_empty, bigSep_sep']
  iintro ⟨H1, H2⟩
  isplitl
  · isplitl [H1]; · iexact H1
    iexact H2
  · iempintro

omit [FloatOps F] in
theorem WG_32_elim (kf : Fin 32 → CK) (c : Dev nD) :
    (WG (F := F) kf c 32 : sProp 𝕄) ⊢ bigSep Finset.univ fun k : Fin 32 => semVal (cell c (kf k)) 0 := by
  unfold WG
  rw [Sfrom_32, Tbelow_32, bigSep_empty]
  iintro ⟨-, H⟩
  iexact H

omit [FloatOps F] in
theorem WS_32_elim (kf : Fin 32 → CK) (c : Dev nD) :
    (WS m kf c 32 : sProp 𝕄) ⊢ iprop((bigSep Finset.univ fun k : Fin 32 => semVal (cell c (kf k)) 0)
      ∗ bigSep Finset.univ fun k : Fin 32 => (sched m).payload (cell c (kf k)) 0 false) := by
  unfold WS
  rw [Tbelow_32]
  iintro ⟨HG, HP⟩
  isplitl [HG]
  · iapply (WG_32_elim (F := F) kf c); iexact HG
  · iexact HP

/-! ## Setting apart, joining -/

omit [FloatOps F] in
theorem prep_in (c : Dev nD) :
    iprop(ghost m K c ∗ launchCreds c ∗ levAts L lv ∗ bufs0 m c ∗ ow c (O₀ c)) ⊢ iprop(Prep m K c ∗ xRest m c ∗ outRest m c) := by
  unfold ghost positions payToks launchCreds bufs0 Prep
  rw [bigSep_CK (fun k => (atPos ER (cell c k) 0 ∅ 0 : sProp 𝕄))]
  iintro ⟨⟨HI, HR, ⟨Hpbar, HpA, HpB, HpC, HpD, HpE⟩, ⟨Htx, Hty, HtE, HtA, HtB, HtC, HtD⟩⟩, ⟨Hcbar, HcB, HcD⟩, Hlev, ⟨Hx, Hv⟩, HO⟩
  ihave Hx' := (x_pieces m c).1 $$ Hx
  icases Hx' with ⟨HxL, HxA, HxR⟩
  ihave Hv' := (out_pieces m c) $$ Hv
  icases Hv' with ⟨Hv3, HvX, HvY, HvR⟩
  ihave HWB := (WG_zero_intro (F := F) CK.B c) $$ [HpB HcB]
  · isplitl [HpB]; · iexact HpB
    iexact HcB
  ihave HWD := (WG_zero_intro (F := F) CK.D c) $$ [HpD HcD]
  · isplitl [HpD]; · iexact HpD
    iexact HcD
  isplitr [HxR HvR]
  · isplitl [HI]; · iexact HI
    isplitl [HR]; · iexact HR
    isplitl [Hlev]; · iexact Hlev
    isplitl [Hpbar Hcbar Htx Hty HvX HvY]
    · isplitl [Hpbar]; · iexact Hpbar
      isplitl [Hcbar]; · iexact Hcbar
      isplitl [Htx]; · iexact Htx
      isplitl [Hty]; · iexact Hty
      isplitl [HvX]; · iexact HvX
      iexact HvY
    isplitl [HxA HtA HtB]
    · isplitl [HxA]; · iexact HxA
      isplitl [HtA]; · iexact HtA
      iexact HtB
    isplitl [HtC HtD]
    · isplitl [HtC]; · iexact HtC
      iexact HtD
    isplitl [HWB HWD HpA HpC]
    · isplitl [HWB]; · iexact HWB
      isplitl [HWD]; · iexact HWD
      isplitl [HpA]; · iexact HpA
      iexact HpC
    isplitl [HpE HtE HxL Hv3]
    · isplitl [HpE]; · iexact HpE
      isplitl [HtE]; · iexact HtE
      isplitl [HxL]; · iexact HxL
      iexact Hv3
    iexact HO
  · isplitl [HxR]; · iexact HxR
    iexact HvR

omit [FloatOps F] in
theorem prep_out (c : Dev nD) : iprop(Done m c ∗ xRest m c ∗ outRest m c) ⊢ iprop(Φ₁ m c ∗ ow c 0) := by
  have eA : (bigSep Finset.univ fun k : Fin 32 => ((sched m).payload (cell c (CK.A k)) 0 false : sProp 𝕄)) = bigSep Finset.univ fun k : Fin 32 => payA m c k :=
    bigSep_congr fun k _ => payload_A m c k false
  have eC : (bigSep Finset.univ fun k : Fin 32 => ((sched m).payload (cell c (CK.C k)) 0 false : sProp 𝕄)) = bigSep Finset.univ fun k : Fin 32 => payC m c k :=
    bigSep_congr fun k _ => payload_C m c k false
  have eD : (bigSep Finset.univ fun k : Fin 32 => ((sched m).payload (cell c (CK.D k)) 0 false : sProp 𝕄)) = bigSep Finset.univ fun k : Fin 32 => payD m c (yn c) k :=
    bigSep_congr fun k _ => payload_D m c k false
  unfold Done Φ₁ ownZeros payE
  iintro ⟨⟨HA, HC, HD, HB, HzE, ⟨Hv3, HxL⟩, HO⟩, HxR, HvR⟩
  ihave HA' := (WS_32_elim m CK.A c) $$ HA
  icases HA' with ⟨HzA, HpA⟩
  ihave HC' := (WS_32_elim m CK.C c) $$ HC
  icases HC' with ⟨HzC, HpC⟩
  ihave HD' := (WS_32_elim m CK.D c) $$ HD
  icases HD' with ⟨HzD, HpD⟩
  ihave HzB := (WG_32_elim (F := F) CK.B c) $$ HB
  ihave HpA' := (Entails.of_eq eA) $$ HpA
  ihave HpC' := (Entails.of_eq eC) $$ HpC
  ihave HpD' := (Entails.of_eq eD) $$ HpD
  ihave Hx := (x_pieces m c).2 $$ [HxL HpA' HxR]
  · isplitl [HxL]; · iexact HxL
    isplitl [HpA']; · iexact HpA'
    iexact HxR
  ihave Hg := (out_join m c) $$ [Hv3 HpC' HpD' HvR]
  · isplitl [Hv3]; · iexact Hv3
    isplitl [HpC']; · iexact HpC'
    isplitl [HpD']; · iexact HpD'
    iexact HvR
  isplitr [HO]
  · isplitl [Hg]; · iexact Hg
    isplitl [Hx]; · iexact Hx
    isplitl [HzA]; · iexact HzA
    isplitl [HzB]; · iexact HzB
    isplitl [HzC]; · iexact HzC
    isplitl [HzD]; · iexact HzD
    iexact HzE
  · iexact HO

end Cert.Kernel.AG

end
-- ==== Proof.BgLaunch.lean ====
/-
  The launch of the all-gather: the cells and duty tokens the launch element funds, every device's semaphores at
  zero turned into its cells' invariants, the tokens dealt to the devices that pay the duties, and with the body
  obligation as a hypothesis the run of @main to a final state whose result arrays hold, piece by piece, what
  the copies deliver.
-/
import proofs.«900087_g7700000000000088_dist_ag_v7x_xy2x2_x_m4096_n1024_f32_1_alg».proof.Proof.BgGhost
import proofs.«900087_g7700000000000088_dist_ag_v7x_xy2x2_x_m4096_n1024_f32_1_alg».proof.Proof.BgCK
import proofs.«900087_g7700000000000088_dist_ag_v7x_xy2x2_x_m4096_n1024_f32_1_alg».proof.Proof.Gen.Kernel.Launch
import proofs.«900087_g7700000000000088_dist_ag_v7x_xy2x2_x_m4096_n1024_f32_1_alg».proof.Proof.Gen.Kernel.Frame
import Idealize.ShloMosaic.Lib.Pipeline.Launch
import Idealize.ShloMosaic.Lib.Pipeline.Kit
import Idealize.ShloMosaic.Lib.Tactic

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores: every transfer semaphore -/

abbrev osem : DmaSem sig → SemLoc sig := fun i => .dma i

theorem dma_scoped : ∀ i : DmaSem sig, (SemLoc.dma i : SemLoc sig).isScoped .tc = true := by decide
theorem reg_unscoped : ∀ s : Sem sig, (SemLoc.reg s : SemLoc sig).isScoped .tc = false := by decide

theorem ownSemFacts : Pipeline.OwnSemFacts cfg0.spec osem :=
  ⟨dma_scoped, fun a b h => SemLoc.dma.inj h, fun k w s => w.elim0⟩

/-! ## The transfer cells are the kernel's own semaphores -/

def dkDma : DK → DmaSem sig
  | .inl k => dsem 0 (by decide) k
  | .inr (.inl k) => dsem 32 (by decide) k
  | .inr (.inr (.inl k)) => dsem 64 (by decide) k
  | .inr (.inr (.inr (.inl k))) => dsem 96 (by decide) k
  | .inr (.inr (.inr (.inr _))) => ⟨128, by decide⟩

theorem semOf_dkCK (d : DK) : semOf (dkCK d) = .dma (dkDma d) := by
  rcases d with _ | _ | _ | _ | _ <;> rfl

theorem dkDma_injective : Function.Injective dkDma := fun a b h =>
  dkCK_injective (semOf_injective (by rw [semOf_dkCK, semOf_dkCK, h]))

def dkE : DK ≃ DmaSem sig :=
  Equiv.ofBijective dkDma ((Fintype.bijective_iff_injective_and_card dkDma).mpr ⟨dkDma_injective, by
    simp only [Fintype.card_sum, Fintype.card_fin, Fintype.card_unit]⟩)

omit [FloatOps F] in
/-- The kernel's own semaphores at zero are its transfer cells at zero. -/
theorem ownSems0_DK (c : Dev nD) :
    (Pipeline.ownSems0 (Ix := Unit) (Name := ℕ) (U := UU) (Lvl := ℕ) (Val := Elt F) (τ := τ) osem c : sProp 𝕄)
      = bigSep Finset.univ fun d : DK => semVal (cell c (dkCK d)) 0 := by
  unfold Pipeline.ownSems0
  rw [bigSep_univ_equiv dkE]
  exact bigSep_congr fun d _ => by
    show (semVal (((c : Thread nD τ)), SemLoc.dma (dkDma d)) 0 : sProp 𝕄) = semVal (((c : Thread nD τ)), semOf (dkCK d)) 0
    rw [semOf_dkCK]

omit [FloatOps F] in
/-- The barrier semaphore is the launch's one unscoped semaphore. -/
theorem unscopedSems0_eq (c : Dev nD) : (unscopedSems0 c : sProp 𝕄) = semVal (cell c .bar) 0 := by
  have h : (Finset.univ.filter fun sm : SemLoc sig => ¬ sm.isScoped .tc) = {SemLoc.reg barS} := by
    ext sm
    rw [Finset.mem_filter, Finset.mem_singleton]
    cases sm with
    | reg s =>
      have hs : s = barS := Fin.ext (by have h1 := s.isLt; have h2 := (barS : Sem sig).isLt; have h3 : sig.nSem = 1 := rfl; omega)
      subst hs
      simp [reg_unscoped]
    | dma i => simp [dma_scoped i]
  unfold unscopedSems0
  rw [h, bigSep_singleton]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [ownSems0_DK, unscopedSems0_eq, bigSep_CK_DK]
  iintro ⟨H1, H2⟩
  isplitl [H2]; · iexact H2
  iexact H1

/-! ## The cells and the duty tokens the launch element funds -/

def agCells : Finset (GSem nD τ sig) := Finset.univ.map ⟨fun ck : Dev nD × CK => cell ck.1 ck.2, cell_injective⟩

/-- A device's own cells' duty tokens as minted: every cell's `false`, and its barrier's `true`. -/
abbrev tokOf (cj : Dev nD × (CK ⊕ Unit)) : GSem nD τ sig × ℕ × Bool := match cj.2 with
  | .inl k => (cell cj.1 k, 0, false)
  | .inr _ => (cell cj.1 .bar, 0, true)

theorem tokOf_injective : Function.Injective (tokOf : Dev nD × (CK ⊕ Unit) → GSem nD τ sig × ℕ × Bool) := by
  rintro ⟨c, x⟩ ⟨c', x'⟩ h
  have h1 : c = c' := by
    have := congrArg (fun y : GSem nD τ sig × ℕ × Bool => y.1.1.1) h
    rcases x with k | u <;> rcases x' with k' | u' <;> exact this
  subst h1
  rcases x with k | u <;> rcases x' with k' | u'
  · have hk : k = k' := semOf_injective (congrArg (fun y : GSem nD τ sig × ℕ × Bool => y.1.2) h)
    subst hk; rfl
  · exact absurd (congrArg (fun y : GSem nD τ sig × ℕ × Bool => y.2.2) h) (by intro h'; cases h')
  · exact absurd (congrArg (fun y : GSem nD τ sig × ℕ × Bool => y.2.2) h) (by intro h'; cases h')
  · rfl

def agToks : Finset (GSem nD τ sig × ℕ × Bool) := Finset.univ.map ⟨tokOf, tokOf_injective⟩

def u₀ : UU :=
  (initOf (Pipeline.cells cfgs cellOf_inj) (Pipeline.launchToks cfgs cellOf_inj), initOf agCells agToks)

/-- The duty tokens of device `c`'s own cells. -/
def toks (c : Dev nD) : sProp 𝕄 :=
  iprop((bigSep Finset.univ fun k : CK => dutyTok ER (cell c k) 0 false) ∗ dutyTok ER (cell c .bar) 0 true)

/-- What the launch element deals device `c`. -/
def G (c : Dev nD) : sProp 𝕄 :=
  iprop((bigSep Finset.univ fun k : CK => roundState ER (sched m) (cell c k) 0)
    ∗ (bigSep Finset.univ fun k : CK => iprop(atPos ER (cell c k) 0 ∅ 0 ∗ reached ER (cell c k) 0)) ∗ toks c)

/-- What the global step makes of it. -/
def G' (c : Dev nD) : sProp 𝕄 := iprop(∃ K, ghost m K c)

omit [FloatOps F] in
theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun k : CK => Φ (cell c k) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => by unfold toks; rw [bigSep_univ_sum, bigSep_univ_of_subsingleton ()]; rfl
  iintro HX
  imod (Rounds.fund ER (sched m) agCells agToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (sched m) κ (cell c k)))
          ∗ (bigSep Finset.univ fun k : CK => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (cell c k) 0) ∗ bigSep Finset.univ fun k : CK => roundState ER (sched m) (cell c k) 0)
      ⊢ (|={Set.univ}=> bigSep Finset.univ fun k : CK => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay the duties -/

omit [FloatOps F] in
/-- A barrier's `false` token goes to the first-axis neighbour of its owner, its `true` token to the second-axis
    neighbour; the token of a direct chunk's arrival to the first-axis neighbour, of a relayed chunk's arrival to the
    second-axis neighbour; the tokens of the sends, the relays and the local copy stay. -/
theorem toks_around : (bigSep Finset.univ fun c : Dev nD => (toks c : sProp 𝕄)) ⊢ bigSep Finset.univ fun c : Dev nD => payToks c := by
  have h1 : (bigSep Finset.univ fun c : Dev nD => (toks c : sProp 𝕄))
      = bigSep Finset.univ fun c : Dev nD => iprop((dutyTok ER (cell c .bar) 0 false
          ∗ (bigSep Finset.univ fun k : Fin 32 => dutyTok ER (cell c (.A k)) 0 false)
          ∗ (bigSep Finset.univ fun k : Fin 32 => dutyTok ER (cell c (.B k)) 0 false)
          ∗ (bigSep Finset.univ fun k : Fin 32 => dutyTok ER (cell c (.C k)) 0 false)
          ∗ (bigSep Finset.univ fun k : Fin 32 => dutyTok ER (cell c (.D k)) 0 false)
          ∗ dutyTok ER (cell c .E) 0 false) ∗ dutyTok ER (cell c .bar) 0 true) :=
    bigSep_congr fun c _ => by unfold toks; rw [bigSep_CK]
  rw [h1]
  unfold payToks
  simp only [bigSep_sep']
  rw [bigSep_univ_equiv xnE (fun c : Dev nD => (dutyTok ER (cell c .bar) 0 false : sProp 𝕄)),
    bigSep_univ_equiv ynE (fun c : Dev nD => (dutyTok ER (cell c .bar) 0 true : sProp 𝕄)),
    bigSep_univ_equiv xnE (fun c : Dev nD => (bigSep Finset.univ fun k : Fin 32 => dutyTok ER (cell c (.B k)) 0 false : sProp 𝕄)),
    bigSep_univ_equiv ynE (fun c : Dev nD => (bigSep Finset.univ fun k : Fin 32 => dutyTok ER (cell c (.D k)) 0 false : sProp 𝕄))]
  iintro ⟨⟨H1, HA, HB, HC, HD, HE⟩, HT⟩
  isplitl [H1]; · iexact H1
  isplitl [HT]; · iexact HT
  isplitl [HE]; · iexact HE
  isplitl [HA]; · iexact HA
  isplitl [HB]; · iexact HB
  isplitl [HC]; · iexact HC
  iexact HD

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells' invariants and that every cell is at its round 0: shared by all devices. -/
def records (K : Dev nD × CK → ℕ) : sProp 𝕄 := iprop(recI m K ∗ recR)

instance records_persistent (K : Dev nD × CK → ℕ) : BI.Persistent (records m K) := by unfold records; infer_instance

omit [FloatOps F] in
theorem ghost_intro (K : Dev nD × CK → ℕ) (c : Dev nD) : iprop(records m K ∗ (positions c ∗ payToks c)) ⊢ G' m c := by
  unfold records G' ghost
  iintro ⟨⟨HI, HR⟩, Hp, Ht⟩
  iexists K
  isplitl [HI]; · iexact HI
  isplitl [HR]; · iexact HR
  isplitl [Hp]; · iexact Hp
  iexact Ht

omit [FloatOps F] in
theorem regroup :
    (bigSep Finset.univ fun c : Dev nD => iprop((bigSep Finset.univ fun k : CK => iprop(∃ κ : ℕ, cellInv ER (sched m) κ (cell c k)))
          ∗ (bigSep Finset.univ fun k : CK => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : Dev nD × CK => iprop(∃ κ : ℕ, cellInv ER (sched m) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (sched m) κ (cell ck.1 ck.2) : sProp 𝕄))) $$ HI
  icases HK with ⟨%K, #HI⟩
  ihave Htk := (toks_around (F := F)) $$ Htok
  iapply (bigSep_with_persistent (R := records m K) fun c _ => ghost_intro m K c)
  isplitr
  · unfold records recI recR; isplitl; · iexact HI
    iexact HR
  · iapply (Entails.of_eq (bigSep_sep' Finset.univ (fun c : Dev nD => (positions c : sProp 𝕄)) payToks).symm)
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds (F := F) c) $$ Hcr
  imodintro
  unfold start launchCreds bufs0 G'
  isplitl
  · isplitl [HG]; · iexact HG
    isplitl [Hc]; · iexact Hc
    isplitl [Hlev]; · iexact Hlev
    isplitl [Ha]; · iexact Ha
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, -⟩
  iexact Hs

/-- What a device ends with: its result array at contents that are, piece by piece, what the copies deliver, and its
    block as it was. -/
def Yc (c : Dev nD) : sProp 𝕄 :=
  iprop((∃ g, ⌜OutSpec m c g⌝ ∗ (((c : Thread nD τ).loc main_v1) ↦{fullShare} g)) ∗ (((c : Thread nD τ).loc main_arg0) ↦{fullShare} X m c))

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq, ownSems0_DK, bigSep_DK]
  unfold Φ₁ Yc ownZeros
  iintro ⟨Hg, Ha, HA, HB, HC, HD, HE⟩
  isplitl [Hg Ha]
  · isplitl [Hg]; · iexact Hg
    iexact Ha
  isplitl [HA HB HC HD HE]
  · isplitl [HA]; · iexact HA
    isplitl [HB]; · iexact HB
    isplitl [HC]; · iexact HC
    isplitl [HD]; · iexact HD
    iexact HE
  · iempintro

theorem waits (c : Dev nD) : (levAts L lv : sProp 𝕄) ⊢ Pipeline.cellsWaits cfgs (dats m) () 0 c :=
  Pipeline.cellsWaits_intro cfgs (dats m) () 0 c fun w s t => w.elim0

/-! ## The run -/

set_option maxRecDepth 65536 in
/-- At the compiled mesh, from any memory with zero counters, given the body obligation: every weakly fair execution of
    @main terminates, and in every final state each device's result array holds piece by piece what the copies deliver
    and its block is unchanged. -/
theorem run_main (hbody : ∀ c, BodyObligation (dats (F := F) m 0 c) (defs₀ (F := F)) 𝒱₀ () Set.univ) :
    θ_run defs (onTc (τ := τ) (main (F := F))) ⟨m, fun _ => 0, ρ⟩ (fun r => ∀ c : Dev nD,
      (∃ g, OutSpec m c g ∧ r.2.mem ((c.tc : Thread nD τ).loc main_v1) = g)
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => (∃ g, OutSpec m c g ∧ s.mem ((c.tc : Thread nD τ).loc main_v1) = g)
      ∧ s.mem ((c.tc : Thread nD τ).loc main_arg0) = m ((c.tc : Thread nD τ).loc main_arg0))
    (hY := fun c s' => by
      unfold Yc
      iintro ⟨⟨⟨%g, %hg, Hv⟩, Ha⟩, -, HSI⟩
      icombine HSI Hv gives %hv
      icombine HSI Ha gives %ha
      imodintro
      isplitr
      · ipureintro; exact ⟨⟨g, hg, Buf.eq_of_forall_mem_univ hv⟩, Buf.eq_of_forall_mem_univ ha⟩
      iexact HSI)
    (hQ := fun _ h c => (h c).2.2)

/-- info: 'Cert.Kernel.AG.run_main' depends on axioms: [propext, Classical.choice, Quot.sound] -/
#guard_msgs in #print axioms run_main

end Cert.Kernel.AG

end
-- ==== Proof.BgRun.lean ====
/-
  The device's run from what the launch deals it to what it hands back — the pieces of its arrays set apart, the body,
  the pieces joined — and with it the run of the whole mesh.
-/
import proofs.«900087_g7700000000000088_dist_ag_v7x_xy2x2_x_m4096_n1024_f32_1_alg».proof.Proof.BgBody
import proofs.«900087_g7700000000000088_dist_ag_v7x_xy2x2_x_m4096_n1024_f32_1_alg».proof.Proof.BgPrep
import proofs.«900087_g7700000000000088_dist_ag_v7x_xy2x2_x_m4096_n1024_f32_1_alg».proof.Proof.BgLaunch

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The body obligation -/

omit [FloatOps F] in
theorem ow_intro (c : Dev nD) (O : CellTallies nD τ sig Unit) (W : Waits sig Unit) : owes (c : Thread nD τ) O W ⊢ (ow c O : sProp 𝕄) := by
  unfold ow; iintro H; iexists W; iexact H
omit [FloatOps F] in
theorem ow_elim (c : Dev nD) (O : CellTallies nD τ sig Unit) : (ow c O : sProp 𝕄) ⊢ iprop(∃ W : Waits sig Unit, owes (c : Thread nD τ) O W) := by
  unfold ow; exact BI.Entails.refl _

variable {m K}

/-- From what the launch deals the device to what it hands back: the arrays' pieces set apart, the run, the pieces joined. -/
theorem body_obligation (m : (ℓ : Loc nD τ sig) → Buf (Elt F) ℓ) (c : Dev nD) :
    BodyObligation (dats (F := F) m 0 c) (defs₀ (F := F)) 𝒱₀ () Set.univ := fun t => by
  rw [Gen.fin_N0 t]
  simp only [Finset.univ_eq_empty, bigSep_empty]
  show iprop(Φ₀ m c ∗ (dats m 0 c).owesAt () Gen.t0_0.castSucc ∗ emp)
    ⊢ wp frame (wpE (defs₀ (F := F)) 𝒱₀ (c : Thread nD τ) none) Set.univ
        (cc0_body (Memref.whole main_arg0) (Memref.isWhole_whole _) (Memref.whole main_v1) (Memref.isWhole_whole _)
          cc0_scratch0 cc0_scratch1 cc0_scratch2 cc0_scratch3 cc0_scratch4)
        (fun _ => iprop(Φ₁ m c ∗ (dats m 0 c).owesAt () Gen.t0_0.succ ∗ emp))
  unfold Φ₀ start Dat.owesAt Pipeline.owesWithin
  rw [show (dats m 0 c).owed Gen.t0_0.castSucc = O₀ c from rfl, show (dats m 0 c).owed Gen.t0_0.succ = 0 from rfl]
  iintro ⟨⟨⟨%K, Hg⟩, Hcr, #Hlev, Hb⟩, ⟨%W, -, HO⟩, -⟩
  ihave Hprep := (prep_in m K c) $$ [Hg Hcr Hb HO]
  · isplitl [Hg]; · iexact Hg
    isplitl [Hcr]; · iexact Hcr
    isplitr; · iexact Hlev
    isplitl [Hb]; · iexact Hb
    iapply (ow_intro c (O₀ c) W); iexact HO
  icases Hprep with ⟨HP, HxR, HoR⟩
  iapply (body_steps m K c _)
  isplitl [HP]; · iexact HP
  iintro HD
  ihave Hout := (prep_out m c) $$ [HD HxR HoR]
  · isplitl [HD]; · iexact HD
    isplitl [HxR]; · iexact HxR
    iexact HoR
  icases Hout with ⟨HΦ, HO⟩
  ihave HO' := (ow_elim c 0) $$ HO
  icases HO' with ⟨%W', HO⟩
  isplitl [HΦ]; · iexact HΦ
  isplitl [HO]
  · iexists W'
    isplitr; · ipureintro; exact fun _ _ => Or.inl trivial
    iexact HO
  iempintro

/-- At the compiled mesh of four devices, from any memory with zero counters: every weakly fair execution terminates,
    each device's result array ends filled piece by piece as `OutSpec` says, and its block of the array is unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      (∃ g, OutSpec m c g ∧ r.2.mem ((c.tc : Thread nD τ).loc main_v1) = g)
        ∧ r.2.mem ((c.tc : Thread nD τ).loc main_arg0) = m ((c.tc : Thread nD τ).loc main_arg0)) :=
  run_main m ρ (body_obligation m)

/-- info: 'Cert.Kernel.AG.run' depends on axioms: [propext, Classical.choice, Quot.sound] -/
#guard_msgs in #print axioms run

end Cert.Kernel.AG

end
-- ==== Proof.AgValue.lean ====
/-
  What the all-gather delivers. Each device's input is its block of rows of the whole array; its result array is
  written in three families of pieces (its own block, the chunks straight from the first-axis neighbour, the
  chunks relayed by the second-axis neighbour). This module computes, by coordinates, that every piece holds
  the rows of the whole array it sits on, and concludes with the cover that the result is the whole array.
-/
import proofs.«900087_g7700000000000088_dist_ag_v7x_xy2x2_x_m4096_n1024_f32_1_alg».proof.Proof.AgRegions
import Idealize.ShloMosaic.Lib.Layout

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## Where the pieces' own indices land -/

theorem o1_emb (c : Dev nD) (k : Fin 32) (y : S64x1024.Idx) :
    ((o1 c k).view.emb y 0).val = 4096 * (c.val / 2) + 2048 * (c.val % 2) + 64 * k.val + (y 0).val
      ∧ ((o1 c k).view.emb y 1).val = (y 1).val := by
  have e : ∀ a, ((o1 c k).view.emb y a).val = k0_off1 c (BitVec.ofNat 32 (64 * k.val)) a + 1 * (y a).val := fun a => rfl
  rw [e, e, Gen.k0_off1_eq]
  simp only [Matrix.cons_val_zero, Matrix.cons_val_one]
  omega

theorem xSl_emb (c : Dev nD) (k : Fin 32) (y : S64x1024.Idx) :
    ((xSl c k).view.emb y 0).val = 2048 * (c.val % 2) + 64 * k.val + (y 0).val
      ∧ ((xSl c k).view.emb y 1).val = (y 1).val := by
  have e : ∀ a, ((xSl c k).view.emb y a).val = k0_off2 c (BitVec.ofNat 32 (64 * k.val)) a + 1 * (y a).val := fun a => rfl
  rw [e, e, Gen.k0_off2_eq]
  simp only [Matrix.cons_val_zero, Matrix.cons_val_one]
  omega

theorem o3_emb (c : Dev nD) (y : S4096x1024.Idx) :
    ((o3 c).view.emb y 0).val = 4096 * (c.val / 2) + (y 0).val ∧ ((o3 c).view.emb y 1).val = (y 1).val := by
  have e : ∀ a, ((o3 c).view.emb y a).val = k0_off3 c a + 1 * (y a).val := fun a => rfl
  rw [e, e, Gen.k0_off3_eq]
  simp only [Matrix.cons_val_zero, Matrix.cons_val_one]
  omega

/-! ## A device's block of the whole array -/

theorem meshBlock_row : ∀ c : Dev nD, ((Layout.meshBlock [2, 2] ![[0], []] c) 0).val = c.val / 2 := by decide
theorem meshBlock_col : ∀ c : Dev nD, ((Layout.meshBlock [2, 2] ![[0], []] c) 1).val = 0 := by decide

/-- Row `r` of device `c`'s block is row `4096 (c / 2) + r` of the whole array. -/
theorem blockN_at (A : S8192x1024.Idx → Elt F .f32) (c : Dev nD) (z : S4096x1024.Idx) (i : S8192x1024.Idx)
    (h0 : (i 0).val = 4096 * (c.val / 2) + (z 0).val) (h1 : (i 1).val = (z 1).val) :
    (Layout.blockN ⟨2, ![4096, 1024]⟩ ⟨2, ![8192, 1024]⟩ (Layout.meshBlock [2, 2] ![[0], []] c) A) z = A i := by
  rw [Layout.blockN_apply]
  congr 1
  funext a
  apply Fin.ext
  revert a
  rw [Fin.forall_fin_two]
  refine ⟨?_, ?_⟩
  · rw [Layout.TilesN.idx_val, h0]
    show ((Layout.meshBlock [2, 2] ![[0], []] c) 0).val * 4096 + (z 0).val = _
    rw [meshBlock_row]; omega
  · rw [Layout.TilesN.idx_val, h1]
    show ((Layout.meshBlock [2, 2] ![[0], []] c) 1).val * 1024 + (z 1).val = _
    rw [meshBlock_col]; omega

/-! ## What each piece holds is the whole array there -/

section
variable (A : S8192x1024.Idx → Elt F .f32)
  (hA : ∀ c : Dev nD, m ((c : Thread nD τ).loc main_arg0)
    = Layout.blockN ⟨2, ![4096, 1024]⟩ ⟨2, ![8192, 1024]⟩ (Layout.meshBlock [2, 2] ![[0], []] c) A)
include hA

theorem W3_val (c : Dev nD) (i : S8192x1024.Idx) (hi : i ∈ (o3 c).view.set) : W3 m c i = A i := by
  obtain ⟨y, -, rfl⟩ := Finset.mem_map.mp hi
  unfold W3
  rw [View.write_emb_of_mem _ _ (Finset.mem_univ y), View.read_apply, cast_cast, cast_eq]
  show m ((c : Thread nD τ).loc main_arg0) y = _
  rw [hA c]
  exact blockN_at A c y _ (o3_emb c y).1 (o3_emb c y).2

theorem W1_val (c : Dev nD) (k : Fin 32) (i : S8192x1024.Idx) (hi : i ∈ (o1 (xn c) k).view.set) : W1 m c k i = A i := by
  obtain ⟨y, -, rfl⟩ := Finset.mem_map.mp hi
  unfold W1
  rw [View.write_emb_of_mem _ _ (Finset.mem_univ y), View.read_apply, cast_cast, cast_eq]
  show m (((xn c) : Thread nD τ).loc main_arg0) ((xSl (xn c) k).view.emb y) = _
  rw [hA (xn c)]
  obtain ⟨ho0, ho1⟩ := o1_emb (xn c) k y
  obtain ⟨hx0, hx1⟩ := xSl_emb (xn c) k y
  exact blockN_at A (xn c) _ _ (by rw [ho0, hx0]; omega) (by rw [ho1, hx1])

theorem W4_val (c : Dev nD) (k : Fin 32) (i : S8192x1024.Idx) (hi : i ∈ (o4 (yn c) k).view.set) : W4 m c k i = A i := by
  have hi' : i ∈ (o1 (xn (yn c)) k).view.set := by
    have h4 := (mem_o4 (yn c) k i).mp hi
    have hy : (yn c).val < 4 := (yn c).isLt
    rw [mem_o1, xn_val]; omega
  obtain ⟨y, -, rfl⟩ := Finset.mem_map.mp hi
  unfold W4
  rw [View.write_emb_of_mem _ _ (Finset.mem_univ y), View.read_apply, cast_cast, cast_eq]
  exact W1_val m A hA (yn c) k _ hi'

/-- A result array that holds, piece by piece, what the copies deliver is the whole array. -/
theorem out_value (c : Dev nD) (g : Buf (Elt F) ((c : Thread nD τ).loc main_v1)) (hg : OutSpec m c g) : g = A := by
  funext i
  rcases cover' c i with h | ⟨k, h⟩ | ⟨k, h⟩
  · rw [hg.own i h]; exact W3_val m A hA c i h
  · rw [hg.direct k i h]; exact W1_val m A hA c k i h
  · rw [hg.relayed k i h]; exact W4_val m A hA c k i h

end

end Cert.KernelIdeal.AG

end
-- ==== Proof.AgRef.lean ====
/-
  The reference returns its argument: its run performs no operation and leaves the array as it was.
-/
import proofs.«900087_g7700000000000088_dist_ag_v7x_xy2x2_x_m4096_n1024_f32_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations: none. -/
abbrev ops : List (HloOp τ sig (Elt F)) := []

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates with the array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans (by after_results))
    (run_seq scopedRefs_eq scopedSems_eq defs main (fun _ => ops) main_eq (fun _ => trivial) m ρ)

end Cert.ReferenceIdeal.RefRun

end
-- ==== Proof.lean ====
/-
  An all-gather on a 2 × 2 mesh against the identity on the whole array.  Each device's result array ends holding
  the whole array: its own block copied locally, one half of the other block received directly, the other half
  relayed; the pieces tile the array, and what lands in each piece is the whole array's rows there.  The word-level
  kernel and its idealization run by one proof, generic in the float instance; the reference performs no operation.
-/
import proofs.«900087_g7700000000000088_dist_ag_v7x_xy2x2_x_m4096_n1024_f32_1_alg».proof.Defs
import proofs.«900087_g7700000000000088_dist_ag_v7x_xy2x2_x_m4096_n1024_f32_1_alg».proof.Proof.Gen.Kernel
import proofs.«900087_g7700000000000088_dist_ag_v7x_xy2x2_x_m4096_n1024_f32_1_alg».proof.Proof.Gen.Kernel.Skeleton
import proofs.«900087_g7700000000000088_dist_ag_v7x_xy2x2_x_m4096_n1024_f32_1_alg».proof.Proof.Gen.Kernel.Launch
import proofs.«900087_g7700000000000088_dist_ag_v7x_xy2x2_x_m4096_n1024_f32_1_alg».proof.Proof.Gen.Kernel.Points
import proofs.«900087_g7700000000000088_dist_ag_v7x_xy2x2_x_m4096_n1024_f32_1_alg».proof.Proof.Gen.Kernel.Frame
import proofs.«900087_g7700000000000088_dist_ag_v7x_xy2x2_x_m4096_n1024_f32_1_alg».proof.Proof.Gen.KernelIdeal
import proofs.«900087_g7700000000000088_dist_ag_v7x_xy2x2_x_m4096_n1024_f32_1_alg».proof.Proof.Gen.KernelIdeal.Skeleton
import proofs.«900087_g7700000000000088_dist_ag_v7x_xy2x2_x_m4096_n1024_f32_1_alg».proof.Proof.Gen.KernelIdeal.Launch
import proofs.«900087_g7700000000000088_dist_ag_v7x_xy2x2_x_m4096_n1024_f32_1_alg».proof.Proof.Gen.KernelIdeal.Points
import proofs.«900087_g7700000000000088_dist_ag_v7x_xy2x2_x_m4096_n1024_f32_1_alg».proof.Proof.Gen.KernelIdeal.Frame
import proofs.«900087_g7700000000000088_dist_ag_v7x_xy2x2_x_m4096_n1024_f32_1_alg».proof.Proof.Gen.ReferenceIdeal
import proofs.«900087_g7700000000000088_dist_ag_v7x_xy2x2_x_m4096_n1024_f32_1_alg».proof.Proof.Gen.Pre_finite_inputs_Kernel
import proofs.«900087_g7700000000000088_dist_ag_v7x_xy2x2_x_m4096_n1024_f32_1_alg».proof.Proof.Gen.Pre_finite_inputs_ReferenceIdeal
import proofs.«900087_g7700000000000088_dist_ag_v7x_xy2x2_x_m4096_n1024_f32_1_alg».proof.Proof.AgRun
import proofs.«900087_g7700000000000088_dist_ag_v7x_xy2x2_x_m4096_n1024_f32_1_alg».proof.Proof.BgRun
import proofs.«900087_g7700000000000088_dist_ag_v7x_xy2x2_x_m4096_n1024_f32_1_alg».proof.Proof.AgValue
import proofs.«900087_g7700000000000088_dist_ag_v7x_xy2x2_x_m4096_n1024_f32_1_alg».proof.Proof.AgRef
import Idealize.ShloMosaic.Adequacy
import Idealize.ShloMosaic.Init

noncomputable section

namespace Cert.Proof

open Idealize.ShloMosaic Idealize.SL.Sem

/-- The word-level kernel runs and leaves every device's block as it was. -/
theorem frame_k : Cert.frame_Kernel (hKernel := Cert.Kernel.Gen.facts) (hPre_finite_inputs_Kernel := Cert.Pre_finite_inputs_Kernel.Gen.facts) :=
  fun m g _ => (θ_run (Cert.Kernel.defs (F := Bits)) _ _).mono (fun _ h c => (h c).2) (Cert.Kernel.AG.run (F := Bits) m g)

/-- So does its idealization. -/
theorem frame_ki : Cert.frame_KernelIdeal (hKernelIdeal := Cert.KernelIdeal.Gen.facts) (hPre_finite_inputs_Kernel := Cert.Pre_finite_inputs_Kernel.Gen.facts) :=
  fun m g _ => (θ_run (Cert.KernelIdeal.defs (F := Ideal)) _ _).mono (fun _ h c => (h c).2) (Cert.KernelIdeal.AG.run (F := Ideal) m g)

/-- The reference runs and leaves the array as it was. -/
theorem frame_ri : Cert.frame_ReferenceIdeal (hReferenceIdeal := Cert.ReferenceIdeal.Gen.facts) (hPre_finite_inputs_ReferenceIdeal := Cert.Pre_finite_inputs_ReferenceIdeal.Gen.facts) :=
  fun m g _ => Cert.ReferenceIdeal.RefRun.run (F := Ideal) m g

/-- Every device's result array ends as the whole array, which is what the reference returns. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m g m' g' _ hblk
  refine ⟨m' (((0 : Dev Cert.ReferenceIdeal.nD).tc : Thread Cert.ReferenceIdeal.nD Cert.ReferenceIdeal.τ).loc Cert.ReferenceIdeal.main_arg0), ?_, ?_⟩
  · refine (θ_run (Cert.KernelIdeal.defs (F := Ideal)) _ _).mono (fun _ h c => ⟨?_, (h c).2⟩) (Cert.KernelIdeal.AG.run (F := Ideal) m g)
    obtain ⟨g₀, hg, e⟩ := (h c).1
    rw [e]
    exact Cert.KernelIdeal.AG.out_value m _ hblk c g₀ hg
  · exact (θ_run (Cert.ReferenceIdeal.defs (F := Ideal)) _ _).mono (fun _ h => ⟨h 0, h 0⟩) (Cert.ReferenceIdeal.RefRun.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, trivial, algebraic⟩

end Cert.Proof

end
